-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x3200000 : Shape := ⟨2, ![2, 3200000]⟩
abbrev S3200000 : Shape := ⟨1, ![3200000]⟩
abbrev S5x10x30 : Shape := ⟨3, ![5, 10, 30]⟩
abbrev S30 : Shape := ⟨1, ![30]⟩
abbrev S5x30x30 : Shape := ⟨3, ![5, 30, 30]⟩
abbrev S30x4 : Shape := ⟨2, ![30, 4]⟩
abbrev S4 : Shape := ⟨1, ![4]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S5x10x30 : S_.BroadcastsInDim S5x10x30 (![] : Fin 0 → Fin S5x10x30.rank)
  reducesTo_S5x10x30_S_d0_1_2 : S5x10x30.ReducesTo [0, 1, 2] S_
  bcast_S_S30 : S_.BroadcastsInDim S30 (![] : Fin 0 → Fin S30.rank)
  reducesTo_S30_S_d0 : S30.ReducesTo [0] S_
  bcast_S_S5x30x30 : S_.BroadcastsInDim S5x30x30 (![] : Fin 0 → Fin S5x30x30.rank)
  reducesTo_S5x30x30_S_d0_1_2 : S5x30x30.ReducesTo [0, 1, 2] S_
  bcast_S_S30x4 : S_.BroadcastsInDim S30x4 (![] : Fin 0 → Fin S30x4.rank)
  reducesTo_S30x4_S_d0_1 : S30x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S4 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg5 : FVec F S5x30x30 .f32) (main_arg6 : FVec F S30 .f32) (main_arg7 : FVec F S30x4 .f32) (main_arg8 : FVec F S4 .f32) (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  let main_v19 : FVec F S5x30x30 .f32 := Host.absf main_arg5
  let main_cst_6 : FVec F S_ .f32 := constant S_ .f32 0x7F800000#32
  let main_v20 : FVec F S5x30x30 .f32 := broadcastInDim S5x30x30 ![] bcast_S_S5x30x30 main_cst_6
  let main_v21 : IVec S5x30x30 1 := cmpf .olt main_v19 main_v20
  let main_c_7 : IVec S_ 1 := constantI S_ 1 1#1
  let main_v22 : IVec S_ 1 := (fun x v => Host.reduce IntOp.andi x v reducesTo_S5x30x30_S_d0_1_2 h_S_) main_v21 main_c_7
  let main_v23 : IVec S_ 1 := andi main_v18 main_v22
  let main_v24 : FVec F S30 .f32 := Host.absf main_arg6
  let main_cst_8 : FVec F S_ .f32 := constant S_ .f32 0x7F800000#32
  let main_v25 : FVec F S30 .f32 := broadcastInDim S30 ![] bcast_S_S30 main_cst_8
  let main_v26 : IVec S30 1 := cmpf .olt main_v24 main_v25
  let main_c_9 : IVec S_ 1 := constantI S_ 1 1#1
  let main_v27 : IVec S_ 1 := (fun x v => Host.reduce IntOp.andi x v reducesTo_S30_S_d0 h_S_) main_v26 main_c_9
  let main_v28 : IVec S_ 1 := andi main_v23 main_v27
  let main_v29 : FVec F S30x4 .f32 := Host.absf main_arg7
  let main_cst_10 : FVec F S_ .f32 := constant S_ .f32 0x7F800000#32
  let main_v30 : FVec F S30x4 .f32 := broadcastInDim S30x4 ![] bcast_S_S30x4 main_cst_10
  let main_v31 : IVec S30x4 1 := cmpf .olt main_v29 main_v30
  let main_c_11 : IVec S_ 1 := constantI S_ 1 1#1
  let main_v32 : IVec S_ 1 := (fun x v => Host.reduce IntOp.andi x v reducesTo_S30x4_S_d0_1 h_S_) main_v31 main_c_11
  let main_v33 : IVec S_ 1 := andi main_v28 main_v32
  fn_part2 (F := F) main_arg8 main_v33

def fn {F : FTy → Type} [FloatOps F] (main_arg0 : FVec F S100000x10 .f32) (main_arg1 : IVec S2x3200000 32) (main_arg2 : FVec F S3200000 .f32) (main_arg3 : FVec F S5x10x30 .f32) (main_arg4 : FVec F S30 .f32) (main_arg5 : FVec F S5x30x30 .f32) (main_arg6 : FVec F S30 .f32) (main_arg7 : FVec F S30x4 .f32) (main_arg8 : FVec F S4 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S5x10x30 .f32 := Host.absf main_arg3
  let main_cst_2 : FVec F S_ .f32 := constant S_ .f32 0x7F800000#32
  let main_v10 : FVec F S5x10x30 .f32 := broadcastInDim S5x10x30 ![] bcast_S_S5x10x30 main_cst_2
  let main_v11 : IVec S5x10x30 1 := cmpf .olt main_v9 main_v10
  let main_c_3 : IVec S_ 1 := constantI S_ 1 1#1
  let main_v12 : IVec S_ 1 := (fun x v => Host.reduce IntOp.andi x v reducesTo_S5x10x30_S_d0_1_2 h_S_) main_v11 main_c_3
  let main_v13 : IVec S_ 1 := andi main_v8 main_v12
  let main_v14 : FVec F S30 .f32 := Host.absf main_arg4
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_arg5 main_arg6 main_arg7 main_arg8 main_v13 main_v16
-- ==== Kernel.lean ====
abbrev S100000x10 : Shape := ⟨2, ![100000, 10]⟩
abbrev S2x3200000 : Shape := ⟨2, ![2, 3200000]⟩
abbrev S3200000 : Shape := ⟨1, ![3200000]⟩
abbrev S5x10x30 : Shape := ⟨3, ![5, 10, 30]⟩
abbrev S30 : Shape := ⟨1, ![30]⟩
abbrev S5x30x30 : Shape := ⟨3, ![5, 30, 30]⟩
abbrev S30x4 : Shape := ⟨2, ![30, 4]⟩
abbrev S4 : Shape := ⟨1, ![4]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S3200000x10 : Shape := ⟨2, ![3200000, 10]⟩
abbrev S1x100000x10 : Shape := ⟨3, ![1, 100000, 10]⟩
abbrev S5x100000x10 : Shape := ⟨3, ![5, 100000, 10]⟩
abbrev S100000x30 : Shape := ⟨2, ![100000, 30]⟩
abbrev S5x10000x10 : Shape := ⟨3, ![5, 10000, 10]⟩
abbrev S10000x30 : Shape := ⟨2, ![10000, 30]⟩
abbrev S1x10000x10 : Shape := ⟨3, ![1, 10000, 10]⟩
abbrev S10000x10 : Shape := ⟨2, ![10000, 10]⟩
abbrev S1x10x30 : Shape := ⟨3, ![1, 10, 30]⟩
abbrev S10x30 : Shape := ⟨2, ![10, 30]⟩
abbrev S1x30 : Shape := ⟨2, ![1, 30]⟩
abbrev S3200000x30 : Shape := ⟨2, ![3200000, 30]⟩
abbrev S1x100000x30 : Shape := ⟨3, ![1, 100000, 30]⟩
abbrev S5x100000x30 : Shape := ⟨3, ![5, 100000, 30]⟩
abbrev S5x10000x30 : Shape := ⟨3, ![5, 10000, 30]⟩
abbrev S1x10000x30 : Shape := ⟨3, ![1, 10000, 30]⟩
abbrev S1x30x30 : Shape := ⟨3, ![1, 30, 30]⟩
abbrev S30x30 : Shape := ⟨2, ![30, 30]⟩
abbrev S1x30x4 : Shape := ⟨3, ![1, 30, 4]⟩
abbrev S100000x4 : Shape := ⟨2, ![100000, 4]⟩
abbrev S10000x4 : Shape := ⟨2, ![10000, 4]⟩
abbrev S1x4 : Shape := ⟨2, ![1, 4]⟩

abbrev nBuf : Space → Nat
  | .hbm => 229
  | .vmem => 18
  | .smem => 0
  | _ => 0

abbrev hbmTy0_0 (i : Nat) : BufTy := match i % 128 with
  | 0 => ⟨S100000x10, .f32⟩
  | 1 => ⟨S2x3200000, .i32⟩
  | 2 => ⟨S3200000, .f32⟩
  | 3 => ⟨S5x10x30, .f32⟩
  | 4 => ⟨S30, .f32⟩
  | 5 => ⟨S5x30x30, .f32⟩
  | 6 => ⟨S30, .f32⟩
  | 7 => ⟨S30x4, .f32⟩
  | 8 => ⟨S4, .f32⟩
  | 9 => ⟨S1x3200000, .i32⟩
  | 10 => ⟨S3200000, .i32⟩
  | 11 => ⟨S1x3200000, .i32⟩
  | 12 => ⟨S3200000, .i32⟩
  | 13 => ⟨S3200000, .i1⟩
  | 14 => ⟨S_, .f32⟩
  | 15 => ⟨S_, .f32⟩
  | 16 => ⟨S3200000, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x10, .f32⟩
  | 63 => ⟨S3200000x1, .f32⟩
  | 64 => ⟨S3200000x10, .f32⟩
  | 65 => ⟨S3200000x10, .f32⟩
  | 66 => ⟨S_, .f32⟩
  | 67 => ⟨S100000x10, .f32⟩
  | 68 => ⟨S3200000x1, .i32⟩
  | 69 => ⟨S100000x10, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x10, .f32⟩
  | 79 => ⟨S3200000x1, .f32⟩
  | 80 => ⟨S3200000x10, .f32⟩
  | 81 => ⟨S3200000x10, .f32⟩
  | 82 => ⟨S_, .f32⟩
  | 83 => ⟨S100000x10, .f32⟩
  | 84 => ⟨S3200000x1, .i32⟩
  | 85 => ⟨S100000x10, .f32⟩
  | 86 => ⟨S_, .f32⟩
  | 87 => ⟨S100000x10, .f32⟩
  | 88 => ⟨S100000x10, .f32⟩
  | 89 => ⟨S100000x10, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000x10, .f32⟩
  | 99 => ⟨S3200000x1, .f32⟩
  | 100 => ⟨S3200000x10, .f32⟩
  | 101 => ⟨S3200000x10, .f32⟩
  | 102 => ⟨S_, .f32⟩
  | 103 => ⟨S100000x10, .f32⟩
  | 104 => ⟨S3200000x1, .i32⟩
  | 105 => ⟨S100000x10, .f32⟩
  | 106 => ⟨S_, .f32⟩
  | 107 => ⟨S100000x10, .f32⟩
  | 108 => ⟨S100000x10, .f32⟩
  | 109 => ⟨S100000x10, .f32⟩
  | 110 => ⟨S_, .i32⟩
  | 111 => ⟨S3200000, .i32⟩
  | 112 => ⟨S3200000, .i1⟩
  | 113 => ⟨S_, .i32⟩
  | 114 => ⟨S3200000, .i32⟩
  | 115 => ⟨S3200000, .i32⟩
  | 116 => ⟨S3200000, .i32⟩
  | 117 => ⟨S3200000x1, .i32⟩
  | 118 => ⟨S3200000x10, .f32⟩
  | 119 => ⟨S3200000x1, .f32⟩
  | 120 => ⟨S3200000x10, .f32⟩
  | 121 => ⟨S3200000x10, .f32⟩
  | 122 => ⟨S_, .f32⟩
  | 123 => ⟨S100000x10, .f32⟩
  | 124 => ⟨S3200000x1, .i32⟩
  | 125 => ⟨S100000x10, .f32⟩
  | 126 => ⟨S_, .f32⟩
  | 127 => ⟨S100000x10, .f32⟩
  | _ => ⟨S100000x10, .f32⟩

abbrev hbmTy0_1 (i : Nat) : BufTy := match i % 128 with
  | 0 => ⟨S100000x10, .f32⟩
  | 1 => ⟨S100000x10, .f32⟩
  | 2 => ⟨S1x100000x10, .f32⟩
  | 3 => ⟨S1x100000x10, .f32⟩
  | 4 => ⟨S1x100000x10, .f32⟩
  | 5 => ⟨S1x100000x10, .f32⟩
  | 6 => ⟨S1x100000x10, .f32⟩
  | 7 => ⟨S5x100000x10, .f32⟩
  | 8 => ⟨S5x100000x10, .bf16⟩
  | 9 => ⟨S5x10x30, .bf16⟩
  | 10 => ⟨S100000x30, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x30, .f32⟩
  | 20 => ⟨S3200000x1, .f32⟩
  | 21 => ⟨S3200000x30, .f32⟩
  | 22 => ⟨S3200000x30, .f32⟩
  | 23 => ⟨S_, .f32⟩
  | 24 => ⟨S100000x30, .f32⟩
  | 25 => ⟨S3200000x1, .i32⟩
  | 26 => ⟨S100000x30, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x30, .f32⟩
  | 36 => ⟨S3200000x1, .f32⟩
  | 37 => ⟨S3200000x30, .f32⟩
  | 38 => ⟨S3200000x30, .f32⟩
  | 39 => ⟨S_, .f32⟩
  | 40 => ⟨S100000x30, .f32⟩
  | 41 => ⟨S3200000x1, .i32⟩
  | 42 => ⟨S100000x30, .f32⟩
  | 43 => ⟨S_, .f32⟩
  | 44 => ⟨S100000x30, .f32⟩
  | 45 => ⟨S100000x30, .f32⟩
  | 46 => ⟨S100000x30, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x30, .f32⟩
  | 56 => ⟨S3200000x1, .f32⟩
  | 57 => ⟨S3200000x30, .f32⟩
  | 58 => ⟨S3200000x30, .f32⟩
  | 59 => ⟨S_, .f32⟩
  | 60 => ⟨S100000x30, .f32⟩
  | 61 => ⟨S3200000x1, .i32⟩
  | 62 => ⟨S100000x30, .f32⟩
  | 63 => ⟨S_, .f32⟩
  | 64 => ⟨S100000x30, .f32⟩
  | 65 => ⟨S100000x30, .f32⟩
  | 66 => ⟨S100000x30, .f32⟩
  | 67 => ⟨S_, .i32⟩
  | 68 => ⟨S3200000, .i32⟩
  | 69 => ⟨S3200000, .i1⟩
  | 70 => ⟨S_, .i32⟩
  | 71 => ⟨S3200000, .i32⟩
  | 72 => ⟨S3200000, .i32⟩
  | 73 => ⟨S3200000, .i32⟩
  | 74 => ⟨S3200000x1, .i32⟩
  | 75 => ⟨S3200000x30, .f32⟩
  | 76 => ⟨S3200000x1, .f32⟩
  | 77 => ⟨S3200000x30, .f32⟩
  | 78 => ⟨S3200000x30, .f32⟩
  | 79 => ⟨S_, .f32⟩
  | 80 => ⟨S100000x30, .f32⟩
  | 81 => ⟨S3200000x1, .i32⟩
  | 82 => ⟨S100000x30, .f32⟩
  | 83 => ⟨S_, .f32⟩
  | 84 => ⟨S100000x30, .f32⟩
  | 85 => ⟨S100000x30, .f32⟩
  | 86 => ⟨S100000x30, .f32⟩
  | 87 => ⟨S1x100000x30, .f32⟩
  | 88 => ⟨S1x100000x30, .f32⟩
  | 89 => ⟨S1x100000x30, .f32⟩
  | 90 => ⟨S1x100000x30, .f32⟩
  | 91 => ⟨S1x100000x30, .f32⟩
  | 92 => ⟨S5x100000x30, .f32⟩
  | 93 => ⟨S5x100000x30, .bf16⟩
  | 94 => ⟨S5x30x30, .bf16⟩
  | 95 => ⟨S100000x30, .f32⟩
  | 96 => ⟨S1x100000x30, .f32⟩
  | 97 => ⟨S1x100000x30, .bf16⟩
  | 98 => ⟨S1x30x4, .f32⟩
  | 99 => ⟨S1x30x4, .bf16⟩
  | 100 => ⟨S100000x4, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | .local _ .vmem, ⟨0, _⟩ => ⟨S5x10000x10, .bf16⟩
  | .local _ .vmem, ⟨1, _⟩ => ⟨S5x10000x10, .bf16⟩
  | .local _ .vmem, ⟨2, _⟩ => ⟨S5x10x30, .bf16⟩
  | .local _ .vmem, ⟨3, _⟩ => ⟨S30, .f32⟩
  | .local _ .vmem, ⟨4, _⟩ => ⟨S10000x30, .f32⟩
  | .local _ .vmem, ⟨5, _⟩ => ⟨S10000x30, .f32⟩
  | .local _ .vmem, ⟨6, _⟩ => ⟨S5x10000x30, .bf16⟩
  | .local _ .vmem, ⟨7, _⟩ => ⟨S5x10000x30, .bf16⟩
  | .local _ .vmem, ⟨8, _⟩ => ⟨S5x30x30, .bf16⟩
  | .local _ .vmem, ⟨9, _⟩ => ⟨S30, .f32⟩
  | .local _ .vmem, ⟨10, _⟩ => ⟨S10000x30, .f32⟩
  | .local _ .vmem, ⟨11, _⟩ => ⟨S10000x30, .f32⟩
  | .local _ .vmem, ⟨12, _⟩ => ⟨S1x10000x30, .bf16⟩
  | .local _ .vmem, ⟨13, _⟩ => ⟨S1x10000x30, .bf16⟩
  | .local _ .vmem, ⟨14, _⟩ => ⟨S1x30x4, .bf16⟩
  | .local _ .vmem, ⟨15, _⟩ => ⟨S4, .f32⟩
  | .local _ .vmem, ⟨16, _⟩ => ⟨S10000x4, .f32⟩
  | .local _ .vmem, ⟨17, _⟩ => ⟨S10000x4, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_c_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_20 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_21 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_c_23 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_24 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_25 : Ref sig .tc := ⟨.hbm, 155, rfl⟩
abbrev main_v115 : Ref sig .tc := ⟨.hbm, 156, rfl⟩
abbrev main_v116 : Ref sig .tc := ⟨.hbm, 157, rfl⟩
abbrev main_c_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_27 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_28 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_c_29 : Ref sig .tc := ⟨.hbm, 175, rfl⟩
abbrev main_v131 : Ref sig .tc := ⟨.hbm, 176, rfl⟩
abbrev main_v132 : Ref sig .tc := ⟨.hbm, 177, rfl⟩
abbrev main_c_30 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_31 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_32 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_33 : Ref sig .tc := ⟨.hbm, 195, rfl⟩
abbrev main_v147 : Ref sig .tc := ⟨.hbm, 196, rfl⟩
abbrev main_v148 : Ref sig .tc := ⟨.hbm, 197, rfl⟩
abbrev main_c_34 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_35 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_36 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x10000x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x10x30 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5x10000x30 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x30x30 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S30 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x30 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x10000x30 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x30x4 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000x10_S1x100000x10_1_2 : S100000x10.BroadcastsInDim S1x100000x10 (![1, 2] : Fin 2 → Fin S1x100000x10.rank)
  concatenates_S1x100000x10_S1x100000x10_S1x100000x10_S1x100000x10_S1x100000x10_S5x100000x10_d0 : Shape.Concatenates [S1x100000x10, S1x100000x10, S1x100000x10, S1x100000x10, S1x100000x10] S5x100000x10 0
  bitsLt_bf16_f32 : FTy.bits .bf16 < FTy.bits .f32
  inb_S5x10000x10_S1x10000x10_0_0_0 : ∀ a, (![0, 0, 0] : Fin 3 → Nat) a + S1x10000x10.size a ≤ S5x10000x10.size a
  h_S1x10000x10 : 0 < S1x10000x10.numel
  shapeCasts_S1x10000x10_S10000x10 : S1x10000x10.ShapeCasts S10000x10
  inb_S5x10x30_S1x10x30_0_0_0 : ∀ a, (![0, 0, 0] : Fin 3 → Nat) a + S1x10x30.size a ≤ S5x10x30.size a
  h_S1x10x30 : 0 < S1x10x30.numel
  shapeCasts_S1x10x30_S10x30 : S1x10x30.ShapeCasts S10x30
  inb_S5x10000x10_S1x10000x10_1_0_0 : ∀ a, (![1, 0, 0] : Fin 3 → Nat) a + S1x10000x10.size a ≤ S5x10000x10.size a
  inb_S5x10x30_S1x10x30_1_0_0 : ∀ a, (![1, 0, 0] : Fin 3 → Nat) a + S1x10x30.size a ≤ S5x10x30.size a
  inb_S5x10000x10_S1x10000x10_2_0_0 : ∀ a, (![2, 0, 0] : Fin 3 → Nat) a + S1x10000x10.size a ≤ S5x10000x10.size a
  inb_S5x10x30_S1x10x30_2_0_0 : ∀ a, (![2, 0, 0] : Fin 3 → Nat) a + S1x10x30.size a ≤ S5x10x30.size a
  inb_S5x10000x10_S1x10000x10_3_0_0 : ∀ a, (![3, 0, 0] : Fin 3 → Nat) a + S1x10000x10.size a ≤ S5x10000x10.size a
  inb_S5x10x30_S1x10x30_3_0_0 : ∀ a, (![3, 0, 0] : Fin 3 → Nat) a + S1x10x30.size a ≤ S5x10x30.size a
  inb_S5x10000x10_S1x10000x10_4_0_0 : ∀ a, (![4, 0, 0] : Fin 3 → Nat) a + S1x10000x10.size a ≤ S5x10000x10.size a
  inb_S5x10x30_S1x10x30_4_0_0 : ∀ a, (![4, 0, 0] : Fin 3 → Nat) a + S1x10x30.size a ≤ S5x10x30.size a
  inb_S30_S30_0 : ∀ a, (![0] : Fin 1 → Nat) a + S30.size a ≤ S30.size a
  h_S30 : 0 < S30.numel
  shapeCasts_S30_S1x30 : S30.ShapeCasts S1x30
  broadcasts_S1x30_S10000x30 : S1x30.Broadcasts S10000x30
  inb_S10000x30_S10000x30_0_0 : ∀ a, (![0, 0] : Fin 2 → Nat) a + S10000x30.size a ≤ S10000x30.size a
  h_S10000x30 : 0 < S10000x30.numel
  bcast_S3200000x1_S3200000x30_0_1 : S3200000x1.BroadcastsInDim S3200000x30 (![0, 1] : Fin 2 → Fin S3200000x30.rank)
  bcast_S_S100000x30 : S_.BroadcastsInDim S100000x30 (![] : Fin 0 → Fin S100000x30.rank)
  bcast_S100000x30_S1x100000x30_1_2 : S100000x30.BroadcastsInDim S1x100000x30 (![1, 2] : Fin 2 → Fin S1x100000x30.rank)
  concatenates_S1x100000x30_S1x100000x30_S1x100000x30_S1x100000x30_S1x100000x30_S5x100000x30_d0 : Shape.Concatenates [S1x100000x30, S1x100000x30, S1x100000x30, S1x100000x30, S1x100000x30] S5x100000x30 0
  inb_S5x10000x30_S1x10000x30_0_0_0 : ∀ a, (![0, 0, 0] : Fin 3 → Nat) a + S1x10000x30.size a ≤ S5x10000x30.size a
  h_S1x10000x30 : 0 < S1x10000x30.numel
  shapeCasts_S1x10000x30_S10000x30 : S1x10000x30.ShapeCasts S10000x30
  inb_S5x30x30_S1x30x30_0_0_0 : ∀ a, (![0, 0, 0] : Fin 3 → Nat) a + S1x30x30.size a ≤ S5x30x30.size a
  h_S1x30x30 : 0 < S1x30x30.numel
  shapeCasts_S1x30x30_S30x30 : S1x30x30.ShapeCasts S30x30
  inb_S5x10000x30_S1x10000x30_1_0_0 : ∀ a, (![1, 0, 0] : Fin 3 → Nat) a + S1x10000x30.size a ≤ S5x10000x30.size a
  inb_S5x30x30_S1x30x30_1_0_0 : ∀ a, (![1, 0, 0] : Fin 3 → Nat) a + S1x30x30.size a ≤ S5x30x30.size a
  inb_S5x10000x30_S1x10000x30_2_0_0 : ∀ a, (![2, 0, 0] : Fin 3 → Nat) a + S1x10000x30.size a ≤ S5x10000x30.size a
  inb_S5x30x30_S1x30x30_2_0_0 : ∀ a, (![2, 0, 0] : Fin 3 → Nat) a + S1x30x30.size a ≤ S5x30x30.size a
  inb_S5x10000x30_S1x10000x30_3_0_0 : ∀ a, (![3, 0, 0] : Fin 3 → Nat) a + S1x10000x30.size a ≤ S5x10000x30.size a
  inb_S5x30x30_S1x30x30_3_0_0 : ∀ a, (![3, 0, 0] : Fin 3 → Nat) a + S1x30x30.size a ≤ S5x30x30.size a
  inb_S5x10000x30_S1x10000x30_4_0_0 : ∀ a, (![4, 0, 0] : Fin 3 → Nat) a + S1x10000x30.size a ≤ S5x10000x30.size a
  inb_S5x30x30_S1x30x30_4_0_0 : ∀ a, (![4, 0, 0] : Fin 3 → Nat) a + S1x30x30.size a ≤ S5x30x30.size a
  bcast_S30x4_S1x30x4_1_2 : S30x4.BroadcastsInDim S1x30x4 (![1, 2] : Fin 2 → Fin S1x30x4.rank)
  inb_S1x10000x30_S1x10000x30_0_0_0 : ∀ a, (![0, 0, 0] : Fin 3 → Nat) a + S1x10000x30.size a ≤ S1x10000x30.size a
  inb_S1x30x4_S1x30x4_0_0_0 : ∀ a, (![0, 0, 0] : Fin 3 → Nat) a + S1x30x4.size a ≤ S1x30x4.size a
  h_S1x30x4 : 0 < S1x30x4.numel
  shapeCasts_S1x30x4_S30x4 : S1x30x4.ShapeCasts S30x4
  inb_S4_S4_0 : ∀ a, (![0] : Fin 1 → Nat) a + S4.size a ≤ S4.size a
  h_S4 : 0 < S4.numel
  shapeCasts_S4_S1x4 : S4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S10000x10_S10x30_S10000x30_1_0_0_1_n_n_wf : DotDims.WF S10000x10 S10x30 S10000x30 [1] [0] [0] [1] [] []
  gather_S100000x30_S3200000x1_S3200000x30_1_0_n_n_0_1_130_wf : GatherDims.WF S100000x30 S3200000x1 S3200000x30 [1] [0] [] [0] [] 1 ![1, 30]
  scatter_S100000x30_S3200000x1_S3200000x30_1_0_0_1_wf : ScatterDims.WF S100000x30 S3200000x1 S3200000x30 [1] [0] [0] 1
  dot_S10000x30_S30x30_S10000x30_1_0_0_1_n_n_wf : DotDims.WF S10000x30 S30x30 S10000x30 [1] [0] [0] [1] [] []
  dot_S10000x30_S30x4_S10000x4_1_0_0_1_n_n_wf : DotDims.WF S10000x30 S30x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x10000x10.size a ≤ S5x100000x10.size a
  hwx0_0 : ∀ i : grid0.Coords, EltTy.bits .bf16 = 32 ∨ (Rect.block (s := S5x100000x10) S5x10000x10.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x10x30.size a ≤ S5x10x30.size a
  hwx0_1 : ∀ i : grid0.Coords, EltTy.bits .bf16 = 32 ∨ (Rect.block (s := S5x10x30) S5x10x30.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30.size a ≤ S30.size a
  hwx0_2 : ∀ i : grid0.Coords, EltTy.bits .f32 = 32 ∨ (Rect.block (s := S30) S30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x30.size a ≤ S100000x30.size a
  hwx0_3 : ∀ i : grid0.Coords, EltTy.bits .f32 = 32 ∨ (Rect.block (s := S100000x30) S10000x30.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x10000x30.size a ≤ S5x100000x30.size a
  hwx1_0 : ∀ i : grid1.Coords, EltTy.bits .bf16 = 32 ∨ (Rect.block (s := S5x100000x30) S5x10000x30.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x30x30.size a ≤ S5x30x30.size a
  hwx1_1 : ∀ i : grid1.Coords, EltTy.bits .bf16 = 32 ∨ (Rect.block (s := S5x30x30) S5x30x30.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S30.size a ≤ S30.size a
  hwx1_2 : ∀ i : grid1.Coords, EltTy.bits .f32 = 32 ∨ (Rect.block (s := S30) S30.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x30.size a ≤ S100000x30.size a
  hwx1_3 : ∀ i : grid1.Coords, EltTy.bits .f32 = 32 ∨ (Rect.block (s := S100000x30) S10000x30.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x30.size a ≤ S1x100000x30.size a
  hwx2_0 : ∀ i : grid2.Coords, EltTy.bits .bf16 = 32 ∨ (Rect.block (s := S1x100000x30) S1x10000x30.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x30x4.size a ≤ S1x30x4.size a
  hwx2_1 : ∀ i : grid2.Coords, EltTy.bits .bf16 = 32 ∨ (Rect.block (s := S1x30x4) S1x30x4.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4.size a ≤ S4.size a
  hwx2_2 : ∀ i : grid2.Coords, EltTy.bits .f32 = 32 ∨ (Rect.block (s := S4) S4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x4.size a ≤ S100000x4.size a
  hwx2_3 : ∀ i : grid2.Coords, EltTy.bits .f32 = 32 ∨ (Rect.block (s := S100000x4) S10000x4.size (cc2_transform_3 i) (hinb2_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10000x10_S10x30_S10000x30_1_0_0_1_n_n : DotDims S10000x10 S10x30 S10000x30 where
  lhsContracting := [1]
  rhsContracting := [0]
  lhsNonContracting := [0]
  rhsNonContracting := [1]
  lhsBatch := []
  rhsBatch := []
  wf := dot_S10000x10_S10x30_S10000x30_1_0_0_1_n_n_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf
def scatter_S100000x30_S3200000x1_S3200000x30_1_0_0_1 : ScatterDims S100000x30 S3200000x1 S3200000x30 where
  updateWindowDims := [1]
  insertedWindowDims := [0]
  scatterDimsToOperandDims := [0]
  indexVectorDim := 1
  wf := scatter_S100000x30_S3200000x1_S3200000x30_1_0_0_1_wf
def dot_S10000x30_S30x30_S10000x30_1_0_0_1_n_n : DotDims S10000x30 S30x30 S10000x30 where
  lhsContracting := [1]
  rhsContracting := [0]
  lhsNonContracting := [0]
  rhsNonContracting := [1]
  lhsBatch := []
  rhsBatch := []
  wf := dot_S10000x30_S30x30_S10000x30_1_0_0_1_n_n_wf
def dot_S10000x30_S30x4_S10000x4_1_0_0_1_n_n : DotDims S10000x30 S30x4 S10000x4 where
  lhsContracting := [1]
  rhsContracting := [0]
  lhsNonContracting := [0]
  rhsNonContracting := [1]
  lhsBatch := []
  rhsBatch := []
  wf := dot_S10000x30_S30x4_S10000x4_1_0_0_1_n_n_wf

abbrev win0_0 : Pipeline.Window sig grid0 :=
  Pipeline.Window.ofSpec (Memref.whole main_v99) S5x10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S5x10x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v101) S10000x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v169) S5x10000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v170) S5x30x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S30.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v171) S10000x30.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v173) S1x10000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v175) S1x30x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v176) S10000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x10 : Shape := ⟨2, ![100000, 10]⟩
abbrev S2x3200000 : Shape := ⟨2, ![2, 3200000]⟩
abbrev S3200000 : Shape := ⟨1, ![3200000]⟩
abbrev S5x10x30 : Shape := ⟨3, ![5, 10, 30]⟩
abbrev S30 : Shape := ⟨1, ![30]⟩
abbrev S5x30x30 : Shape := ⟨3, ![5, 30, 30]⟩
abbrev S30x4 : Shape := ⟨2, ![30, 4]⟩
abbrev S4 : Shape := ⟨1, ![4]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S1x10x30 : Shape := ⟨3, ![1, 10, 30]⟩
abbrev S10x30 : Shape := ⟨2, ![10, 30]⟩
abbrev S100000x30 : Shape := ⟨2, ![100000, 30]⟩
abbrev S3200000x10 : Shape := ⟨2, ![3200000, 10]⟩
abbrev S1x30 : Shape := ⟨2, ![1, 30]⟩
abbrev S1x30x30 : Shape := ⟨3, ![1, 30, 30]⟩
abbrev S30x30 : Shape := ⟨2, ![30, 30]⟩
abbrev S3200000x30 : Shape := ⟨2, ![3200000, 30]⟩
abbrev S100000x4 : Shape := ⟨2, ![100000, 4]⟩
abbrev S1x4 : Shape := ⟨2, ![1, 4]⟩

abbrev nBuf : Space → Nat
  | .hbm => 260
  | .vmem => 0
  | .smem => 0
  | _ => 0

abbrev hbmTy0_0 (i : Nat) : BufTy := match i % 128 with
  | 0 => ⟨S100000x10, .f32⟩
  | 1 => ⟨S2x3200000, .i32⟩
  | 2 => ⟨S3200000, .f32⟩
  | 3 => ⟨S5x10x30, .f32⟩
  | 4 => ⟨S30, .f32⟩
  | 5 => ⟨S5x30x30, .f32⟩
  | 6 => ⟨S30, .f32⟩
  | 7 => ⟨S30x4, .f32⟩
  | 8 => ⟨S4, .f32⟩
  | 9 => ⟨S1x3200000, .i32⟩
  | 10 => ⟨S3200000, .i32⟩
  | 11 => ⟨S1x3200000, .i32⟩
  | 12 => ⟨S3200000, .i32⟩
  | 13 => ⟨S3200000, .i1⟩
  | 14 => ⟨S_, .f32⟩
  | 15 => ⟨S_, .f32⟩
  | 16 => ⟨S3200000, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S1x10x30, .f32⟩
  | 55 => ⟨S10x30, .f32⟩
  | 56 => ⟨S100000x30, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x10, .f32⟩
  | 66 => ⟨S3200000x1, .f32⟩
  | 67 => ⟨S3200000x10, .f32⟩
  | 68 => ⟨S3200000x10, .f32⟩
  | 69 => ⟨S_, .f32⟩
  | 70 => ⟨S100000x10, .f32⟩
  | 71 => ⟨S3200000x1, .i32⟩
  | 72 => ⟨S100000x10, .f32⟩
  | 73 => ⟨S1x10x30, .f32⟩
  | 74 => ⟨S10x30, .f32⟩
  | 75 => ⟨S100000x30, .f32⟩
  | 76 => ⟨S100000x30, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000x10, .f32⟩
  | 86 => ⟨S3200000x1, .f32⟩
  | 87 => ⟨S3200000x10, .f32⟩
  | 88 => ⟨S3200000x10, .f32⟩
  | 89 => ⟨S_, .f32⟩
  | 90 => ⟨S100000x10, .f32⟩
  | 91 => ⟨S3200000x1, .i32⟩
  | 92 => ⟨S100000x10, .f32⟩
  | 93 => ⟨S_, .f32⟩
  | 94 => ⟨S100000x10, .f32⟩
  | 95 => ⟨S100000x10, .f32⟩
  | 96 => ⟨S100000x10, .f32⟩
  | 97 => ⟨S1x10x30, .f32⟩
  | 98 => ⟨S10x30, .f32⟩
  | 99 => ⟨S100000x30, .f32⟩
  | 100 => ⟨S100000x30, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x10, .f32⟩
  | 110 => ⟨S3200000x1, .f32⟩
  | 111 => ⟨S3200000x10, .f32⟩
  | 112 => ⟨S3200000x10, .f32⟩
  | 113 => ⟨S_, .f32⟩
  | 114 => ⟨S100000x10, .f32⟩
  | 115 => ⟨S3200000x1, .i32⟩
  | 116 => ⟨S100000x10, .f32⟩
  | 117 => ⟨S_, .f32⟩
  | 118 => ⟨S100000x10, .f32⟩
  | 119 => ⟨S100000x10, .f32⟩
  | 120 => ⟨S100000x10, .f32⟩
  | 121 => ⟨S1x10x30, .f32⟩
  | 122 => ⟨S10x30, .f32⟩
  | 123 => ⟨S100000x30, .f32⟩
  | 124 => ⟨S100000x30, .f32⟩
  | 125 => ⟨S_, .i32⟩
  | 126 => ⟨S3200000, .i32⟩
  | 127 => ⟨S3200000, .i1⟩
  | _ => ⟨S100000x10, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x10, .f32⟩
  | 6 => ⟨S3200000x1, .f32⟩
  | 7 => ⟨S3200000x10, .f32⟩
  | 8 => ⟨S3200000x10, .f32⟩
  | 9 => ⟨S_, .f32⟩
  | 10 => ⟨S100000x10, .f32⟩
  | 11 => ⟨S3200000x1, .i32⟩
  | 12 => ⟨S100000x10, .f32⟩
  | 13 => ⟨S_, .f32⟩
  | 14 => ⟨S100000x10, .f32⟩
  | 15 => ⟨S100000x10, .f32⟩
  | 16 => ⟨S100000x10, .f32⟩
  | 17 => ⟨S1x10x30, .f32⟩
  | 18 => ⟨S10x30, .f32⟩
  | 19 => ⟨S100000x30, .f32⟩
  | 20 => ⟨S100000x30, .f32⟩
  | 21 => ⟨S1x30, .f32⟩
  | 22 => ⟨S100000x30, .f32⟩
  | 23 => ⟨S100000x30, .f32⟩
  | 24 => ⟨S_, .f32⟩
  | 25 => ⟨S100000x30, .f32⟩
  | 26 => ⟨S100000x30, .f32⟩
  | 27 => ⟨S1x30x30, .f32⟩
  | 28 => ⟨S30x30, .f32⟩
  | 29 => ⟨S100000x30, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x30, .f32⟩
  | 39 => ⟨S3200000x1, .f32⟩
  | 40 => ⟨S3200000x30, .f32⟩
  | 41 => ⟨S3200000x30, .f32⟩
  | 42 => ⟨S_, .f32⟩
  | 43 => ⟨S100000x30, .f32⟩
  | 44 => ⟨S3200000x1, .i32⟩
  | 45 => ⟨S100000x30, .f32⟩
  | 46 => ⟨S1x30x30, .f32⟩
  | 47 => ⟨S30x30, .f32⟩
  | 48 => ⟨S100000x30, .f32⟩
  | 49 => ⟨S100000x30, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x30, .f32⟩
  | 59 => ⟨S3200000x1, .f32⟩
  | 60 => ⟨S3200000x30, .f32⟩
  | 61 => ⟨S3200000x30, .f32⟩
  | 62 => ⟨S_, .f32⟩
  | 63 => ⟨S100000x30, .f32⟩
  | 64 => ⟨S3200000x1, .i32⟩
  | 65 => ⟨S100000x30, .f32⟩
  | 66 => ⟨S_, .f32⟩
  | 67 => ⟨S100000x30, .f32⟩
  | 68 => ⟨S100000x30, .f32⟩
  | 69 => ⟨S100000x30, .f32⟩
  | 70 => ⟨S1x30x30, .f32⟩
  | 71 => ⟨S30x30, .f32⟩
  | 72 => ⟨S100000x30, .f32⟩
  | 73 => ⟨S100000x30, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x30, .f32⟩
  | 83 => ⟨S3200000x1, .f32⟩
  | 84 => ⟨S3200000x30, .f32⟩
  | 85 => ⟨S3200000x30, .f32⟩
  | 86 => ⟨S_, .f32⟩
  | 87 => ⟨S100000x30, .f32⟩
  | 88 => ⟨S3200000x1, .i32⟩
  | 89 => ⟨S100000x30, .f32⟩
  | 90 => ⟨S_, .f32⟩
  | 91 => ⟨S100000x30, .f32⟩
  | 92 => ⟨S100000x30, .f32⟩
  | 93 => ⟨S100000x30, .f32⟩
  | 94 => ⟨S1x30x30, .f32⟩
  | 95 => ⟨S30x30, .f32⟩
  | 96 => ⟨S100000x30, .f32⟩
  | 97 => ⟨S100000x30, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x30, .f32⟩
  | 107 => ⟨S3200000x1, .f32⟩
  | 108 => ⟨S3200000x30, .f32⟩
  | 109 => ⟨S3200000x30, .f32⟩
  | 110 => ⟨S_, .f32⟩
  | 111 => ⟨S100000x30, .f32⟩
  | 112 => ⟨S3200000x1, .i32⟩
  | 113 => ⟨S100000x30, .f32⟩
  | 114 => ⟨S_, .f32⟩
  | 115 => ⟨S100000x30, .f32⟩
  | 116 => ⟨S100000x30, .f32⟩
  | 117 => ⟨S100000x30, .f32⟩
  | 118 => ⟨S1x30x30, .f32⟩
  | 119 => ⟨S30x30, .f32⟩
  | 120 => ⟨S100000x30, .f32⟩
  | 121 => ⟨S100000x30, .f32⟩
  | 122 => ⟨S1x30, .f32⟩
  | 123 => ⟨S100000x30, .f32⟩
  | 124 => ⟨S100000x30, .f32⟩
  | 125 => ⟨S_, .f32⟩
  | 126 => ⟨S100000x30, .f32⟩
  | 127 => ⟨S100000x30, .f32⟩
  | _ => ⟨S100000x10, .f32⟩

abbrev hbmTy0_2 (i : Nat) : BufTy := match i % 128 with
  | 0 => ⟨S100000x4, .f32⟩
  | 1 => ⟨S1x4, .f32⟩
  | 2 => ⟨S100000x4, .f32⟩
  | 3 => ⟨S100000x4, .f32⟩
  | _ => ⟨S100000x10, .f32⟩

abbrev hbmTy (i : Nat) : BufTy := match i / 128 with
  | 0 => hbmTy0_0 i
  | 1 => hbmTy0_1 i
  | 2 => hbmTy0_2 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_14 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_21 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call2_cst : Ref sig .tc := ⟨.hbm, 152, rfl⟩
abbrev main_call2_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_22 : Ref sig .tc := ⟨.hbm, 158, rfl⟩
abbrev main_v119 : Ref sig .tc := ⟨.hbm, 159, rfl⟩
abbrev main_v120 : Ref sig .tc := ⟨.hbm, 160, rfl⟩
abbrev main_c_23 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_24 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_25 : Ref sig .tc := ⟨.hbm, 178, rfl⟩
abbrev main_v136 : Ref sig .tc := ⟨.hbm, 179, rfl⟩
abbrev main_v137 : Ref sig .tc := ⟨.hbm, 180, rfl⟩
abbrev main_c_26 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_27 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_28 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_29 : Ref sig .tc := ⟨.hbm, 202, rfl⟩
abbrev main_v156 : Ref sig .tc := ⟨.hbm, 203, rfl⟩
abbrev main_v157 : Ref sig .tc := ⟨.hbm, 204, rfl⟩
abbrev main_c_30 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_31 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_32 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_c_33 : Ref sig .tc := ⟨.hbm, 226, rfl⟩
abbrev main_v176 : Ref sig .tc := ⟨.hbm, 227, rfl⟩
abbrev main_v177 : Ref sig .tc := ⟨.hbm, 228, rfl⟩
abbrev main_c_34 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_35 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_36 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_call3_cst : Ref sig .tc := ⟨.hbm, 253, rfl⟩
abbrev main_call3_v0 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  slices_S5x10x30_S1x10x30_0_0_0 : S5x10x30.Slices ![0, 0, 0] S1x10x30
  shapeCasts_S1x10x30_S10x30 : S1x10x30.ShapeCasts S10x30
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  slices_S5x10x30_S1x10x30_1_0_0 : S5x10x30.Slices ![1, 0, 0] S1x10x30
  slices_S5x10x30_S1x10x30_2_0_0 : S5x10x30.Slices ![2, 0, 0] S1x10x30
  slices_S5x10x30_S1x10x30_3_0_0 : S5x10x30.Slices ![3, 0, 0] S1x10x30
  slices_S5x10x30_S1x10x30_4_0_0 : S5x10x30.Slices ![4, 0, 0] S1x10x30
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S_S100000x30 : S_.BroadcastsInDim S100000x30 (![] : Fin 0 → Fin S100000x30.rank)
  slices_S5x30x30_S1x30x30_0_0_0 : S5x30x30.Slices ![0, 0, 0] S1x30x30
  shapeCasts_S1x30x30_S30x30 : S1x30x30.ShapeCasts S30x30
  bcast_S3200000x1_S3200000x30_0_1 : S3200000x1.BroadcastsInDim S3200000x30 (![0, 1] : Fin 2 → Fin S3200000x30.rank)
  slices_S5x30x30_S1x30x30_1_0_0 : S5x30x30.Slices ![1, 0, 0] S1x30x30
  slices_S5x30x30_S1x30x30_2_0_0 : S5x30x30.Slices ![2, 0, 0] S1x30x30
  slices_S5x30x30_S1x30x30_3_0_0 : S5x30x30.Slices ![3, 0, 0] S1x30x30
  slices_S5x30x30_S1x30x30_4_0_0 : S5x30x30.Slices ![4, 0, 0] S1x30x30
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x10_S10x30_S100000x30_1_0_0_1_n_n_wf : DotDims.WF S100000x10 S10x30 S100000x30 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x30_S30x30_S100000x30_1_0_0_1_n_n_wf : DotDims.WF S100000x30 S30x30 S100000x30 [1] [0] [0] [1] [] []
  gather_S100000x30_S3200000x1_S3200000x30_1_0_n_n_0_1_130_wf : GatherDims.WF S100000x30 S3200000x1 S3200000x30 [1] [0] [] [0] [] 1 ![1, 30]
  scatter_S100000x30_S3200000x1_S3200000x30_1_0_0_1_wf : ScatterDims.WF S100000x30 S3200000x1 S3200000x30 [1] [0] [0] 1
  dot_S100000x30_S30x4_S100000x4_1_0_0_1_n_n_wf : DotDims.WF S100000x30 S30x4 S100000x4 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x10_S10x30_S100000x30_1_0_0_1_n_n : DotDims S100000x10 S10x30 S100000x30 where
  lhsContracting := [1]
  rhsContracting := [0]
  lhsNonContracting := [0]
  rhsNonContracting := [1]
  lhsBatch := []
  rhsBatch := []
  wf := dot_S100000x10_S10x30_S100000x30_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf
def scatter_S100000x30_S3200000x1_S3200000x30_1_0_0_1 : ScatterDims S100000x30 S3200000x1 S3200000x30 where
  updateWindowDims := [1]
  insertedWindowDims := [0]
  scatterDimsToOperandDims := [0]
  indexVectorDim := 1
  wf := scatter_S100000x30_S3200000x1_S3200000x30_1_0_0_1_wf
def dot_S100000x30_S30x4_S100000x4_1_0_0_1_n_n : DotDims S100000x30 S30x4 S100000x4 where
  lhsContracting := [1]
  rhsContracting := [0]
  lhsNonContracting := [0]
  rhsNonContracting := [1]
  lhsBatch := []
  rhsBatch := []
  wf := dot_S100000x30_S30x4_S100000x4_1_0_0_1_n_n_wf

class Facts : Prop extends Facts₀ where

variable [Facts]
-- ==== Proof.K.Region0.lean ====
/-
  Region 0 of the program (its first launch of the affine kernel), at any float instance and at a
  parameter `V`, the contents of the core's buffers when the region is entered.

  At a grid point the body reads the five slabs of its operand block and of the weight block, the bias, and stores
  ONE value over the whole output block: the payload of the skeleton. So the output buffer after the body is
  that payload of the three input blocks, whatever it held before (the body also loads the output block, and
  uses nothing of what it read). The proof data say exactly this per point; the invariant is the scoped rest and
  the generator register, untouched; nothing is owed.
-/
import proofs.«140782_j81638738363109_1_alg».proof.Proof.Gen.Kernel.Launch
import proofs.«140782_j81638738363109_1_alg».proof.Proof.Gen.Kernel.Skeleton
import proofs.«140782_j81638738363109_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles -/

abbrev rA0_0 : Rect S5x10000x10 := Rect.unit (s := S5x10000x10) ![0, 0, 0] S1x10000x10.size inb_S5x10000x10_S1x10000x10_0_0_0
abbrev rW0_0 : Rect S5x10x30 := Rect.unit (s := S5x10x30) ![0, 0, 0] S1x10x30.size inb_S5x10x30_S1x10x30_0_0_0
abbrev rA0_1 : Rect S5x10000x10 := Rect.unit (s := S5x10000x10) ![1, 0, 0] S1x10000x10.size inb_S5x10000x10_S1x10000x10_1_0_0
abbrev rW0_1 : Rect S5x10x30 := Rect.unit (s := S5x10x30) ![1, 0, 0] S1x10x30.size inb_S5x10x30_S1x10x30_1_0_0
abbrev rA0_2 : Rect S5x10000x10 := Rect.unit (s := S5x10000x10) ![2, 0, 0] S1x10000x10.size inb_S5x10000x10_S1x10000x10_2_0_0
abbrev rW0_2 : Rect S5x10x30 := Rect.unit (s := S5x10x30) ![2, 0, 0] S1x10x30.size inb_S5x10x30_S1x10x30_2_0_0
abbrev rA0_3 : Rect S5x10000x10 := Rect.unit (s := S5x10000x10) ![3, 0, 0] S1x10000x10.size inb_S5x10000x10_S1x10000x10_3_0_0
abbrev rW0_3 : Rect S5x10x30 := Rect.unit (s := S5x10x30) ![3, 0, 0] S1x10x30.size inb_S5x10x30_S1x10x30_3_0_0
abbrev rA0_4 : Rect S5x10000x10 := Rect.unit (s := S5x10000x10) ![4, 0, 0] S1x10000x10.size inb_S5x10000x10_S1x10000x10_4_0_0
abbrev rW0_4 : Rect S5x10x30 := Rect.unit (s := S5x10x30) ![4, 0, 0] S1x10x30.size inb_S5x10x30_S1x10x30_4_0_0
abbrev rB0 : Rect S30 := Rect.unit (s := S30) ![0] S30.size inb_S30_S30_0
abbrev rO0 : Rect S10000x30 := Rect.unit (s := S10000x30) ![0, 0] S10000x30.size inb_S10000x30_S10000x30_0_0

/-- The output block after the body, from the three input blocks: its one store, over the whole block. -/
def out0_3 (x0 : Vec F S5x10000x10 .bf16) (x1 : Vec F S5x10x30 .bf16) (x2 : Vec F S30 .f32) : Vec F S10000x30 .f32 :=
  View.canon [⟨rO0, k0_pay1 (k0_pay2 (View.ld x0 rA0_0) (View.ld x1 rW0_0) (View.ld x0 rA0_1) (View.ld x1 rW0_1) (View.ld x0 rA0_2) (View.ld x1 rW0_2) (View.ld x0 rA0_3) (View.ld x1 rW0_3)) (k0_pay3 (View.ld x0 rA0_4)) (View.ld x1 rW0_4) (View.ld x2 rB0)⟩]

/-- The one store covers the block. -/
theorem cover0_3 (p0 : Vec F S10000x30 .f32) (y : S10000x30.Idx) :
    ∃ pc ∈ ([⟨rO0, p0⟩] : List (View.Piece (Elt F) S10000x30 .f32)), y ∈ pc.1.set :=
  View.cover_of_tiled [⟨rO0, p0⟩] S10000x30.size (by rfl) y

set_option maxHeartbeats 4000000 in
/-- The body on whole staging memrefs — the inputs' at read contents, the output's at anything — runs to the
    continuation with the inputs' as they were and the output's at `out0_3` of the inputs'. -/
theorem sound_kernel0 (c : Dev nD) (E : Set ℕ) (i : grid0.Coords)
    (arg1 : Memref sig .tc .vmem S5x10000x10 .bf16) (harg1 : arg1.IsWhole) (arg2 : Memref sig .tc .vmem S5x10x30 .bf16) (harg2 : arg2.IsWhole)
    (arg3 : Memref sig .tc .vmem S30 .f32) (harg3 : arg3.IsWhole) (arg4 : Memref sig .tc .vmem S10000x30 .f32) (harg4 : arg4.IsWhole)
    (x0 : Vec F S5x10000x10 .bf16) (x1 : Vec F S5x10x30 .bf16) (x2 : Vec F S30 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__cheb_affine_kernel i arg1 harg1 arg2 harg2 arg3 harg3 arg4 harg4) K := by
  simp only [cc0__cheb_affine_kernel_eq_skeleton]; unfold cc0__cheb_affine_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The proof data -/

/-- Pipeline 0's proof data on core `c`: the arrays as the region finds them; after the body at point `t` each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (( dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  (( dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  (( dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  Region 1 of the program (its second launch of the affine kernel), at any float instance and at a
  parameter `V`, the contents of the core's buffers when the region is entered.

  At a grid point the body reads the five slabs of its operand block and of the weight block, the bias, and stores
  ONE value over the whole output block: the payload of the skeleton. So the output buffer after the body is
  that payload of the three input blocks, whatever it held before (the body also loads the output block, and
  uses nothing of what it read). The proof data say exactly this per point; the invariant is the scoped rest and
  the generator register, untouched; nothing is owed.
-/
import proofs.«140782_j81638738363109_1_alg».proof.Proof.Gen.Kernel.Launch
import proofs.«140782_j81638738363109_1_alg».proof.Proof.Gen.Kernel.Skeleton
import proofs.«140782_j81638738363109_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles -/

abbrev rA1_0 : Rect S5x10000x30 := Rect.unit (s := S5x10000x30) ![0, 0, 0] S1x10000x30.size inb_S5x10000x30_S1x10000x30_0_0_0
abbrev rW1_0 : Rect S5x30x30 := Rect.unit (s := S5x30x30) ![0, 0, 0] S1x30x30.size inb_S5x30x30_S1x30x30_0_0_0
abbrev rA1_1 : Rect S5x10000x30 := Rect.unit (s := S5x10000x30) ![1, 0, 0] S1x10000x30.size inb_S5x10000x30_S1x10000x30_1_0_0
abbrev rW1_1 : Rect S5x30x30 := Rect.unit (s := S5x30x30) ![1, 0, 0] S1x30x30.size inb_S5x30x30_S1x30x30_1_0_0
abbrev rA1_2 : Rect S5x10000x30 := Rect.unit (s := S5x10000x30) ![2, 0, 0] S1x10000x30.size inb_S5x10000x30_S1x10000x30_2_0_0
abbrev rW1_2 : Rect S5x30x30 := Rect.unit (s := S5x30x30) ![2, 0, 0] S1x30x30.size inb_S5x30x30_S1x30x30_2_0_0
abbrev rA1_3 : Rect S5x10000x30 := Rect.unit (s := S5x10000x30) ![3, 0, 0] S1x10000x30.size inb_S5x10000x30_S1x10000x30_3_0_0
abbrev rW1_3 : Rect S5x30x30 := Rect.unit (s := S5x30x30) ![3, 0, 0] S1x30x30.size inb_S5x30x30_S1x30x30_3_0_0
abbrev rA1_4 : Rect S5x10000x30 := Rect.unit (s := S5x10000x30) ![4, 0, 0] S1x10000x30.size inb_S5x10000x30_S1x10000x30_4_0_0
abbrev rW1_4 : Rect S5x30x30 := Rect.unit (s := S5x30x30) ![4, 0, 0] S1x30x30.size inb_S5x30x30_S1x30x30_4_0_0
abbrev rB1 : Rect S30 := Rect.unit (s := S30) ![0] S30.size inb_S30_S30_0
abbrev rO1 : Rect S10000x30 := Rect.unit (s := S10000x30) ![0, 0] S10000x30.size inb_S10000x30_S10000x30_0_0

/-- The output block after the body, from the three input blocks: its one store, over the whole block. -/
def out1_3 (x0 : Vec F S5x10000x30 .bf16) (x1 : Vec F S5x30x30 .bf16) (x2 : Vec F S30 .f32) : Vec F S10000x30 .f32 :=
  View.canon [⟨rO1, k1_pay1 (k1_pay2 (View.ld x0 rA1_0) (View.ld x1 rW1_0) (View.ld x0 rA1_1) (View.ld x1 rW1_1) (View.ld x0 rA1_2) (View.ld x1 rW1_2) (View.ld x0 rA1_3) (View.ld x1 rW1_3)) (k1_pay3 (View.ld x0 rA1_4)) (View.ld x1 rW1_4) (View.ld x2 rB1)⟩]

/-- The one store covers the block. -/
theorem cover1_3 (p0 : Vec F S10000x30 .f32) (y : S10000x30.Idx) :
    ∃ pc ∈ ([⟨rO1, p0⟩] : List (View.Piece (Elt F) S10000x30 .f32)), y ∈ pc.1.set :=
  View.cover_of_tiled [⟨rO1, p0⟩] S10000x30.size (by rfl) y

set_option maxHeartbeats 4000000 in
/-- The body on whole staging memrefs — the inputs' at read contents, the output's at anything — runs to the
    continuation with the inputs' as they were and the output's at `out1_3` of the inputs'. -/
theorem sound_kernel1 (c : Dev nD) (E : Set ℕ) (i : grid1.Coords)
    (arg1 : Memref sig .tc .vmem S5x10000x30 .bf16) (harg1 : arg1.IsWhole) (arg2 : Memref sig .tc .vmem S5x30x30 .bf16) (harg2 : arg2.IsWhole)
    (arg3 : Memref sig .tc .vmem S30 .f32) (harg3 : arg3.IsWhole) (arg4 : Memref sig .tc .vmem S10000x30 .f32) (harg4 : arg4.IsWhole)
    (x0 : Vec F S5x10000x30 .bf16) (x1 : Vec F S5x30x30 .bf16) (x2 : Vec F S30 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__cheb_affine_kernel i arg1 harg1 arg2 harg2 arg3 harg3 arg4 harg4) K := by
  simp only [cc1__cheb_affine_kernel_eq_skeleton]; unfold cc1__cheb_affine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The proof data -/

/-- Pipeline 1's proof data on core `c`: the arrays as the region finds them; after the body at point `t` each
    input's buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (( dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  (( dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  (( dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/-
  Region 2 of the program (its third launch of the affine kernel), at any float instance and at a
  parameter `V`, the contents of the core's buffers when the region is entered.

  At a grid point the body reads its operand block and the weight block, the bias, and stores
  ONE value over the whole output block: the payload of the skeleton. So the output buffer after the body is
  that payload of the three input blocks, whatever it held before (the body also loads the output block, and
  uses nothing of what it read). The proof data say exactly this per point; the invariant is the scoped rest and
  the generator register, untouched; nothing is owed.
-/
import proofs.«140782_j81638738363109_1_alg».proof.Proof.Gen.Kernel.Launch
import proofs.«140782_j81638738363109_1_alg».proof.Proof.Gen.Kernel.Skeleton
import proofs.«140782_j81638738363109_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's rectangles -/

abbrev rA2_0 : Rect S1x10000x30 := Rect.unit (s := S1x10000x30) ![0, 0, 0] S1x10000x30.size inb_S1x10000x30_S1x10000x30_0_0_0
abbrev rW2_0 : Rect S1x30x4 := Rect.unit (s := S1x30x4) ![0, 0, 0] S1x30x4.size inb_S1x30x4_S1x30x4_0_0_0
abbrev rB2 : Rect S4 := Rect.unit (s := S4) ![0] S4.size inb_S4_S4_0
abbrev rO2 : Rect S10000x4 := Rect.unit (s := S10000x4) ![0, 0] S10000x4.size inb_S10000x4_S10000x4_0_0

/-- The output block after the body, from the three input blocks: its one store, over the whole block. -/
def out2_3 (x0 : Vec F S1x10000x30 .bf16) (x1 : Vec F S1x30x4 .bf16) (x2 : Vec F S4 .f32) : Vec F S10000x4 .f32 :=
  View.canon [⟨rO2, k2_pay1 (View.ld x0 rA2_0) (View.ld x1 rW2_0) (View.ld x2 rB2)⟩]

/-- The one store covers the block. -/
theorem cover2_3 (p0 : Vec F S10000x4 .f32) (y : S10000x4.Idx) :
    ∃ pc ∈ ([⟨rO2, p0⟩] : List (View.Piece (Elt F) S10000x4 .f32)), y ∈ pc.1.set :=
  View.cover_of_tiled [⟨rO2, p0⟩] S10000x4.size (by rfl) y

set_option maxHeartbeats 4000000 in
/-- The body on whole staging memrefs — the inputs' at read contents, the output's at anything — runs to the
    continuation with the inputs' as they were and the output's at `out2_3` of the inputs'. -/
theorem sound_kernel2 (c : Dev nD) (E : Set ℕ) (i : grid2.Coords)
    (arg1 : Memref sig .tc .vmem S1x10000x30 .bf16) (harg1 : arg1.IsWhole) (arg2 : Memref sig .tc .vmem S1x30x4 .bf16) (harg2 : arg2.IsWhole)
    (arg3 : Memref sig .tc .vmem S4 .f32) (harg3 : arg3.IsWhole) (arg4 : Memref sig .tc .vmem S10000x4 .f32) (harg4 : arg4.IsWhole)
    (x0 : Vec F S1x10000x30 .bf16) (x1 : Vec F S1x30x4 .bf16) (x2 : Vec F S4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__cheb_affine_kernel i arg1 harg1 arg2 harg2 arg3 harg3 arg4 harg4) K := by
  simp only [cc2__cheb_affine_kernel_eq_skeleton]; unfold cc2__cheb_affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The proof data -/

/-- Pipeline 2's proof data on core `c`: the arrays as the region finds them; after the body at point `t` each
    input's buffer at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (( dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  (( dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  (( dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The run of the program as ten segments: five stretches of host operations, the first launch of the affine
  kernel, a stretch, the second launch, a stretch, and the last launch (the output projection).

  The contents of a core's buffers at each segment boundary are a fold from the launch memory: a host stretch
  rewrites the buffers its operations write and leaves the rest; a region leaves each of its arrays at what the
  pipeline's write-backs make of it (an input array as entered) and every other buffer as entered. Each region is
  entered from "every unscoped buffer at the boundary's contents, the generator register at some state, nothing
  owed" and left at the same with the next boundary's contents, so the segments chain, and the final state holds
  every unscoped buffer at the last boundary's contents. No host operation and no region writes an argument of the
  program, so the fold at an argument's buffer walks back to the launch memory.
-/
import proofs.«140782_j81638738363109_1_alg».proof.Proof.K.Region0
import proofs.«140782_j81638738363109_1_alg».proof.Proof.K.Region1
import proofs.«140782_j81638738363109_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the edge endpoints and the self-loop mask). -/
abbrev W1 : Dev nD → Valuation τ sig (Elt F) := fun c => StableHlo.after hostOps0 (W0 m ρ c)
/-- After the masked edge weights. -/
abbrev W2 : Dev nD → Valuation τ sig (Elt F) := fun c => StableHlo.after hostOps0_1 (W1 m ρ c)
/-- After the degrees and their inverse square roots. -/
abbrev W3 : Dev nD → Valuation τ sig (Elt F) := fun c => StableHlo.after hostOps0_2 (W2 m ρ c)
/-- After the masked inverse square roots. -/
abbrev W4 : Dev nD → Valuation τ sig (Elt F) := fun c => StableHlo.after hostOps0_3 (W3 m ρ c)
/-- After the edge normalisation and the first layer's recursion (region 0's entry). -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, the output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the second layer's recursion (region 1's entry). -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the last stretch (region 2's entry). -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At region 2's exit: its arrays at what the pipeline leaves (the inputs as entered, the output's write-backs
    folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves and every other buffer what it held at entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its
    post-state is those references at the contents after the stretch, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W10`, the
    generator register at some state. -/
abbrev Tₙ (c : Dev nD) : sProp 𝕄 := iprop(StableHlo.held (c : Thread nD τ) (Pipeline.ucRefs τ sig) (W10 m ρ c) ∗ ∃ r, prngReg c r)

/-! ## The regions as segments -/

-- applying a library lemma stated over the pinned configuration unifies with the printed one only when
-- unification may unfold plain definitions in a metavariable's type
set_option backward.isDefEq.respectTransparency.types false in
/-- REGION 0 over the thread state: entered from every unscoped buffer at `W5`, left at `W6`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when
-- unification may unfold plain definitions in a metavariable's type
set_option backward.isDefEq.respectTransparency.types false in
/-- REGION 1 over the thread state: entered from every unscoped buffer at `W7`, left at `W8`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when
-- unification may unfold plain definitions in a metavariable's type
set_option backward.isDefEq.respectTransparency.types false in
/-- REGION 2 over the thread state: entered from every unscoped buffer at `W9`, left at `W10`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The ten segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ) ]
/-- The program IS the run of the segments: it is the chain of its items, and the segments' run is that chain by
    unfolding definitions. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final state holds EVERY unscoped buffer at the last boundary's contents `W10`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-! ## The arguments end as launched

No host operation writes an argument, and no region writes one: a region reads an argument through an input
window (whose array it leaves as entered) or does not touch it. So the fold at an argument's buffer walks back to
the launch memory. -/

/-- The program's nine arguments. -/
abbrev args : List (Ref sig .tc) :=
  [main_arg0, main_arg1, main_arg2, main_arg3, main_arg4, main_arg5, main_arg6, main_arg7, main_arg8]

/-- An argument is not a buffer outside the arguments. -/
theorem ne_of_mem_args {b y : Ref sig .tc} (hb : b ∈ args) (hy : y ∉ args) : b ≠ y := fun e => hy (e ▸ hb)

/-- No operation of `hostOps0` writes an argument. -/
theorem keep_hostOps0 {b : Ref sig .tc} (hb : b ∈ args) (V : Valuation τ sig (Elt F)) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_1` writes an argument. -/
theorem keep_hostOps0_1 {b : Ref sig .tc} (hb : b ∈ args) (V : Valuation τ sig (Elt F)) :
    StableHlo.after (hostOps0_1 (F := F)) V (Proc.devRef .tc b) = V (Proc.devRef .tc b) :=
  StableHlo.after_of_forall_not_mem (b := Proc.devRef .tc b) _ _ (List.forall_iff_forall_mem.mp (by
    simp only [hostOps0_1, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_2` writes an argument. -/
theorem keep_hostOps0_2 {b : Ref sig .tc} (hb : b ∈ args) (V : Valuation τ sig (Elt F)) :
    StableHlo.after (hostOps0_2 (F := F)) V (Proc.devRef .tc b) = V (Proc.devRef .tc b) :=
  StableHlo.after_of_forall_not_mem (b := Proc.devRef .tc b) _ _ (List.forall_iff_forall_mem.mp (by
    simp only [hostOps0_2, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_3` writes an argument. -/
theorem keep_hostOps0_3 {b : Ref sig .tc} (hb : b ∈ args) (V : Valuation τ sig (Elt F)) :
    StableHlo.after (hostOps0_3 (F := F)) V (Proc.devRef .tc b) = V (Proc.devRef .tc b) :=
  StableHlo.after_of_forall_not_mem (b := Proc.devRef .tc b) _ _ (List.forall_iff_forall_mem.mp (by
    simp only [hostOps0_3, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_4` writes an argument. -/
theorem keep_hostOps0_4 {b : Ref sig .tc} (hb : b ∈ args) (V : Valuation τ sig (Elt F)) :
    StableHlo.after (hostOps0_4 (F := F)) V (Proc.devRef .tc b) = V (Proc.devRef .tc b) :=
  StableHlo.after_of_forall_not_mem (b := Proc.devRef .tc b) _ _ (List.forall_iff_forall_mem.mp (by
    simp only [hostOps0_4, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps1` writes an argument. -/
theorem keep_hostOps1 {b : Ref sig .tc} (hb : b ∈ args) (V : Valuation τ sig (Elt F)) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps2` writes an argument. -/
theorem keep_hostOps2 {b : Ref sig .tc} (hb : b ∈ args) (V : Valuation τ sig (Elt F)) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))

/-- At region 0's entry an argument's buffer is as launched: none of the five stretches before it writes it. -/
theorem W5_arg {b : Ref sig .tc} (hb : b ∈ args) (c : Dev nD) : W5 m ρ c (Proc.devRef .tc b) = m ((c : Thread nD τ).loc b) :=
  calc W5 m ρ c (Proc.devRef .tc b)
    _ = W4 m ρ c (Proc.devRef .tc b) := keep_hostOps0_4 hb _
    _ = W3 m ρ c (Proc.devRef .tc b) := keep_hostOps0_3 hb _
    _ = W2 m ρ c (Proc.devRef .tc b) := keep_hostOps0_2 hb _
    _ = W1 m ρ c (Proc.devRef .tc b) := keep_hostOps0_1 hb _
    _ = W0 m ρ c (Proc.devRef .tc b) := keep_hostOps0 hb _
    _ = m ((c : Thread nD τ).loc b) := rfl

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := keep_hostOps2 (by decide) _
    _ = W7 m ρ c (Proc.devRef .tc main_arg0) := W8_of_ne m ρ c main_arg0 (by decide)
    _ = W6 m ρ c (Proc.devRef .tc main_arg0) := keep_hostOps1 (by decide) _
    _ = W5 m ρ c (Proc.devRef .tc main_arg0) := W6_of_ne m ρ c main_arg0 (by decide)
    _ = m ((c : Thread nD τ).loc main_arg0) := W5_arg m ρ (by decide) c

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := keep_hostOps2 (by decide) _
    _ = W7 m ρ c (Proc.devRef .tc main_arg1) := W8_of_ne m ρ c main_arg1 (by decide)
    _ = W6 m ρ c (Proc.devRef .tc main_arg1) := keep_hostOps1 (by decide) _
    _ = W5 m ρ c (Proc.devRef .tc main_arg1) := W6_of_ne m ρ c main_arg1 (by decide)
    _ = m ((c : Thread nD τ).loc main_arg1) := W5_arg m ρ (by decide) c

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := keep_hostOps2 (by decide) _
    _ = W7 m ρ c (Proc.devRef .tc main_arg2) := W8_of_ne m ρ c main_arg2 (by decide)
    _ = W6 m ρ c (Proc.devRef .tc main_arg2) := keep_hostOps1 (by decide) _
    _ = W5 m ρ c (Proc.devRef .tc main_arg2) := W6_of_ne m ρ c main_arg2 (by decide)
    _ = m ((c : Thread nD τ).loc main_arg2) := W5_arg m ρ (by decide) c

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := keep_hostOps2 (by decide) _
    _ = W7 m ρ c (Proc.devRef .tc main_arg3) := W8_of_ne m ρ c main_arg3 (by decide)
    _ = W6 m ρ c (Proc.devRef .tc main_arg3) := keep_hostOps1 (by decide) _
    _ = W5 m ρ c (Proc.devRef .tc main_arg3) := W6_of_ne m ρ c main_arg3 (by decide)
    _ = m ((c : Thread nD τ).loc main_arg3) := W5_arg m ρ (by decide) c

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep_hostOps2 (by decide) _
    _ = W7 m ρ c (Proc.devRef .tc main_arg4) := W8_of_ne m ρ c main_arg4 (by decide)
    _ = W6 m ρ c (Proc.devRef .tc main_arg4) := keep_hostOps1 (by decide) _
    _ = W5 m ρ c (Proc.devRef .tc main_arg4) := (W6_arr m ρ c 2).trans (((dat0 (V5 m ρ) c).arrAt_in 2 rfl _).trans (A_eq0 (V5 m ρ) c 2))
    _ = m ((c : Thread nD τ).loc main_arg4) := W5_arg m ρ (by decide) c

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := keep_hostOps2 (by decide) _
    _ = W7 m ρ c (Proc.devRef .tc main_arg5) := W8_of_ne m ρ c main_arg5 (by decide)
    _ = W6 m ρ c (Proc.devRef .tc main_arg5) := keep_hostOps1 (by decide) _
    _ = W5 m ρ c (Proc.devRef .tc main_arg5) := W6_of_ne m ρ c main_arg5 (by decide)
    _ = m ((c : Thread nD τ).loc main_arg5) := W5_arg m ρ (by decide) c

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := keep_hostOps2 (by decide) _
    _ = W7 m ρ c (Proc.devRef .tc main_arg6) := (W8_arr m ρ c 2).trans (((dat1 (V7 m ρ) c).arrAt_in 2 rfl _).trans (A_eq1 (V7 m ρ) c 2))
    _ = W6 m ρ c (Proc.devRef .tc main_arg6) := keep_hostOps1 (by decide) _
    _ = W5 m ρ c (Proc.devRef .tc main_arg6) := W6_of_ne m ρ c main_arg6 (by decide)
    _ = m ((c : Thread nD τ).loc main_arg6) := W5_arg m ρ (by decide) c

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := keep_hostOps2 (by decide) _
    _ = W7 m ρ c (Proc.devRef .tc main_arg7) := W8_of_ne m ρ c main_arg7 (by decide)
    _ = W6 m ρ c (Proc.devRef .tc main_arg7) := keep_hostOps1 (by decide) _
    _ = W5 m ρ c (Proc.devRef .tc main_arg7) := W6_of_ne m ρ c main_arg7 (by decide)
    _ = m ((c : Thread nD τ).loc main_arg7) := W5_arg m ρ (by decide) c

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := (W10_arr m ρ c 2).trans (((dat2 (V9 m ρ) c).arrAt_in 2 rfl _).trans (A_eq2 (V9 m ρ) c 2))
    _ = W8 m ρ c (Proc.devRef .tc main_arg8) := keep_hostOps2 (by decide) _
    _ = W7 m ρ c (Proc.devRef .tc main_arg8) := W8_of_ne m ρ c main_arg8 (by decide)
    _ = W6 m ρ c (Proc.devRef .tc main_arg8) := keep_hostOps1 (by decide) _
    _ = W5 m ρ c (Proc.devRef .tc main_arg8) := W6_of_ne m ρ c main_arg8 (by decide)
    _ = m ((c : Thread nD τ).loc main_arg8) := W5_arg m ρ (by decide) c

/-- From any memory with zero counters, every weakly fair execution of the program on the TensorCores terminates,
    nothing faulting, and every final state has the nine argument arrays as launched: `run_all`, each argument read
    back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨ (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c) ⟩) (run_all m ρ)

end Cert.Kernel.Fr

end
-- ==== Proof.KI.Region0.lean ====
/-
  Region 0 of the program (its first launch of the affine kernel), at any float instance and at a
  parameter `V`, the contents of the core's buffers when the region is entered.

  At a grid point the body reads the five slabs of its operand block and of the weight block, the bias, and stores
  ONE value over the whole output block: the payload of the skeleton. So the output buffer after the body is
  that payload of the three input blocks, whatever it held before (the body also loads the output block, and
  uses nothing of what it read). The proof data say exactly this per point; the invariant is the scoped rest and
  the generator register, untouched; nothing is owed.
-/
import proofs.«140782_j81638738363109_1_alg».proof.Proof.Gen.KernelIdeal.Launch
import proofs.«140782_j81638738363109_1_alg».proof.Proof.Gen.KernelIdeal.Skeleton
import proofs.«140782_j81638738363109_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles -/

abbrev rA0_0 : Rect S5x10000x10 := Rect.unit (s := S5x10000x10) ![0, 0, 0] S1x10000x10.size inb_S5x10000x10_S1x10000x10_0_0_0
abbrev rW0_0 : Rect S5x10x30 := Rect.unit (s := S5x10x30) ![0, 0, 0] S1x10x30.size inb_S5x10x30_S1x10x30_0_0_0
abbrev rA0_1 : Rect S5x10000x10 := Rect.unit (s := S5x10000x10) ![1, 0, 0] S1x10000x10.size inb_S5x10000x10_S1x10000x10_1_0_0
abbrev rW0_1 : Rect S5x10x30 := Rect.unit (s := S5x10x30) ![1, 0, 0] S1x10x30.size inb_S5x10x30_S1x10x30_1_0_0
abbrev rA0_2 : Rect S5x10000x10 := Rect.unit (s := S5x10000x10) ![2, 0, 0] S1x10000x10.size inb_S5x10000x10_S1x10000x10_2_0_0
abbrev rW0_2 : Rect S5x10x30 := Rect.unit (s := S5x10x30) ![2, 0, 0] S1x10x30.size inb_S5x10x30_S1x10x30_2_0_0
abbrev rA0_3 : Rect S5x10000x10 := Rect.unit (s := S5x10000x10) ![3, 0, 0] S1x10000x10.size inb_S5x10000x10_S1x10000x10_3_0_0
abbrev rW0_3 : Rect S5x10x30 := Rect.unit (s := S5x10x30) ![3, 0, 0] S1x10x30.size inb_S5x10x30_S1x10x30_3_0_0
abbrev rA0_4 : Rect S5x10000x10 := Rect.unit (s := S5x10000x10) ![4, 0, 0] S1x10000x10.size inb_S5x10000x10_S1x10000x10_4_0_0
abbrev rW0_4 : Rect S5x10x30 := Rect.unit (s := S5x10x30) ![4, 0, 0] S1x10x30.size inb_S5x10x30_S1x10x30_4_0_0
abbrev rB0 : Rect S30 := Rect.unit (s := S30) ![0] S30.size inb_S30_S30_0
abbrev rO0 : Rect S10000x30 := Rect.unit (s := S10000x30) ![0, 0] S10000x30.size inb_S10000x30_S10000x30_0_0

/-- The output block after the body, from the three input blocks: its one store, over the whole block. -/
def out0_3 (x0 : Vec F S5x10000x10 .bf16) (x1 : Vec F S5x10x30 .bf16) (x2 : Vec F S30 .f32) : Vec F S10000x30 .f32 :=
  View.canon [⟨rO0, k0_pay1 (k0_pay2 (View.ld x0 rA0_0) (View.ld x1 rW0_0) (View.ld x0 rA0_1) (View.ld x1 rW0_1) (View.ld x0 rA0_2) (View.ld x1 rW0_2) (View.ld x0 rA0_3) (View.ld x1 rW0_3)) (k0_pay3 (View.ld x0 rA0_4)) (View.ld x1 rW0_4) (View.ld x2 rB0)⟩]

/-- The one store covers the block. -/
theorem cover0_3 (p0 : Vec F S10000x30 .f32) (y : S10000x30.Idx) :
    ∃ pc ∈ ([⟨rO0, p0⟩] : List (View.Piece (Elt F) S10000x30 .f32)), y ∈ pc.1.set :=
  View.cover_of_tiled [⟨rO0, p0⟩] S10000x30.size (by rfl) y

set_option maxHeartbeats 4000000 in
/-- The body on whole staging memrefs — the inputs' at read contents, the output's at anything — runs to the
    continuation with the inputs' as they were and the output's at `out0_3` of the inputs'. -/
theorem sound_kernel0 (c : Dev nD) (E : Set ℕ) (i : grid0.Coords)
    (arg1 : Memref sig .tc .vmem S5x10000x10 .bf16) (harg1 : arg1.IsWhole) (arg2 : Memref sig .tc .vmem S5x10x30 .bf16) (harg2 : arg2.IsWhole)
    (arg3 : Memref sig .tc .vmem S30 .f32) (harg3 : arg3.IsWhole) (arg4 : Memref sig .tc .vmem S10000x30 .f32) (harg4 : arg4.IsWhole)
    (x0 : Vec F S5x10000x10 .bf16) (x1 : Vec F S5x10x30 .bf16) (x2 : Vec F S30 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__cheb_affine_kernel i arg1 harg1 arg2 harg2 arg3 harg3 arg4 harg4) K := by
  simp only [cc0__cheb_affine_kernel_eq_skeleton]; unfold cc0__cheb_affine_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The proof data -/

/-- Pipeline 0's proof data on core `c`: the arrays as the region finds them; after the body at point `t` each
    input's buffer at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (( dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  (( dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  (( dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Region 1 of the program (its second launch of the affine kernel), at any float instance and at a
  parameter `V`, the contents of the core's buffers when the region is entered.

  At a grid point the body reads the five slabs of its operand block and of the weight block, the bias, and stores
  ONE value over the whole output block: the payload of the skeleton. So the output buffer after the body is
  that payload of the three input blocks, whatever it held before (the body also loads the output block, and
  uses nothing of what it read). The proof data say exactly this per point; the invariant is the scoped rest and
  the generator register, untouched; nothing is owed.
-/
import proofs.«140782_j81638738363109_1_alg».proof.Proof.Gen.KernelIdeal.Launch
import proofs.«140782_j81638738363109_1_alg».proof.Proof.Gen.KernelIdeal.Skeleton
import proofs.«140782_j81638738363109_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles -/

abbrev rA1_0 : Rect S5x10000x30 := Rect.unit (s := S5x10000x30) ![0, 0, 0] S1x10000x30.size inb_S5x10000x30_S1x10000x30_0_0_0
abbrev rW1_0 : Rect S5x30x30 := Rect.unit (s := S5x30x30) ![0, 0, 0] S1x30x30.size inb_S5x30x30_S1x30x30_0_0_0
abbrev rA1_1 : Rect S5x10000x30 := Rect.unit (s := S5x10000x30) ![1, 0, 0] S1x10000x30.size inb_S5x10000x30_S1x10000x30_1_0_0
abbrev rW1_1 : Rect S5x30x30 := Rect.unit (s := S5x30x30) ![1, 0, 0] S1x30x30.size inb_S5x30x30_S1x30x30_1_0_0
abbrev rA1_2 : Rect S5x10000x30 := Rect.unit (s := S5x10000x30) ![2, 0, 0] S1x10000x30.size inb_S5x10000x30_S1x10000x30_2_0_0
abbrev rW1_2 : Rect S5x30x30 := Rect.unit (s := S5x30x30) ![2, 0, 0] S1x30x30.size inb_S5x30x30_S1x30x30_2_0_0
abbrev rA1_3 : Rect S5x10000x30 := Rect.unit (s := S5x10000x30) ![3, 0, 0] S1x10000x30.size inb_S5x10000x30_S1x10000x30_3_0_0
abbrev rW1_3 : Rect S5x30x30 := Rect.unit (s := S5x30x30) ![3, 0, 0] S1x30x30.size inb_S5x30x30_S1x30x30_3_0_0
abbrev rA1_4 : Rect S5x10000x30 := Rect.unit (s := S5x10000x30) ![4, 0, 0] S1x10000x30.size inb_S5x10000x30_S1x10000x30_4_0_0
abbrev rW1_4 : Rect S5x30x30 := Rect.unit (s := S5x30x30) ![4, 0, 0] S1x30x30.size inb_S5x30x30_S1x30x30_4_0_0
abbrev rB1 : Rect S30 := Rect.unit (s := S30) ![0] S30.size inb_S30_S30_0
abbrev rO1 : Rect S10000x30 := Rect.unit (s := S10000x30) ![0, 0] S10000x30.size inb_S10000x30_S10000x30_0_0

/-- The output block after the body, from the three input blocks: its one store, over the whole block. -/
def out1_3 (x0 : Vec F S5x10000x30 .bf16) (x1 : Vec F S5x30x30 .bf16) (x2 : Vec F S30 .f32) : Vec F S10000x30 .f32 :=
  View.canon [⟨rO1, k1_pay1 (k1_pay2 (View.ld x0 rA1_0) (View.ld x1 rW1_0) (View.ld x0 rA1_1) (View.ld x1 rW1_1) (View.ld x0 rA1_2) (View.ld x1 rW1_2) (View.ld x0 rA1_3) (View.ld x1 rW1_3)) (k1_pay3 (View.ld x0 rA1_4)) (View.ld x1 rW1_4) (View.ld x2 rB1)⟩]

/-- The one store covers the block. -/
theorem cover1_3 (p0 : Vec F S10000x30 .f32) (y : S10000x30.Idx) :
    ∃ pc ∈ ([⟨rO1, p0⟩] : List (View.Piece (Elt F) S10000x30 .f32)), y ∈ pc.1.set :=
  View.cover_of_tiled [⟨rO1, p0⟩] S10000x30.size (by rfl) y

set_option maxHeartbeats 4000000 in
/-- The body on whole staging memrefs — the inputs' at read contents, the output's at anything — runs to the
    continuation with the inputs' as they were and the output's at `out1_3` of the inputs'. -/
theorem sound_kernel1 (c : Dev nD) (E : Set ℕ) (i : grid1.Coords)
    (arg1 : Memref sig .tc .vmem S5x10000x30 .bf16) (harg1 : arg1.IsWhole) (arg2 : Memref sig .tc .vmem S5x30x30 .bf16) (harg2 : arg2.IsWhole)
    (arg3 : Memref sig .tc .vmem S30 .f32) (harg3 : arg3.IsWhole) (arg4 : Memref sig .tc .vmem S10000x30 .f32) (harg4 : arg4.IsWhole)
    (x0 : Vec F S5x10000x30 .bf16) (x1 : Vec F S5x30x30 .bf16) (x2 : Vec F S30 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__cheb_affine_kernel i arg1 harg1 arg2 harg2 arg3 harg3 arg4 harg4) K := by
  simp only [cc1__cheb_affine_kernel_eq_skeleton]; unfold cc1__cheb_affine_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The proof data -/

/-- Pipeline 1's proof data on core `c`: the arrays as the region finds them; after the body at point `t` each
    input's buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (( dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  (( dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  (( dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  Region 2 of the program (its third launch of the affine kernel), at any float instance and at a
  parameter `V`, the contents of the core's buffers when the region is entered.

  At a grid point the body reads its operand block and the weight block, the bias, and stores
  ONE value over the whole output block: the payload of the skeleton. So the output buffer after the body is
  that payload of the three input blocks, whatever it held before (the body also loads the output block, and
  uses nothing of what it read). The proof data say exactly this per point; the invariant is the scoped rest and
  the generator register, untouched; nothing is owed.
-/
import proofs.«140782_j81638738363109_1_alg».proof.Proof.Gen.KernelIdeal.Launch
import proofs.«140782_j81638738363109_1_alg».proof.Proof.Gen.KernelIdeal.Skeleton
import proofs.«140782_j81638738363109_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's rectangles -/

abbrev rA2_0 : Rect S1x10000x30 := Rect.unit (s := S1x10000x30) ![0, 0, 0] S1x10000x30.size inb_S1x10000x30_S1x10000x30_0_0_0
abbrev rW2_0 : Rect S1x30x4 := Rect.unit (s := S1x30x4) ![0, 0, 0] S1x30x4.size inb_S1x30x4_S1x30x4_0_0_0
abbrev rB2 : Rect S4 := Rect.unit (s := S4) ![0] S4.size inb_S4_S4_0
abbrev rO2 : Rect S10000x4 := Rect.unit (s := S10000x4) ![0, 0] S10000x4.size inb_S10000x4_S10000x4_0_0

/-- The output block after the body, from the three input blocks: its one store, over the whole block. -/
def out2_3 (x0 : Vec F S1x10000x30 .bf16) (x1 : Vec F S1x30x4 .bf16) (x2 : Vec F S4 .f32) : Vec F S10000x4 .f32 :=
  View.canon [⟨rO2, k2_pay1 (View.ld x0 rA2_0) (View.ld x1 rW2_0) (View.ld x2 rB2)⟩]

/-- The one store covers the block. -/
theorem cover2_3 (p0 : Vec F S10000x4 .f32) (y : S10000x4.Idx) :
    ∃ pc ∈ ([⟨rO2, p0⟩] : List (View.Piece (Elt F) S10000x4 .f32)), y ∈ pc.1.set :=
  View.cover_of_tiled [⟨rO2, p0⟩] S10000x4.size (by rfl) y

set_option maxHeartbeats 4000000 in
/-- The body on whole staging memrefs — the inputs' at read contents, the output's at anything — runs to the
    continuation with the inputs' as they were and the output's at `out2_3` of the inputs'. -/
theorem sound_kernel2 (c : Dev nD) (E : Set ℕ) (i : grid2.Coords)
    (arg1 : Memref sig .tc .vmem S1x10000x30 .bf16) (harg1 : arg1.IsWhole) (arg2 : Memref sig .tc .vmem S1x30x4 .bf16) (harg2 : arg2.IsWhole)
    (arg3 : Memref sig .tc .vmem S4 .f32) (harg3 : arg3.IsWhole) (arg4 : Memref sig .tc .vmem S10000x4 .f32) (harg4 : arg4.IsWhole)
    (x0 : Vec F S1x10000x30 .bf16) (x1 : Vec F S1x30x4 .bf16) (x2 : Vec F S4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__cheb_affine_kernel i arg1 harg1 arg2 harg2 arg3 harg3 arg4 harg4) K := by
  simp only [cc2__cheb_affine_kernel_eq_skeleton]; unfold cc2__cheb_affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-! ## The proof data -/

/-- Pipeline 2's proof data on core `c`: the arrays as the region finds them; after the body at point `t` each
    input's buffer at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (( dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  (( dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  (( dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The run of the program as ten segments: five stretches of host operations, the first launch of the affine
  kernel, a stretch, the second launch, a stretch, and the last launch (the output projection).

  The contents of a core's buffers at each segment boundary are a fold from the launch memory: a host stretch
  rewrites the buffers its operations write and leaves the rest; a region leaves each of its arrays at what the
  pipeline's write-backs make of it (an input array as entered) and every other buffer as entered. Each region is
  entered from "every unscoped buffer at the boundary's contents, the generator register at some state, nothing
  owed" and left at the same with the next boundary's contents, so the segments chain, and the final state holds
  every unscoped buffer at the last boundary's contents. No host operation and no region writes an argument of the
  program, so the fold at an argument's buffer walks back to the launch memory.
-/
import proofs.«140782_j81638738363109_1_alg».proof.Proof.KI.Region0
import proofs.«140782_j81638738363109_1_alg».proof.Proof.KI.Region1
import proofs.«140782_j81638738363109_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first stretch (the edge endpoints and the self-loop mask). -/
abbrev W1 : Dev nD → Valuation τ sig (Elt F) := fun c => StableHlo.after hostOps0 (W0 m ρ c)
/-- After the masked edge weights. -/
abbrev W2 : Dev nD → Valuation τ sig (Elt F) := fun c => StableHlo.after hostOps0_1 (W1 m ρ c)
/-- After the degrees and their inverse square roots. -/
abbrev W3 : Dev nD → Valuation τ sig (Elt F) := fun c => StableHlo.after hostOps0_2 (W2 m ρ c)
/-- After the masked inverse square roots. -/
abbrev W4 : Dev nD → Valuation τ sig (Elt F) := fun c => StableHlo.after hostOps0_3 (W3 m ρ c)
/-- After the edge normalisation and the first layer's recursion (region 0's entry). -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, the output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the second layer's recursion (region 1's entry). -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the last stretch (region 2's entry). -/
abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At region 2's exit: its arrays at what the pipeline leaves (the inputs as entered, the output's write-backs
    folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves and every other buffer what it held at entry. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its
    post-state is those references at the contents after the stretch, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W10`, the
    generator register at some state. -/
abbrev Tₙ (c : Dev nD) : sProp 𝕄 := iprop(StableHlo.held (c : Thread nD τ) (Pipeline.ucRefs τ sig) (W10 m ρ c) ∗ ∃ r, prngReg c r)

/-! ## The regions as segments -/

-- applying a library lemma stated over the pinned configuration unifies with the printed one only when
-- unification may unfold plain definitions in a metavariable's type
set_option backward.isDefEq.respectTransparency.types false in
/-- REGION 0 over the thread state: entered from every unscoped buffer at `W5`, left at `W6`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when
-- unification may unfold plain definitions in a metavariable's type
set_option backward.isDefEq.respectTransparency.types false in
/-- REGION 1 over the thread state: entered from every unscoped buffer at `W7`, left at `W8`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when
-- unification may unfold plain definitions in a metavariable's type
set_option backward.isDefEq.respectTransparency.types false in
/-- REGION 2 over the thread state: entered from every unscoped buffer at `W9`, left at `W10`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The ten segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ) ]
/-- The program IS the run of the segments: it is the chain of its items, and the segments' run is that chain by
    unfolding definitions. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates,
    nothing faulting, and every final state holds EVERY unscoped buffer at the last boundary's contents `W10`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-! ## The arguments end as launched

No host operation writes an argument, and no region writes one: a region reads an argument through an input
window (whose array it leaves as entered) or does not touch it. So the fold at an argument's buffer walks back to
the launch memory. -/

/-- The program's nine arguments. -/
abbrev args : List (Ref sig .tc) :=
  [main_arg0, main_arg1, main_arg2, main_arg3, main_arg4, main_arg5, main_arg6, main_arg7, main_arg8]

/-- An argument is not a buffer outside the arguments. -/
theorem ne_of_mem_args {b y : Ref sig .tc} (hb : b ∈ args) (hy : y ∉ args) : b ≠ y := fun e => hy (e ▸ hb)

/-- No operation of `hostOps0` writes an argument. -/
theorem keep_hostOps0 {b : Ref sig .tc} (hb : b ∈ args) (V : Valuation τ sig (Elt F)) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_1` writes an argument. -/
theorem keep_hostOps0_1 {b : Ref sig .tc} (hb : b ∈ args) (V : Valuation τ sig (Elt F)) :
    StableHlo.after (hostOps0_1 (F := F)) V (Proc.devRef .tc b) = V (Proc.devRef .tc b) :=
  StableHlo.after_of_forall_not_mem (b := Proc.devRef .tc b) _ _ (List.forall_iff_forall_mem.mp (by
    simp only [hostOps0_1, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_2` writes an argument. -/
theorem keep_hostOps0_2 {b : Ref sig .tc} (hb : b ∈ args) (V : Valuation τ sig (Elt F)) :
    StableHlo.after (hostOps0_2 (F := F)) V (Proc.devRef .tc b) = V (Proc.devRef .tc b) :=
  StableHlo.after_of_forall_not_mem (b := Proc.devRef .tc b) _ _ (List.forall_iff_forall_mem.mp (by
    simp only [hostOps0_2, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_3` writes an argument. -/
theorem keep_hostOps0_3 {b : Ref sig .tc} (hb : b ∈ args) (V : Valuation τ sig (Elt F)) :
    StableHlo.after (hostOps0_3 (F := F)) V (Proc.devRef .tc b) = V (Proc.devRef .tc b) :=
  StableHlo.after_of_forall_not_mem (b := Proc.devRef .tc b) _ _ (List.forall_iff_forall_mem.mp (by
    simp only [hostOps0_3, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps0_4` writes an argument. -/
theorem keep_hostOps0_4 {b : Ref sig .tc} (hb : b ∈ args) (V : Valuation τ sig (Elt F)) :
    StableHlo.after (hostOps0_4 (F := F)) V (Proc.devRef .tc b) = V (Proc.devRef .tc b) :=
  StableHlo.after_of_forall_not_mem (b := Proc.devRef .tc b) _ _ (List.forall_iff_forall_mem.mp (by
    simp only [hostOps0_4, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps1` writes an argument. -/
theorem keep_hostOps1 {b : Ref sig .tc} (hb : b ∈ args) (V : Valuation τ sig (Elt F)) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))
/-- No operation of `hostOps2` writes an argument. -/
theorem keep_hostOps2 {b : Ref sig .tc} (hb : b ∈ args) (V : Valuation τ sig (Elt F)) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall,
      StableHlo.TRef.unary, StableHlo.TRef.ternary, StableHlo.TRef.of, StableHlo.nullary_writes, StableHlo.unary_writes,
      StableHlo.binary_writes, StableHlo.ternary_writes, StableHlo.quaternary_writes, StableHlo.reshape_writes,
      StableHlo.nary_writes, StableHlo.binaryIndexed_writes, Finset.mem_singleton]
    repeat' apply And.intro
    all_goals exact StableHlo.devRef_ne_of_ne (ne_of_mem_args hb (by decide))))

/-- At region 0's entry an argument's buffer is as launched: none of the five stretches before it writes it. -/
theorem W5_arg {b : Ref sig .tc} (hb : b ∈ args) (c : Dev nD) : W5 m ρ c (Proc.devRef .tc b) = m ((c : Thread nD τ).loc b) :=
  calc W5 m ρ c (Proc.devRef .tc b)
    _ = W4 m ρ c (Proc.devRef .tc b) := keep_hostOps0_4 hb _
    _ = W3 m ρ c (Proc.devRef .tc b) := keep_hostOps0_3 hb _
    _ = W2 m ρ c (Proc.devRef .tc b) := keep_hostOps0_2 hb _
    _ = W1 m ρ c (Proc.devRef .tc b) := keep_hostOps0_1 hb _
    _ = W0 m ρ c (Proc.devRef .tc b) := keep_hostOps0 hb _
    _ = m ((c : Thread nD τ).loc b) := rfl

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := keep_hostOps2 (by decide) _
    _ = W7 m ρ c (Proc.devRef .tc main_arg0) := W8_of_ne m ρ c main_arg0 (by decide)
    _ = W6 m ρ c (Proc.devRef .tc main_arg0) := keep_hostOps1 (by decide) _
    _ = W5 m ρ c (Proc.devRef .tc main_arg0) := W6_of_ne m ρ c main_arg0 (by decide)
    _ = m ((c : Thread nD τ).loc main_arg0) := W5_arg m ρ (by decide) c

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := keep_hostOps2 (by decide) _
    _ = W7 m ρ c (Proc.devRef .tc main_arg1) := W8_of_ne m ρ c main_arg1 (by decide)
    _ = W6 m ρ c (Proc.devRef .tc main_arg1) := keep_hostOps1 (by decide) _
    _ = W5 m ρ c (Proc.devRef .tc main_arg1) := W6_of_ne m ρ c main_arg1 (by decide)
    _ = m ((c : Thread nD τ).loc main_arg1) := W5_arg m ρ (by decide) c

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := keep_hostOps2 (by decide) _
    _ = W7 m ρ c (Proc.devRef .tc main_arg2) := W8_of_ne m ρ c main_arg2 (by decide)
    _ = W6 m ρ c (Proc.devRef .tc main_arg2) := keep_hostOps1 (by decide) _
    _ = W5 m ρ c (Proc.devRef .tc main_arg2) := W6_of_ne m ρ c main_arg2 (by decide)
    _ = m ((c : Thread nD τ).loc main_arg2) := W5_arg m ρ (by decide) c

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := keep_hostOps2 (by decide) _
    _ = W7 m ρ c (Proc.devRef .tc main_arg3) := W8_of_ne m ρ c main_arg3 (by decide)
    _ = W6 m ρ c (Proc.devRef .tc main_arg3) := keep_hostOps1 (by decide) _
    _ = W5 m ρ c (Proc.devRef .tc main_arg3) := W6_of_ne m ρ c main_arg3 (by decide)
    _ = m ((c : Thread nD τ).loc main_arg3) := W5_arg m ρ (by decide) c

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep_hostOps2 (by decide) _
    _ = W7 m ρ c (Proc.devRef .tc main_arg4) := W8_of_ne m ρ c main_arg4 (by decide)
    _ = W6 m ρ c (Proc.devRef .tc main_arg4) := keep_hostOps1 (by decide) _
    _ = W5 m ρ c (Proc.devRef .tc main_arg4) := (W6_arr m ρ c 2).trans (((dat0 (V5 m ρ) c).arrAt_in 2 rfl _).trans (A_eq0 (V5 m ρ) c 2))
    _ = m ((c : Thread nD τ).loc main_arg4) := W5_arg m ρ (by decide) c

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := keep_hostOps2 (by decide) _
    _ = W7 m ρ c (Proc.devRef .tc main_arg5) := W8_of_ne m ρ c main_arg5 (by decide)
    _ = W6 m ρ c (Proc.devRef .tc main_arg5) := keep_hostOps1 (by decide) _
    _ = W5 m ρ c (Proc.devRef .tc main_arg5) := W6_of_ne m ρ c main_arg5 (by decide)
    _ = m ((c : Thread nD τ).loc main_arg5) := W5_arg m ρ (by decide) c

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := keep_hostOps2 (by decide) _
    _ = W7 m ρ c (Proc.devRef .tc main_arg6) := (W8_arr m ρ c 2).trans (((dat1 (V7 m ρ) c).arrAt_in 2 rfl _).trans (A_eq1 (V7 m ρ) c 2))
    _ = W6 m ρ c (Proc.devRef .tc main_arg6) := keep_hostOps1 (by decide) _
    _ = W5 m ρ c (Proc.devRef .tc main_arg6) := W6_of_ne m ρ c main_arg6 (by decide)
    _ = m ((c : Thread nD τ).loc main_arg6) := W5_arg m ρ (by decide) c

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := keep_hostOps2 (by decide) _
    _ = W7 m ρ c (Proc.devRef .tc main_arg7) := W8_of_ne m ρ c main_arg7 (by decide)
    _ = W6 m ρ c (Proc.devRef .tc main_arg7) := keep_hostOps1 (by decide) _
    _ = W5 m ρ c (Proc.devRef .tc main_arg7) := W6_of_ne m ρ c main_arg7 (by decide)
    _ = m ((c : Thread nD τ).loc main_arg7) := W5_arg m ρ (by decide) c

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := (W10_arr m ρ c 2).trans (((dat2 (V9 m ρ) c).arrAt_in 2 rfl _).trans (A_eq2 (V9 m ρ) c 2))
    _ = W8 m ρ c (Proc.devRef .tc main_arg8) := keep_hostOps2 (by decide) _
    _ = W7 m ρ c (Proc.devRef .tc main_arg8) := W8_of_ne m ρ c main_arg8 (by decide)
    _ = W6 m ρ c (Proc.devRef .tc main_arg8) := keep_hostOps1 (by decide) _
    _ = W5 m ρ c (Proc.devRef .tc main_arg8) := W6_of_ne m ρ c main_arg8 (by decide)
    _ = m ((c : Thread nD τ).loc main_arg8) := W5_arg m ρ (by decide) c

/-- From any memory with zero counters, every weakly fair execution of the program on the TensorCores terminates,
    nothing faulting, and every final state has the nine argument arrays as launched: `run_all`, each argument read
    back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨ (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c) ⟩) (run_all m ρ)

end Cert.KernelIdeal.Fr

end
-- ==== Proof.KI.HostStages.lean ====
/-
  The program's host operations between its kernels, read back as array functions: what each buffer a
  kernel reads holds once the host operations before it have run, as a function of the buffers' contents
  before them. This module has the two tools the long stretches use (a line run in two stretches; the
  operations' results rewritten where they stand) and the short stretch before the last kernel; the stretch
  before the first kernel and the one between the first and the second are in the modules beside it.
-/
import proofs.«140782_j81638738363109_1_alg».proof.Proof.Gen.KernelIdeal.Launch
import Idealize.ShloMosaic.Lib.Pipeline.Frame

set_option maxRecDepth 16384

noncomputable section

namespace Cert.KernelIdeal.HostStages

open Cert.KernelIdeal Cert.KernelIdeal.Gen
open Idealize.ShloMosaic Idealize.ShloMosaic.TcCoe Idealize.ShloMosaic.StableHlo
open Idealize.SL.Sem

variable {F : FTy → Type} [FloatOps F]

/-- The results of a line's operations, rewritten one at a time where they stand (under the entries of a
    list of operands too, where the one-pass rewriting does not reach). -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- A line's operations run in two stretches: the first `n`, then the rest from what those left. -/
theorem after_split (n : Nat) (l : List (HloOp τ sig (Elt F))) (X : Valuation τ sig (Elt F)) :
    StableHlo.after l X = StableHlo.after (l.drop n) (StableHlo.after (l.take n) X) := by
  rw [← StableHlo.after_append, List.take_append_drop]

/-! ## The operations before the last kernel -/

/-- The last kernel's operand: the second layer's output with a leading unit axis, rounded to bf16. -/
theorem last_v173 (X : Valuation τ sig (Elt F)) :
    StableHlo.after hostOps2 X (Proc.devRef .tc main_v173)
      = truncf .bf16 (broadcastInDim S1x100000x30 ![1, 2] bcast_S100000x30_S1x100000x30_1_2 (X (Proc.devRef .tc main_v171))) bitsLt_bf16_f32 := by
  after_results

/-- The last kernel's weight: the last argument matrix with a leading unit axis, rounded to bf16. -/
theorem last_v175 (X : Valuation τ sig (Elt F)) :
    StableHlo.after hostOps2 X (Proc.devRef .tc main_v175)
      = truncf .bf16 (broadcastInDim S1x30x4 ![1, 2] bcast_S30x4_S1x30x4_1_2 (X (Proc.devRef .tc main_arg7))) bitsLt_bf16_f32 := by
  after_results

/-- The bias argument is not written. -/
theorem last_arg8 (X : Valuation τ sig (Elt F)) :
    StableHlo.after hostOps2 X (Proc.devRef .tc main_arg8) = X (Proc.devRef .tc main_arg8) := by
  after_results

theorem last_read (X : Valuation τ sig (Elt F)) :
    StableHlo.after hostOps2 X (Proc.devRef .tc main_v173)
        = truncf .bf16 (broadcastInDim S1x100000x30 ![1, 2] bcast_S100000x30_S1x100000x30_1_2 (X (Proc.devRef .tc main_v171))) bitsLt_bf16_f32
      ∧ StableHlo.after hostOps2 X (Proc.devRef .tc main_v175)
        = truncf .bf16 (broadcastInDim S1x30x4 ![1, 2] bcast_S30x4_S1x30x4_1_2 (X (Proc.devRef .tc main_arg7))) bitsLt_bf16_f32
      ∧ StableHlo.after hostOps2 X (Proc.devRef .tc main_arg8) = X (Proc.devRef .tc main_arg8) :=
  ⟨last_v173 X, last_v175 X, last_arg8 X⟩

end Cert.KernelIdeal.HostStages

end
-- ==== Proof.KI.HostStages0.lean ====
/-
  The host operations before the program's first kernel, read back as array functions of the arguments.
  The host code is the reference's own (the same slices, gathers, scatter-adds, selects and literals), so
  each buffer the later stretches and the first kernel read is the reference's stage function of the
  same arguments.
-/
import proofs.«140782_j81638738363109_1_alg».proof.Proof.KI.HostStages
import proofs.«140782_j81638738363109_1_alg».proof.Proof.RefReadP

set_option maxRecDepth 16384

noncomputable section

namespace Cert.KernelIdeal.HostStages

open Cert.KernelIdeal Cert.KernelIdeal.Gen
open Idealize.ShloMosaic Idealize.ShloMosaic.TcCoe Idealize.ShloMosaic.StableHlo
open Idealize.SL.Sem

variable {F : FTy → Type} [FloatOps F]

/-! ## The operations before the first kernel

Five lines in a row: the edges' sources and targets sliced out of the index argument and the self-loops'
mask; the masked edge values (an outlined select); the degrees by a scatter-add and their inverse square
roots; the guarded inverse (an outlined select); then 105 operations: the edge weights (21), the four further
terms of the recursion from the feature argument (16, then 20 each), the five terms stacked under a leading
axis and rounded to bf16, and the weight argument rounded to bf16. -/

/-- The buffers' contents when the 105-operation line starts. -/
abbrev beforeLayer (X : Valuation τ sig (Elt F)) : Valuation τ sig (Elt F) :=
  StableHlo.after hostOps0_3 (StableHlo.after hostOps0_2 (StableHlo.after hostOps0_1 (StableHlo.after hostOps0 X)))

/-- The buffers' contents when the first kernel starts. -/
abbrev afterPrefix (X : Valuation τ sig (Elt F)) : Valuation τ sig (Elt F) :=
  StableHlo.after hostOps0_4 (beforeLayer X)

set_option maxHeartbeats 4000000 in
/-- The stacking stretch, from any contents `W`: the five terms' buffers, each under a leading unit axis,
    concatenated along it and rounded to bf16. -/
theorem prefix_stack (W : Valuation τ sig (Elt F)) :
    StableHlo.after (hostOps0_4.drop 97) W (Proc.devRef .tc main_v99)
      = truncf .bf16 (concatenate S5x100000x10 0
          [⟨S1x100000x10, broadcastInDim S1x100000x10 ![1, 2] bcast_S100000x10_S1x100000x10_1_2 (W (Proc.devRef .tc main_arg0))⟩,
           ⟨S1x100000x10, broadcastInDim S1x100000x10 ![1, 2] bcast_S100000x10_S1x100000x10_1_2 (W (Proc.devRef .tc main_v44))⟩,
           ⟨S1x100000x10, broadcastInDim S1x100000x10 ![1, 2] bcast_S100000x10_S1x100000x10_1_2 (W (Proc.devRef .tc main_v60))⟩,
           ⟨S1x100000x10, broadcastInDim S1x100000x10 ![1, 2] bcast_S100000x10_S1x100000x10_1_2 (W (Proc.devRef .tc main_v76))⟩,
           ⟨S1x100000x10, broadcastInDim S1x100000x10 ![1, 2] bcast_S100000x10_S1x100000x10_1_2 (W (Proc.devRef .tc main_v92))⟩]
          concatenates_S1x100000x10_S1x100000x10_S1x100000x10_S1x100000x10_S1x100000x10_S5x100000x10_d0) bitsLt_bf16_f32 := by
  simp only [List.drop_succ_cons, List.drop_zero]
  after_results_simp
  dsimp only [Matrix.cons_val]
  results_rw

set_option maxHeartbeats 4000000 in
/-- The feature argument is not written. -/
theorem prefix_body_arg0 (X : Valuation τ sig (Elt F)) :
    StableHlo.after (hostOps0_4.take 97) (beforeLayer X) (Proc.devRef .tc main_arg0) = X (Proc.devRef .tc main_arg0) := by
  simp only [List.take_succ_cons, List.take_zero]
  after_results_simp

set_option maxHeartbeats 4000000 in
/-- The second term: the reference's stage of the same operations. -/
theorem prefix_body_v44 (X : Valuation τ sig (Elt F)) :
    StableHlo.after (hostOps0_4.take 97) (beforeLayer X) (Proc.devRef .tc main_v44) = Cert.ReferenceIdeal.ReadP.val_main_v47 (X (Proc.devRef .tc main_arg0)) (X (Proc.devRef .tc main_arg1)) (X (Proc.devRef .tc main_arg2)) := by
  simp only [List.take_succ_cons, List.take_zero]
  after_results_simp
  rfl

set_option maxHeartbeats 4000000 in
/-- The third term. -/
theorem prefix_body_v60 (X : Valuation τ sig (Elt F)) :
    StableHlo.after (hostOps0_4.take 97) (beforeLayer X) (Proc.devRef .tc main_v60) = Cert.ReferenceIdeal.ReadP.val_main_v67 (X (Proc.devRef .tc main_arg0)) (X (Proc.devRef .tc main_arg1)) (X (Proc.devRef .tc main_arg2)) := by
  simp only [List.take_succ_cons, List.take_zero]
  after_results_simp
  rfl

set_option maxHeartbeats 4000000 in
/-- The fourth term. -/
theorem prefix_body_v76 (X : Valuation τ sig (Elt F)) :
    StableHlo.after (hostOps0_4.take 97) (beforeLayer X) (Proc.devRef .tc main_v76) = Cert.ReferenceIdeal.ReadP.val_main_v87 (X (Proc.devRef .tc main_arg0)) (X (Proc.devRef .tc main_arg1)) (X (Proc.devRef .tc main_arg2)) := by
  simp only [List.take_succ_cons, List.take_zero]
  after_results_simp
  rfl

set_option maxHeartbeats 4000000 in
/-- The fifth term. -/
theorem prefix_body_v92 (X : Valuation τ sig (Elt F)) :
    StableHlo.after (hostOps0_4.take 97) (beforeLayer X) (Proc.devRef .tc main_v92) = Cert.ReferenceIdeal.ReadP.val_main_v107 (X (Proc.devRef .tc main_arg0)) (X (Proc.devRef .tc main_arg1)) (X (Proc.devRef .tc main_arg2)) := by
  simp only [List.take_succ_cons, List.take_zero]
  after_results_simp
  rfl

set_option maxHeartbeats 4000000 in
/-- The edges' sources. -/
theorem prefix_v1 (X : Valuation τ sig (Elt F)) :
    afterPrefix X (Proc.devRef .tc main_v1) = Cert.ReferenceIdeal.ReadP.val_main_v1 (X (Proc.devRef .tc main_arg1)) := by
  after_results_simp
  rfl

set_option maxHeartbeats 4000000 in
/-- The edges' targets. -/
theorem prefix_v3 (X : Valuation τ sig (Elt F)) :
    afterPrefix X (Proc.devRef .tc main_v3) = Cert.ReferenceIdeal.ReadP.val_main_v3 (X (Proc.devRef .tc main_arg1)) := by
  after_results_simp
  rfl

set_option maxHeartbeats 4000000 in
/-- The edge weights. -/
theorem prefix_v31 (X : Valuation τ sig (Elt F)) :
    afterPrefix X (Proc.devRef .tc main_v31) = Cert.ReferenceIdeal.ReadP.val_main_v31 (X (Proc.devRef .tc main_arg1)) (X (Proc.devRef .tc main_arg2)) := by
  after_results_simp
  rfl

/-- The first kernel's operand: the feature argument and the reference's four further stages of the recursion,
    stacked and rounded to bf16. -/
theorem prefix_v99 (X : Valuation τ sig (Elt F)) :
    afterPrefix X (Proc.devRef .tc main_v99)
      = truncf .bf16 (concatenate S5x100000x10 0
          [⟨S1x100000x10, broadcastInDim S1x100000x10 ![1, 2] bcast_S100000x10_S1x100000x10_1_2 (X (Proc.devRef .tc main_arg0))⟩,
           ⟨S1x100000x10, broadcastInDim S1x100000x10 ![1, 2] bcast_S100000x10_S1x100000x10_1_2 (Cert.ReferenceIdeal.ReadP.val_main_v47 (X (Proc.devRef .tc main_arg0)) (X (Proc.devRef .tc main_arg1)) (X (Proc.devRef .tc main_arg2)))⟩,
           ⟨S1x100000x10, broadcastInDim S1x100000x10 ![1, 2] bcast_S100000x10_S1x100000x10_1_2 (Cert.ReferenceIdeal.ReadP.val_main_v67 (X (Proc.devRef .tc main_arg0)) (X (Proc.devRef .tc main_arg1)) (X (Proc.devRef .tc main_arg2)))⟩,
           ⟨S1x100000x10, broadcastInDim S1x100000x10 ![1, 2] bcast_S100000x10_S1x100000x10_1_2 (Cert.ReferenceIdeal.ReadP.val_main_v87 (X (Proc.devRef .tc main_arg0)) (X (Proc.devRef .tc main_arg1)) (X (Proc.devRef .tc main_arg2)))⟩,
           ⟨S1x100000x10, broadcastInDim S1x100000x10 ![1, 2] bcast_S100000x10_S1x100000x10_1_2 (Cert.ReferenceIdeal.ReadP.val_main_v107 (X (Proc.devRef .tc main_arg0)) (X (Proc.devRef .tc main_arg1)) (X (Proc.devRef .tc main_arg2)))⟩]
          concatenates_S1x100000x10_S1x100000x10_S1x100000x10_S1x100000x10_S1x100000x10_S5x100000x10_d0) bitsLt_bf16_f32 := by
  show StableHlo.after hostOps0_4 (beforeLayer X) (Proc.devRef .tc main_v99) = _
  rw [after_split 97 hostOps0_4 (beforeLayer X), prefix_stack, prefix_body_arg0, prefix_body_v44, prefix_body_v60,
    prefix_body_v76, prefix_body_v92]

set_option maxHeartbeats 4000000 in
/-- The first kernel's weight: the weight argument rounded to bf16. -/
theorem prefix_v100 (X : Valuation τ sig (Elt F)) :
    afterPrefix X (Proc.devRef .tc main_v100) = truncf .bf16 (X (Proc.devRef .tc main_arg3)) bitsLt_bf16_f32 := by
  after_results_simp

set_option maxHeartbeats 4000000 in
/-- The bias argument is not written. -/
theorem prefix_arg4 (X : Valuation τ sig (Elt F)) :
    afterPrefix X (Proc.devRef .tc main_arg4) = X (Proc.devRef .tc main_arg4) := by
  after_results_simp

end Cert.KernelIdeal.HostStages

end
-- ==== Proof.KI.HostStages1.lean ====
/-
  The host operations between the program's first and second kernel, read back as array functions of the
  buffers' contents before them. The host code is the reference's own (the same gathers, scatter-adds,
  selects and literals), so each term of the recursion is the reference's stage function of the same
  arguments, given that the first kernel's output buffer holds the reference's first-layer stage.
-/
import proofs.«140782_j81638738363109_1_alg».proof.Proof.KI.HostStages
import proofs.«140782_j81638738363109_1_alg».proof.Proof.RefReadP

set_option maxRecDepth 16384

noncomputable section

namespace Cert.KernelIdeal.HostStages

open Cert.KernelIdeal Cert.KernelIdeal.Gen
open Idealize.ShloMosaic Idealize.ShloMosaic.TcCoe Idealize.ShloMosaic.StableHlo
open Idealize.SL.Sem

variable {F : FTy → Type} [FloatOps F]

/-! ## The operations between the first and the second kernel

The line is 76 operations computing the four further terms of the recursion from the first kernel's output (each
a gather along the edges' sources, the product with the edge weights, a scatter-add along the targets; from the
second on, twice that minus the term before the last), then the five terms stacked under a leading axis and
rounded to bf16, and the weight argument rounded to bf16. -/

set_option maxHeartbeats 4000000 in
/-- The stacking stretch, from any contents `W`: the five terms' buffers, each under a leading unit axis,
    concatenated along it and rounded to bf16. -/
theorem mid_stack (W : Valuation τ sig (Elt F)) :
    StableHlo.after (hostOps1.drop 76) W (Proc.devRef .tc main_v169)
      = truncf .bf16 (concatenate S5x100000x30 0
          [⟨S1x100000x30, broadcastInDim S1x100000x30 ![1, 2] bcast_S100000x30_S1x100000x30_1_2 (W (Proc.devRef .tc main_v101))⟩,
           ⟨S1x100000x30, broadcastInDim S1x100000x30 ![1, 2] bcast_S100000x30_S1x100000x30_1_2 (W (Proc.devRef .tc main_v114))⟩,
           ⟨S1x100000x30, broadcastInDim S1x100000x30 ![1, 2] bcast_S100000x30_S1x100000x30_1_2 (W (Proc.devRef .tc main_v130))⟩,
           ⟨S1x100000x30, broadcastInDim S1x100000x30 ![1, 2] bcast_S100000x30_S1x100000x30_1_2 (W (Proc.devRef .tc main_v146))⟩,
           ⟨S1x100000x30, broadcastInDim S1x100000x30 ![1, 2] bcast_S100000x30_S1x100000x30_1_2 (W (Proc.devRef .tc main_v162))⟩]
          concatenates_S1x100000x30_S1x100000x30_S1x100000x30_S1x100000x30_S1x100000x30_S5x100000x30_d0) bitsLt_bf16_f32 := by
  simp only [List.drop_succ_cons, List.drop_zero]
  after_results_simp
  dsimp only [Matrix.cons_val]
  results_rw

set_option maxHeartbeats 4000000 in
/-- The recursion's stretch does not write the first kernel's output. -/
theorem mid_v101 (X : Valuation τ sig (Elt F)) :
    StableHlo.after (hostOps1.take 76) X (Proc.devRef .tc main_v101) = X (Proc.devRef .tc main_v101) := by
  simp only [List.take_succ_cons, List.take_zero]
  after_results_simp

set_option maxHeartbeats 4000000 in
/-- The second term: the reference's stage of the same operations. -/
theorem mid_v114 (X : Valuation τ sig (Elt F)) (a0 : (⟨S100000x10, .f32⟩ : BufTy).Contents (Elt F)) (a1 : (⟨S2x3200000, .i32⟩ : BufTy).Contents (Elt F))
    (a2 : (⟨S3200000, .f32⟩ : BufTy).Contents (Elt F)) (a3 : (⟨S5x10x30, .f32⟩ : BufTy).Contents (Elt F))
    (a4 : (⟨S30, .f32⟩ : BufTy).Contents (Elt F))
    (h101 : X (Proc.devRef .tc main_v101) = Cert.ReferenceIdeal.ReadP.val_main_v115 a0 a1 a2 a3 a4)
    (h1 : X (Proc.devRef .tc main_v1) = Cert.ReferenceIdeal.ReadP.val_main_v1 a1)
    (h3 : X (Proc.devRef .tc main_v3) = Cert.ReferenceIdeal.ReadP.val_main_v3 a1)
    (h31 : X (Proc.devRef .tc main_v31) = Cert.ReferenceIdeal.ReadP.val_main_v31 a1 a2) :
    StableHlo.after (hostOps1.take 76) X (Proc.devRef .tc main_v114) = Cert.ReferenceIdeal.ReadP.val_main_v131 a0 a1 a2 a3 a4 := by
  simp only [List.take_succ_cons, List.take_zero]
  after_results_simp
  rw [h101, h1, h3, h31]
  rfl

set_option maxHeartbeats 4000000 in
/-- The third term. -/
theorem mid_v130 (X : Valuation τ sig (Elt F)) (a0 : (⟨S100000x10, .f32⟩ : BufTy).Contents (Elt F)) (a1 : (⟨S2x3200000, .i32⟩ : BufTy).Contents (Elt F))
    (a2 : (⟨S3200000, .f32⟩ : BufTy).Contents (Elt F)) (a3 : (⟨S5x10x30, .f32⟩ : BufTy).Contents (Elt F))
    (a4 : (⟨S30, .f32⟩ : BufTy).Contents (Elt F))
    (h101 : X (Proc.devRef .tc main_v101) = Cert.ReferenceIdeal.ReadP.val_main_v115 a0 a1 a2 a3 a4)
    (h1 : X (Proc.devRef .tc main_v1) = Cert.ReferenceIdeal.ReadP.val_main_v1 a1)
    (h3 : X (Proc.devRef .tc main_v3) = Cert.ReferenceIdeal.ReadP.val_main_v3 a1)
    (h31 : X (Proc.devRef .tc main_v31) = Cert.ReferenceIdeal.ReadP.val_main_v31 a1 a2) :
    StableHlo.after (hostOps1.take 76) X (Proc.devRef .tc main_v130) = Cert.ReferenceIdeal.ReadP.val_main_v151 a0 a1 a2 a3 a4 := by
  simp only [List.take_succ_cons, List.take_zero]
  after_results_simp
  rw [h101, h1, h3, h31]
  rfl

set_option maxHeartbeats 4000000 in
/-- The fourth term. -/
theorem mid_v146 (X : Valuation τ sig (Elt F)) (a0 : (⟨S100000x10, .f32⟩ : BufTy).Contents (Elt F)) (a1 : (⟨S2x3200000, .i32⟩ : BufTy).Contents (Elt F))
    (a2 : (⟨S3200000, .f32⟩ : BufTy).Contents (Elt F)) (a3 : (⟨S5x10x30, .f32⟩ : BufTy).Contents (Elt F))
    (a4 : (⟨S30, .f32⟩ : BufTy).Contents (Elt F))
    (h101 : X (Proc.devRef .tc main_v101) = Cert.ReferenceIdeal.ReadP.val_main_v115 a0 a1 a2 a3 a4)
    (h1 : X (Proc.devRef .tc main_v1) = Cert.ReferenceIdeal.ReadP.val_main_v1 a1)
    (h3 : X (Proc.devRef .tc main_v3) = Cert.ReferenceIdeal.ReadP.val_main_v3 a1)
    (h31 : X (Proc.devRef .tc main_v31) = Cert.ReferenceIdeal.ReadP.val_main_v31 a1 a2) :
    StableHlo.after (hostOps1.take 76) X (Proc.devRef .tc main_v146) = Cert.ReferenceIdeal.ReadP.val_main_v171 a0 a1 a2 a3 a4 := by
  simp only [List.take_succ_cons, List.take_zero]
  after_results_simp
  rw [h101, h1, h3, h31]
  rfl

set_option maxHeartbeats 4000000 in
/-- The fifth term. -/
theorem mid_v162 (X : Valuation τ sig (Elt F)) (a0 : (⟨S100000x10, .f32⟩ : BufTy).Contents (Elt F)) (a1 : (⟨S2x3200000, .i32⟩ : BufTy).Contents (Elt F))
    (a2 : (⟨S3200000, .f32⟩ : BufTy).Contents (Elt F)) (a3 : (⟨S5x10x30, .f32⟩ : BufTy).Contents (Elt F))
    (a4 : (⟨S30, .f32⟩ : BufTy).Contents (Elt F))
    (h101 : X (Proc.devRef .tc main_v101) = Cert.ReferenceIdeal.ReadP.val_main_v115 a0 a1 a2 a3 a4)
    (h1 : X (Proc.devRef .tc main_v1) = Cert.ReferenceIdeal.ReadP.val_main_v1 a1)
    (h3 : X (Proc.devRef .tc main_v3) = Cert.ReferenceIdeal.ReadP.val_main_v3 a1)
    (h31 : X (Proc.devRef .tc main_v31) = Cert.ReferenceIdeal.ReadP.val_main_v31 a1 a2) :
    StableHlo.after (hostOps1.take 76) X (Proc.devRef .tc main_v162) = Cert.ReferenceIdeal.ReadP.val_main_v191 a0 a1 a2 a3 a4 := by
  simp only [List.take_succ_cons, List.take_zero]
  after_results_simp
  rw [h101, h1, h3, h31]
  rfl

/-- The second kernel's operand: the reference's five stages of the recursion, stacked and rounded to bf16. -/
theorem middle_v169 (X : Valuation τ sig (Elt F)) (a0 : (⟨S100000x10, .f32⟩ : BufTy).Contents (Elt F)) (a1 : (⟨S2x3200000, .i32⟩ : BufTy).Contents (Elt F))
    (a2 : (⟨S3200000, .f32⟩ : BufTy).Contents (Elt F)) (a3 : (⟨S5x10x30, .f32⟩ : BufTy).Contents (Elt F))
    (a4 : (⟨S30, .f32⟩ : BufTy).Contents (Elt F))
    (h101 : X (Proc.devRef .tc main_v101) = Cert.ReferenceIdeal.ReadP.val_main_v115 a0 a1 a2 a3 a4)
    (h1 : X (Proc.devRef .tc main_v1) = Cert.ReferenceIdeal.ReadP.val_main_v1 a1)
    (h3 : X (Proc.devRef .tc main_v3) = Cert.ReferenceIdeal.ReadP.val_main_v3 a1)
    (h31 : X (Proc.devRef .tc main_v31) = Cert.ReferenceIdeal.ReadP.val_main_v31 a1 a2) :
    StableHlo.after hostOps1 X (Proc.devRef .tc main_v169)
      = truncf .bf16 (concatenate S5x100000x30 0
          [⟨S1x100000x30, broadcastInDim S1x100000x30 ![1, 2] bcast_S100000x30_S1x100000x30_1_2 (Cert.ReferenceIdeal.ReadP.val_main_v115 a0 a1 a2 a3 a4)⟩,
           ⟨S1x100000x30, broadcastInDim S1x100000x30 ![1, 2] bcast_S100000x30_S1x100000x30_1_2 (Cert.ReferenceIdeal.ReadP.val_main_v131 a0 a1 a2 a3 a4)⟩,
           ⟨S1x100000x30, broadcastInDim S1x100000x30 ![1, 2] bcast_S100000x30_S1x100000x30_1_2 (Cert.ReferenceIdeal.ReadP.val_main_v151 a0 a1 a2 a3 a4)⟩,
           ⟨S1x100000x30, broadcastInDim S1x100000x30 ![1, 2] bcast_S100000x30_S1x100000x30_1_2 (Cert.ReferenceIdeal.ReadP.val_main_v171 a0 a1 a2 a3 a4)⟩,
           ⟨S1x100000x30, broadcastInDim S1x100000x30 ![1, 2] bcast_S100000x30_S1x100000x30_1_2 (Cert.ReferenceIdeal.ReadP.val_main_v191 a0 a1 a2 a3 a4)⟩]
          concatenates_S1x100000x30_S1x100000x30_S1x100000x30_S1x100000x30_S1x100000x30_S5x100000x30_d0) bitsLt_bf16_f32 := by
  rw [after_split 76 hostOps1 X, mid_stack, mid_v101, h101, mid_v114 X a0 a1 a2 a3 a4 h101 h1 h3 h31,
    mid_v130 X a0 a1 a2 a3 a4 h101 h1 h3 h31, mid_v146 X a0 a1 a2 a3 a4 h101 h1 h3 h31,
    mid_v162 X a0 a1 a2 a3 a4 h101 h1 h3 h31]

set_option maxHeartbeats 4000000 in
/-- The second kernel's weight: the weight argument rounded to bf16. -/
theorem middle_v170 (X : Valuation τ sig (Elt F)) :
    StableHlo.after hostOps1 X (Proc.devRef .tc main_v170) = truncf .bf16 (X (Proc.devRef .tc main_arg5)) bitsLt_bf16_f32 := by
  after_results_simp

set_option maxHeartbeats 4000000 in
/-- The bias argument is not written. -/
theorem middle_arg6 (X : Valuation τ sig (Elt F)) :
    StableHlo.after hostOps1 X (Proc.devRef .tc main_arg6) = X (Proc.devRef .tc main_arg6) := by
  after_results_simp

theorem middle_read (X : Valuation τ sig (Elt F)) (a0 : (⟨S100000x10, .f32⟩ : BufTy).Contents (Elt F)) (a1 : (⟨S2x3200000, .i32⟩ : BufTy).Contents (Elt F))
    (a2 : (⟨S3200000, .f32⟩ : BufTy).Contents (Elt F)) (a3 : (⟨S5x10x30, .f32⟩ : BufTy).Contents (Elt F))
    (a4 : (⟨S30, .f32⟩ : BufTy).Contents (Elt F))
    (h101 : X (Proc.devRef .tc main_v101) = Cert.ReferenceIdeal.ReadP.val_main_v115 a0 a1 a2 a3 a4)
    (h1 : X (Proc.devRef .tc main_v1) = Cert.ReferenceIdeal.ReadP.val_main_v1 a1)
    (h3 : X (Proc.devRef .tc main_v3) = Cert.ReferenceIdeal.ReadP.val_main_v3 a1)
    (h31 : X (Proc.devRef .tc main_v31) = Cert.ReferenceIdeal.ReadP.val_main_v31 a1 a2) :
    StableHlo.after hostOps1 X (Proc.devRef .tc main_v169)
        = truncf .bf16 (concatenate S5x100000x30 0
          [⟨S1x100000x30, broadcastInDim S1x100000x30 ![1, 2] bcast_S100000x30_S1x100000x30_1_2 (Cert.ReferenceIdeal.ReadP.val_main_v115 a0 a1 a2 a3 a4)⟩,
           ⟨S1x100000x30, broadcastInDim S1x100000x30 ![1, 2] bcast_S100000x30_S1x100000x30_1_2 (Cert.ReferenceIdeal.ReadP.val_main_v131 a0 a1 a2 a3 a4)⟩,
           ⟨S1x100000x30, broadcastInDim S1x100000x30 ![1, 2] bcast_S100000x30_S1x100000x30_1_2 (Cert.ReferenceIdeal.ReadP.val_main_v151 a0 a1 a2 a3 a4)⟩,
           ⟨S1x100000x30, broadcastInDim S1x100000x30 ![1, 2] bcast_S100000x30_S1x100000x30_1_2 (Cert.ReferenceIdeal.ReadP.val_main_v171 a0 a1 a2 a3 a4)⟩,
           ⟨S1x100000x30, broadcastInDim S1x100000x30 ![1, 2] bcast_S100000x30_S1x100000x30_1_2 (Cert.ReferenceIdeal.ReadP.val_main_v191 a0 a1 a2 a3 a4)⟩]
          concatenates_S1x100000x30_S1x100000x30_S1x100000x30_S1x100000x30_S1x100000x30_S5x100000x30_d0) bitsLt_bf16_f32
      ∧ StableHlo.after hostOps1 X (Proc.devRef .tc main_v170) = truncf .bf16 (X (Proc.devRef .tc main_arg5)) bitsLt_bf16_f32
      ∧ StableHlo.after hostOps1 X (Proc.devRef .tc main_arg6) = X (Proc.devRef .tc main_arg6) :=
  ⟨middle_v169 X a0 a1 a2 a3 a4 h101 h1 h3 h31, middle_v170 X, middle_arg6 X⟩

end Cert.KernelIdeal.HostStages

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.KI.Block0.lean ====
/-
  Region 0's output block at an index, over the extended reals.

  With `x0` the operand block (5 slabs of 10000 rows by 10), `x1` the weight block (5 slabs of 10 by 30) and `x2` the
  bias, the body's one store leaves at `(r, q)`
      max( 0 + Σ_j x0(0, r, j)·x1(0, j, q) + … + Σ_j x0(4, r, j)·x1(4, j, q) + x2(q) , 0 )
  — each slab product a matrix product into the zero accumulator, read as a plain sum; the bias a row broadcast over the
  rows; a change of float format is the identity on extended reals, so the slabs' narrow format plays no part.
-/
import proofs.«140782_j81638738363109_1_alg».proof.Proof.KI.Region0
import proofs.«140782_j81638738363109_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx

/-- How the slab product's dimension record reads its operands: left axis 1 against right axis 0. -/
theorem reads0 : Cert.Lib.PlainDot.Reads (R := 10000) (K := 10) (C := 30) dot_S10000x10_S10x30_S10000x30_1_0_0_1_n_n where
  rank := rfl
  size := rfl
  lhs0 i q := by
    unfold DotDims.lhsIdx
    rw [dif_neg (show ¬(0 : Fin S10000x10.rank) ∈ dot_S10000x10_S10x30_S10000x30_1_0_0_1_n_n.lhsBatch by decide), dif_pos (show (0 : Fin S10000x10.rank) ∈ dot_S10000x10_S10x30_S10000x30_1_0_0_1_n_n.lhsNonContracting by decide)]
    rfl
  lhs1 i q := dot_S10000x10_S10x30_S10000x30_1_0_0_1_n_n.lhsIdx_val_of_single rfl i q
  rhs0 i q := dot_S10000x10_S10x30_S10000x30_1_0_0_1_n_n.rhsIdx_val_of_single rfl i q
  rhs1 i q := by
    unfold DotDims.rhsIdx
    rw [dif_neg (show ¬(1 : Fin S10x30.rank) ∈ dot_S10000x10_S10x30_S10000x30_1_0_0_1_n_n.rhsBatch by decide), dif_pos (show (1 : Fin S10x30.rank) ∈ dot_S10000x10_S10x30_S10000x30_1_0_0_1_n_n.rhsNonContracting by decide)]
    rfl

/-! ## A slab of a block, read at an index -/

theorem ldA0_0 (x0 : Vec Ideal S5x10000x10 .bf16) (u : Fin 1) (r : Fin 10000) (j : Fin 10) :
    View.ld x0 rA0_0 (ix3 u r j) = x0 (ix3 (0 : Fin 5) r j) := by
  show x0 (rA0_0.idx (ix3 u r j)) = x0 (ix3 (0 : Fin 5) r j)
  refine congrArg x0 (funext fun a => Fin.ext ?_)
  have hu : u.val = 0 := by omega
  match a with
  | ⟨0, _⟩ => show 0 + 1 * u.val = 0; omega
  | ⟨1, _⟩ => show 0 + 1 * r.val = r.val; omega
  | ⟨2, _⟩ => show 0 + 1 * j.val = j.val; omega
theorem ldW0_0 (x1 : Vec Ideal S5x10x30 .bf16) (u : Fin 1) (j : Fin 10) (q : Fin 30) :
    View.ld x1 rW0_0 (ix3 u j q) = x1 (ix3 (0 : Fin 5) j q) := by
  show x1 (rW0_0.idx (ix3 u j q)) = x1 (ix3 (0 : Fin 5) j q)
  refine congrArg x1 (funext fun a => Fin.ext ?_)
  have hu : u.val = 0 := by omega
  match a with
  | ⟨0, _⟩ => show 0 + 1 * u.val = 0; omega
  | ⟨1, _⟩ => show 0 + 1 * j.val = j.val; omega
  | ⟨2, _⟩ => show 0 + 1 * q.val = q.val; omega

theorem ldA0_1 (x0 : Vec Ideal S5x10000x10 .bf16) (u : Fin 1) (r : Fin 10000) (j : Fin 10) :
    View.ld x0 rA0_1 (ix3 u r j) = x0 (ix3 (1 : Fin 5) r j) := by
  show x0 (rA0_1.idx (ix3 u r j)) = x0 (ix3 (1 : Fin 5) r j)
  refine congrArg x0 (funext fun a => Fin.ext ?_)
  have hu : u.val = 0 := by omega
  match a with
  | ⟨0, _⟩ => show 1 + 1 * u.val = 1; omega
  | ⟨1, _⟩ => show 0 + 1 * r.val = r.val; omega
  | ⟨2, _⟩ => show 0 + 1 * j.val = j.val; omega
theorem ldW0_1 (x1 : Vec Ideal S5x10x30 .bf16) (u : Fin 1) (j : Fin 10) (q : Fin 30) :
    View.ld x1 rW0_1 (ix3 u j q) = x1 (ix3 (1 : Fin 5) j q) := by
  show x1 (rW0_1.idx (ix3 u j q)) = x1 (ix3 (1 : Fin 5) j q)
  refine congrArg x1 (funext fun a => Fin.ext ?_)
  have hu : u.val = 0 := by omega
  match a with
  | ⟨0, _⟩ => show 1 + 1 * u.val = 1; omega
  | ⟨1, _⟩ => show 0 + 1 * j.val = j.val; omega
  | ⟨2, _⟩ => show 0 + 1 * q.val = q.val; omega

theorem ldA0_2 (x0 : Vec Ideal S5x10000x10 .bf16) (u : Fin 1) (r : Fin 10000) (j : Fin 10) :
    View.ld x0 rA0_2 (ix3 u r j) = x0 (ix3 (2 : Fin 5) r j) := by
  show x0 (rA0_2.idx (ix3 u r j)) = x0 (ix3 (2 : Fin 5) r j)
  refine congrArg x0 (funext fun a => Fin.ext ?_)
  have hu : u.val = 0 := by omega
  match a with
  | ⟨0, _⟩ => show 2 + 1 * u.val = 2; omega
  | ⟨1, _⟩ => show 0 + 1 * r.val = r.val; omega
  | ⟨2, _⟩ => show 0 + 1 * j.val = j.val; omega
theorem ldW0_2 (x1 : Vec Ideal S5x10x30 .bf16) (u : Fin 1) (j : Fin 10) (q : Fin 30) :
    View.ld x1 rW0_2 (ix3 u j q) = x1 (ix3 (2 : Fin 5) j q) := by
  show x1 (rW0_2.idx (ix3 u j q)) = x1 (ix3 (2 : Fin 5) j q)
  refine congrArg x1 (funext fun a => Fin.ext ?_)
  have hu : u.val = 0 := by omega
  match a with
  | ⟨0, _⟩ => show 2 + 1 * u.val = 2; omega
  | ⟨1, _⟩ => show 0 + 1 * j.val = j.val; omega
  | ⟨2, _⟩ => show 0 + 1 * q.val = q.val; omega

theorem ldA0_3 (x0 : Vec Ideal S5x10000x10 .bf16) (u : Fin 1) (r : Fin 10000) (j : Fin 10) :
    View.ld x0 rA0_3 (ix3 u r j) = x0 (ix3 (3 : Fin 5) r j) := by
  show x0 (rA0_3.idx (ix3 u r j)) = x0 (ix3 (3 : Fin 5) r j)
  refine congrArg x0 (funext fun a => Fin.ext ?_)
  have hu : u.val = 0 := by omega
  match a with
  | ⟨0, _⟩ => show 3 + 1 * u.val = 3; omega
  | ⟨1, _⟩ => show 0 + 1 * r.val = r.val; omega
  | ⟨2, _⟩ => show 0 + 1 * j.val = j.val; omega
theorem ldW0_3 (x1 : Vec Ideal S5x10x30 .bf16) (u : Fin 1) (j : Fin 10) (q : Fin 30) :
    View.ld x1 rW0_3 (ix3 u j q) = x1 (ix3 (3 : Fin 5) j q) := by
  show x1 (rW0_3.idx (ix3 u j q)) = x1 (ix3 (3 : Fin 5) j q)
  refine congrArg x1 (funext fun a => Fin.ext ?_)
  have hu : u.val = 0 := by omega
  match a with
  | ⟨0, _⟩ => show 3 + 1 * u.val = 3; omega
  | ⟨1, _⟩ => show 0 + 1 * j.val = j.val; omega
  | ⟨2, _⟩ => show 0 + 1 * q.val = q.val; omega

theorem ldA0_4 (x0 : Vec Ideal S5x10000x10 .bf16) (u : Fin 1) (r : Fin 10000) (j : Fin 10) :
    View.ld x0 rA0_4 (ix3 u r j) = x0 (ix3 (4 : Fin 5) r j) := by
  show x0 (rA0_4.idx (ix3 u r j)) = x0 (ix3 (4 : Fin 5) r j)
  refine congrArg x0 (funext fun a => Fin.ext ?_)
  have hu : u.val = 0 := by omega
  match a with
  | ⟨0, _⟩ => show 4 + 1 * u.val = 4; omega
  | ⟨1, _⟩ => show 0 + 1 * r.val = r.val; omega
  | ⟨2, _⟩ => show 0 + 1 * j.val = j.val; omega
theorem ldW0_4 (x1 : Vec Ideal S5x10x30 .bf16) (u : Fin 1) (j : Fin 10) (q : Fin 30) :
    View.ld x1 rW0_4 (ix3 u j q) = x1 (ix3 (4 : Fin 5) j q) := by
  show x1 (rW0_4.idx (ix3 u j q)) = x1 (ix3 (4 : Fin 5) j q)
  refine congrArg x1 (funext fun a => Fin.ext ?_)
  have hu : u.val = 0 := by omega
  match a with
  | ⟨0, _⟩ => show 4 + 1 * u.val = 4; omega
  | ⟨1, _⟩ => show 0 + 1 * j.val = j.val; omega
  | ⟨2, _⟩ => show 0 + 1 * q.val = q.val; omega

/-! ## A slab product at an index -/

theorem slab0_0 (x0 : Vec Ideal S5x10000x10 .bf16) (x1 : Vec Ideal S5x10x30 .bf16) (r : Fin 10000) (q : Fin 30) :
    (matmul (F := Ideal) (φ₁ := .bf16) (φ₂ := .bf16) dot_S10000x10_S10x30_S10000x30_1_0_0_1_n_n none (shapeCast S10000x10 (View.ld x0 rA0_0) shapeCasts_S1x10000x10_S10000x10) (shapeCast S10x30 (View.ld x1 rW0_0) shapeCasts_S1x10x30_S10x30)
        (constant S10000x30 .f32 0x00000000#32) (ix2 r q) : EReal)
      = ∑ j : Fin 10, (x0 (ix3 (0 : Fin 5) r j) : EReal) * (x1 (ix3 (0 : Fin 5) j q) : EReal) := by
  refine (Cert.Lib.PlainDot.matmul_zero_apply reads0 none _ _ r q).trans (Finset.sum_congr rfl fun j _ => ?_)
  rw [shapeCast_1ab_ab_apply, shapeCast_1ab_ab_apply, ldA0_0, ldW0_0]

theorem slab0_1 (x0 : Vec Ideal S5x10000x10 .bf16) (x1 : Vec Ideal S5x10x30 .bf16) (r : Fin 10000) (q : Fin 30) :
    (matmul (F := Ideal) (φ₁ := .bf16) (φ₂ := .bf16) dot_S10000x10_S10x30_S10000x30_1_0_0_1_n_n none (shapeCast S10000x10 (View.ld x0 rA0_1) shapeCasts_S1x10000x10_S10000x10) (shapeCast S10x30 (View.ld x1 rW0_1) shapeCasts_S1x10x30_S10x30)
        (constant S10000x30 .f32 0x00000000#32) (ix2 r q) : EReal)
      = ∑ j : Fin 10, (x0 (ix3 (1 : Fin 5) r j) : EReal) * (x1 (ix3 (1 : Fin 5) j q) : EReal) := by
  refine (Cert.Lib.PlainDot.matmul_zero_apply reads0 none _ _ r q).trans (Finset.sum_congr rfl fun j _ => ?_)
  rw [shapeCast_1ab_ab_apply, shapeCast_1ab_ab_apply, ldA0_1, ldW0_1]

theorem slab0_2 (x0 : Vec Ideal S5x10000x10 .bf16) (x1 : Vec Ideal S5x10x30 .bf16) (r : Fin 10000) (q : Fin 30) :
    (matmul (F := Ideal) (φ₁ := .bf16) (φ₂ := .bf16) dot_S10000x10_S10x30_S10000x30_1_0_0_1_n_n none (shapeCast S10000x10 (View.ld x0 rA0_2) shapeCasts_S1x10000x10_S10000x10) (shapeCast S10x30 (View.ld x1 rW0_2) shapeCasts_S1x10x30_S10x30)
        (constant S10000x30 .f32 0x00000000#32) (ix2 r q) : EReal)
      = ∑ j : Fin 10, (x0 (ix3 (2 : Fin 5) r j) : EReal) * (x1 (ix3 (2 : Fin 5) j q) : EReal) := by
  refine (Cert.Lib.PlainDot.matmul_zero_apply reads0 none _ _ r q).trans (Finset.sum_congr rfl fun j _ => ?_)
  rw [shapeCast_1ab_ab_apply, shapeCast_1ab_ab_apply, ldA0_2, ldW0_2]

theorem slab0_3 (x0 : Vec Ideal S5x10000x10 .bf16) (x1 : Vec Ideal S5x10x30 .bf16) (r : Fin 10000) (q : Fin 30) :
    (matmul (F := Ideal) (φ₁ := .bf16) (φ₂ := .bf16) dot_S10000x10_S10x30_S10000x30_1_0_0_1_n_n none (shapeCast S10000x10 (View.ld x0 rA0_3) shapeCasts_S1x10000x10_S10000x10) (shapeCast S10x30 (View.ld x1 rW0_3) shapeCasts_S1x10x30_S10x30)
        (constant S10000x30 .f32 0x00000000#32) (ix2 r q) : EReal)
      = ∑ j : Fin 10, (x0 (ix3 (3 : Fin 5) r j) : EReal) * (x1 (ix3 (3 : Fin 5) j q) : EReal) := by
  refine (Cert.Lib.PlainDot.matmul_zero_apply reads0 none _ _ r q).trans (Finset.sum_congr rfl fun j _ => ?_)
  rw [shapeCast_1ab_ab_apply, shapeCast_1ab_ab_apply, ldA0_3, ldW0_3]

theorem slab0_4 (x0 : Vec Ideal S5x10000x10 .bf16) (x1 : Vec Ideal S5x10x30 .bf16) (r : Fin 10000) (q : Fin 30) :
    (matmul (F := Ideal) (φ₁ := .bf16) (φ₂ := .bf16) dot_S10000x10_S10x30_S10000x30_1_0_0_1_n_n none (shapeCast S10000x10 (View.ld x0 rA0_4) shapeCasts_S1x10000x10_S10000x10) (shapeCast S10x30 (View.ld x1 rW0_4) shapeCasts_S1x10x30_S10x30)
        (constant S10000x30 .f32 0x00000000#32) (ix2 r q) : EReal)
      = ∑ j : Fin 10, (x0 (ix3 (4 : Fin 5) r j) : EReal) * (x1 (ix3 (4 : Fin 5) j q) : EReal) := by
  refine (Cert.Lib.PlainDot.matmul_zero_apply reads0 none _ _ r q).trans (Finset.sum_congr rfl fun j _ => ?_)
  rw [shapeCast_1ab_ab_apply, shapeCast_1ab_ab_apply, ldA0_4, ldW0_4]

/-- The bias, loaded whole, laid out as a row and spread over the rows, at `(r, q)`. -/
theorem bias0 (x2 : Vec Ideal S30 .f32) (r : Fin 10000) (q : Fin 30) :
    (broadcastTo S10000x30 (shapeCast S1x30 (View.ld x2 rB0) shapeCasts_S30_S1x30) broadcasts_S1x30_S10000x30 (ix2 r q) : EReal) = (x2 (ix1 q) : EReal) := by
  rw [broadcastTo_1b_ab_apply, shapeCast_a_1a_apply]
  show x2 (rB0.idx (ix1 q)) = x2 (ix1 q)
  refine congrArg x2 (funext fun a => Fin.ext ?_)
  match a with
  | ⟨0, _⟩ => show 0 + 1 * q.val = q.val; omega

theorem hz0 : (![0, 0] : Fin 2 → Nat) = fun _ => 0 := funext fun a => by fin_cases a <;> rfl

/-- THE BLOCK: what the body leaves in the output block, at `(r, q)`. -/
theorem out0_apply (x0 : Vec Ideal S5x10000x10 .bf16) (x1 : Vec Ideal S5x10x30 .bf16) (x2 : Vec Ideal S30 .f32) (r : Fin 10000) (q : Fin 30) :
    (out0_3 (F := Ideal) x0 x1 x2 (ix2 r q) : EReal) = max (((((((0 : EReal) + ∑ j : Fin 10, (x0 (ix3 (0 : Fin 5) r j) : EReal) * (x1 (ix3 (0 : Fin 5) j q) : EReal)) + ∑ j : Fin 10, (x0 (ix3 (1 : Fin 5) r j) : EReal) * (x1 (ix3 (1 : Fin 5) j q) : EReal)) + ∑ j : Fin 10, (x0 (ix3 (2 : Fin 5) r j) : EReal) * (x1 (ix3 (2 : Fin 5) j q) : EReal)) + ∑ j : Fin 10, (x0 (ix3 (3 : Fin 5) r j) : EReal) * (x1 (ix3 (3 : Fin 5) j q) : EReal)) + ∑ j : Fin 10, (x0 (ix3 (4 : Fin 5) r j) : EReal) * (x1 (ix3 (4 : Fin 5) j q) : EReal)) + (x2 (ix1 q) : EReal)) 0 := by
  unfold out0_3
  rw [View.canon_unit_zero hz0]
  unfold k0_pay1 k0_pay2 k0_pay3
  simp only [ValueIdx.maximumf_apply, ValueIdx.addf_apply, ValueIdx.broadcast_apply, slab0_0, slab0_1, slab0_2, slab0_3, slab0_4, bias0]
  simp only [Scalar.ofBits, Ideal.ofBits_def, Ideal.ofBits_zero_f32]

end Cert.KernelIdeal.Blk

end
-- ==== Proof.KI.Final0.lean ====
/-
  Region 0: from what each grid point writes back to the whole output array, over the extended reals.

  Point `t` of the 10 works on rows `t·10000 … t·10000 + 9999`: its operand block is those rows of every slab, its weight
  and bias blocks are the whole arrays, and it writes those rows of the output. Row `p` of the output therefore ends at
      max( 0 + Σ_j A(0, p, j)·W(0, j, q) + … + Σ_j A(4, p, j)·W(4, j, q) + b(q) , 0 )
  of the arrays `A`, `W`, `b` the region is entered with — one function of the array index, which the blocks tile.
-/
import proofs.«140782_j81638738363109_1_alg».proof.Proof.KI.Block0

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The layer at row `p`, column `q`, from the stacked operand, the stacked weights and the bias. -/
def G0 (A : S5x100000x10.Idx → EReal) (Wt : S5x10x30.Idx → EReal) (b : S30.Idx → EReal) (p : Fin 100000) (q : Fin 30) : EReal :=
  max (((((((0 : EReal) + ∑ j : Fin 10, (A (ix3 (0 : Fin 5) p j) : EReal) * (Wt (ix3 (0 : Fin 5) j q) : EReal)) + ∑ j : Fin 10, (A (ix3 (1 : Fin 5) p j) : EReal) * (Wt (ix3 (1 : Fin 5) j q) : EReal)) + ∑ j : Fin 10, (A (ix3 (2 : Fin 5) p j) : EReal) * (Wt (ix3 (2 : Fin 5) j q) : EReal)) + ∑ j : Fin 10, (A (ix3 (3 : Fin 5) p j) : EReal) * (Wt (ix3 (3 : Fin 5) j q) : EReal)) + ∑ j : Fin 10, (A (ix3 (4 : Fin 5) p j) : EReal) * (Wt (ix3 (4 : Fin 5) j q) : EReal)) + (b (ix1 q) : EReal)) 0

/-- The same as an array. -/
def arr0 (A : S5x100000x10.Idx → EReal) (Wt : S5x10x30.Idx → EReal) (b : S30.Idx → EReal) : S100000x30.Idx → EReal :=
  fun i => G0 A Wt b (i 0) (i 1)

variable (V : (c : Dev nD) → (b : Ref sig .tc) → Buf (Elt Ideal) ((c : Thread nD τ).loc b))

/-- The printed index maps over the grid: the operand's and the output's blocks move along the rows with the point, every
    other block index is zero. -/
theorem idx_facts0 : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer of the entry arrays. -/
theorem flushed0_eq (c : Dev nD) (t : Fin cfg0.N) :
    (dat0 V c).flushed 3 t = ((cfg0.win 3).blk t).view.read (Elt Ideal) (arr0 (V c main_v99) (V c main_v100) (V c main_arg4)) := by
  show (cfg0.win 3).cut (grid0.coords t) ((dat0 V c).after 3 t) = _
  rw [after0_3]
  obtain ⟨e00, e01, e02, e10, e11, e12, e20, e30, e31⟩ := idx_facts0 t
  have ht : t.val < 10 := by have h := t.isLt; have hN : cfg0.N = 10 := N_0; omega
  funext y
  obtain ⟨r, q, rfl⟩ : ∃ (r : Fin 10000) (q : Fin 30), y = ix2 r q := ⟨y 0, y 1, eq_ix2 y⟩
  refine (out0_apply (iblk0 V c 0 t) (iblk0 V c 1 t) (iblk0 V c 2 t) r q).trans ?_
  have hp : t.val * 10000 + r.val < 100000 := by have := r.isLt; omega
  -- the output index this block entry lands on
  have hO : ((cfg0.win 3).blk t).view.emb (ix2 r q) = (ix2 (⟨t.val * 10000 + r.val, hp⟩ : Fin 100000) q : S100000x30.Idx) := by
    funext a; apply Fin.ext
    match a with
    | ⟨0, _⟩ => show win0_3.index t (0 : Fin 2) * 10000 + 1 * r.val = t.val * 10000 + r.val; omega
    | ⟨1, _⟩ => show win0_3.index t (1 : Fin 2) * 30 + 1 * q.val = q.val; omega
  have hA : ∀ (k : Fin 5) (j : Fin 10), iblk0 V c 0 t (ix3 k r j) = V c main_v99 (ix3 k (⟨t.val * 10000 + r.val, hp⟩ : Fin 100000) j) := by
    intro k j
    show V c main_v99 (((cfg0.win 0).blk t).view.emb (ix3 k r j)) = _
    refine congrArg (V c main_v99) (funext fun a => Fin.ext ?_)
    match a with
    | ⟨0, _⟩ => show win0_0.index t (0 : Fin 3) * 5 + 1 * k.val = k.val; omega
    | ⟨1, _⟩ => show win0_0.index t (1 : Fin 3) * 10000 + 1 * r.val = t.val * 10000 + r.val; omega
    | ⟨2, _⟩ => show win0_0.index t (2 : Fin 3) * 10 + 1 * j.val = j.val; omega
  have hW : ∀ (k : Fin 5) (j : Fin 10), iblk0 V c 1 t (ix3 k j q) = V c main_v100 (ix3 k j q) := by
    intro k j
    show V c main_v100 (((cfg0.win 1).blk t).view.emb (ix3 k j q)) = _
    refine congrArg (V c main_v100) (funext fun a => Fin.ext ?_)
    match a with
    | ⟨0, _⟩ => show win0_1.index t (0 : Fin 3) * 5 + 1 * k.val = k.val; omega
    | ⟨1, _⟩ => show win0_1.index t (1 : Fin 3) * 10 + 1 * j.val = j.val; omega
    | ⟨2, _⟩ => show win0_1.index t (2 : Fin 3) * 30 + 1 * q.val = q.val; omega
  have hB : iblk0 V c 2 t (ix1 q) = V c main_arg4 (ix1 q) := by
    show V c main_arg4 (((cfg0.win 2).blk t).view.emb (ix1 q)) = _
    refine congrArg (V c main_arg4) (funext fun a => Fin.ext ?_)
    match a with
    | ⟨0, _⟩ => show win0_2.index t (0 : Fin 1) * 30 + 1 * q.val = q.val; omega
  show _ = arr0 (V c main_v99) (V c main_v100) (V c main_arg4) (((cfg0.win 3).blk t).view.emb (ix2 r q))
  rw [hO]
  show _ = G0 (V c main_v99) (V c main_v100) (V c main_arg4) (⟨t.val * 10000 + r.val, hp⟩ : Fin 100000) q
  unfold G0
  simp only [hA, hW, hB]

/-- An index of the output array is in point `t`'s block iff its row is one of the point's rows. -/
theorem mem_blk0 (t : Fin cfg0.N) (i : S100000x30.Idx) :
    i ∈ ((cfg0.win 3).blk t).view.set ↔ ∀ a : Fin 2, win0_3.index t a * S10000x30.size a ≤ (i a).val ∧ (i a).val < win0_3.index t a * S10000x30.size a + S10000x30.size a := by
  show i ∈ ((View.whole main_v101).slice (win0_3.rect t)).set ↔ _
  rw [View.set_slice_whole, Rect.mem_set_unit]
  exact Iff.rfl

/-- THE ARRAY after the region: the layer of the entry arrays, at every index (the 10 row blocks tile it). -/
theorem final0 (c : Dev nD) :
    (dat0 V c).arrAt 3 cfg0.N = arr0 (V c main_v99) (V c main_v100) (V c main_arg4) :=
  (dat0 V c).arrAt_eq_of_cover 3 (arr0 (V c main_v99) (V c main_v100) (V c main_arg4)) (fun t _ => flushed0_eq V c t) fun i => by
    have hi0 : (i 0).val < 100000 := (i 0).isLt
    have hi1 : (i 1).val < 30 := (i 1).isLt
    have hN : cfg0.N = 10 := N_0
    refine ⟨⟨(i 0).val / 10000, by rw [hN]; omega⟩, flush0_3 _, ?_⟩
    rw [mem_blk0]
    obtain ⟨-, -, -, -, -, -, -, e30, e31⟩ := idx_facts0 ⟨(i 0).val / 10000, by rw [hN]; omega⟩
    intro a
    match a with
    | ⟨0, _⟩ =>
      show win0_3.index _ (0 : Fin 2) * 10000 ≤ (i 0).val ∧ (i 0).val < win0_3.index _ (0 : Fin 2) * 10000 + 10000
      rw [e30]; show (i 0).val / 10000 * 10000 ≤ (i 0).val ∧ (i 0).val < (i 0).val / 10000 * 10000 + 10000; omega
    | ⟨1, _⟩ =>
      show win0_3.index _ (1 : Fin 2) * 30 ≤ (i 1).val ∧ (i 1).val < win0_3.index _ (1 : Fin 2) * 30 + 30
      rw [e31]; omega

end Cert.KernelIdeal.Blk

end
-- ==== Proof.KI.Block1.lean ====
/-
  Region 1's output block at an index, over the extended reals.

  With `x0` the operand block (5 slabs of 10000 rows by 30), `x1` the weight block (5 slabs of 30 by 30) and `x2` the
  bias, the body's one store leaves at `(r, q)`
      max( 0 + Σ_j x0(0, r, j)·x1(0, j, q) + … + Σ_j x0(4, r, j)·x1(4, j, q) + x2(q) , 0 )
  — each slab product a matrix product into the zero accumulator, read as a plain sum; the bias a row broadcast over the
  rows; a change of float format is the identity on extended reals, so the slabs' narrow format plays no part.
-/
import proofs.«140782_j81638738363109_1_alg».proof.Proof.KI.Region1
import proofs.«140782_j81638738363109_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx

/-- How the slab product's dimension record reads its operands: left axis 1 against right axis 0. -/
theorem reads1 : Cert.Lib.PlainDot.Reads (R := 10000) (K := 30) (C := 30) dot_S10000x30_S30x30_S10000x30_1_0_0_1_n_n where
  rank := rfl
  size := rfl
  lhs0 i q := by
    unfold DotDims.lhsIdx
    rw [dif_neg (show ¬(0 : Fin S10000x30.rank) ∈ dot_S10000x30_S30x30_S10000x30_1_0_0_1_n_n.lhsBatch by decide), dif_pos (show (0 : Fin S10000x30.rank) ∈ dot_S10000x30_S30x30_S10000x30_1_0_0_1_n_n.lhsNonContracting by decide)]
    rfl
  lhs1 i q := dot_S10000x30_S30x30_S10000x30_1_0_0_1_n_n.lhsIdx_val_of_single rfl i q
  rhs0 i q := dot_S10000x30_S30x30_S10000x30_1_0_0_1_n_n.rhsIdx_val_of_single rfl i q
  rhs1 i q := by
    unfold DotDims.rhsIdx
    rw [dif_neg (show ¬(1 : Fin S30x30.rank) ∈ dot_S10000x30_S30x30_S10000x30_1_0_0_1_n_n.rhsBatch by decide), dif_pos (show (1 : Fin S30x30.rank) ∈ dot_S10000x30_S30x30_S10000x30_1_0_0_1_n_n.rhsNonContracting by decide)]
    rfl

/-! ## A slab of a block, read at an index -/

theorem ldA1_0 (x0 : Vec Ideal S5x10000x30 .bf16) (u : Fin 1) (r : Fin 10000) (j : Fin 30) :
    View.ld x0 rA1_0 (ix3 u r j) = x0 (ix3 (0 : Fin 5) r j) := by
  show x0 (rA1_0.idx (ix3 u r j)) = x0 (ix3 (0 : Fin 5) r j)
  refine congrArg x0 (funext fun a => Fin.ext ?_)
  have hu : u.val = 0 := by omega
  match a with
  | ⟨0, _⟩ => show 0 + 1 * u.val = 0; omega
  | ⟨1, _⟩ => show 0 + 1 * r.val = r.val; omega
  | ⟨2, _⟩ => show 0 + 1 * j.val = j.val; omega
theorem ldW1_0 (x1 : Vec Ideal S5x30x30 .bf16) (u : Fin 1) (j : Fin 30) (q : Fin 30) :
    View.ld x1 rW1_0 (ix3 u j q) = x1 (ix3 (0 : Fin 5) j q) := by
  show x1 (rW1_0.idx (ix3 u j q)) = x1 (ix3 (0 : Fin 5) j q)
  refine congrArg x1 (funext fun a => Fin.ext ?_)
  have hu : u.val = 0 := by omega
  match a with
  | ⟨0, _⟩ => show 0 + 1 * u.val = 0; omega
  | ⟨1, _⟩ => show 0 + 1 * j.val = j.val; omega
  | ⟨2, _⟩ => show 0 + 1 * q.val = q.val; omega

theorem ldA1_1 (x0 : Vec Ideal S5x10000x30 .bf16) (u : Fin 1) (r : Fin 10000) (j : Fin 30) :
    View.ld x0 rA1_1 (ix3 u r j) = x0 (ix3 (1 : Fin 5) r j) := by
  show x0 (rA1_1.idx (ix3 u r j)) = x0 (ix3 (1 : Fin 5) r j)
  refine congrArg x0 (funext fun a => Fin.ext ?_)
  have hu : u.val = 0 := by omega
  match a with
  | ⟨0, _⟩ => show 1 + 1 * u.val = 1; omega
  | ⟨1, _⟩ => show 0 + 1 * r.val = r.val; omega
  | ⟨2, _⟩ => show 0 + 1 * j.val = j.val; omega
theorem ldW1_1 (x1 : Vec Ideal S5x30x30 .bf16) (u : Fin 1) (j : Fin 30) (q : Fin 30) :
    View.ld x1 rW1_1 (ix3 u j q) = x1 (ix3 (1 : Fin 5) j q) := by
  show x1 (rW1_1.idx (ix3 u j q)) = x1 (ix3 (1 : Fin 5) j q)
  refine congrArg x1 (funext fun a => Fin.ext ?_)
  have hu : u.val = 0 := by omega
  match a with
  | ⟨0, _⟩ => show 1 + 1 * u.val = 1; omega
  | ⟨1, _⟩ => show 0 + 1 * j.val = j.val; omega
  | ⟨2, _⟩ => show 0 + 1 * q.val = q.val; omega

theorem ldA1_2 (x0 : Vec Ideal S5x10000x30 .bf16) (u : Fin 1) (r : Fin 10000) (j : Fin 30) :
    View.ld x0 rA1_2 (ix3 u r j) = x0 (ix3 (2 : Fin 5) r j) := by
  show x0 (rA1_2.idx (ix3 u r j)) = x0 (ix3 (2 : Fin 5) r j)
  refine congrArg x0 (funext fun a => Fin.ext ?_)
  have hu : u.val = 0 := by omega
  match a with
  | ⟨0, _⟩ => show 2 + 1 * u.val = 2; omega
  | ⟨1, _⟩ => show 0 + 1 * r.val = r.val; omega
  | ⟨2, _⟩ => show 0 + 1 * j.val = j.val; omega
theorem ldW1_2 (x1 : Vec Ideal S5x30x30 .bf16) (u : Fin 1) (j : Fin 30) (q : Fin 30) :
    View.ld x1 rW1_2 (ix3 u j q) = x1 (ix3 (2 : Fin 5) j q) := by
  show x1 (rW1_2.idx (ix3 u j q)) = x1 (ix3 (2 : Fin 5) j q)
  refine congrArg x1 (funext fun a => Fin.ext ?_)
  have hu : u.val = 0 := by omega
  match a with
  | ⟨0, _⟩ => show 2 + 1 * u.val = 2; omega
  | ⟨1, _⟩ => show 0 + 1 * j.val = j.val; omega
  | ⟨2, _⟩ => show 0 + 1 * q.val = q.val; omega

theorem ldA1_3 (x0 : Vec Ideal S5x10000x30 .bf16) (u : Fin 1) (r : Fin 10000) (j : Fin 30) :
    View.ld x0 rA1_3 (ix3 u r j) = x0 (ix3 (3 : Fin 5) r j) := by
  show x0 (rA1_3.idx (ix3 u r j)) = x0 (ix3 (3 : Fin 5) r j)
  refine congrArg x0 (funext fun a => Fin.ext ?_)
  have hu : u.val = 0 := by omega
  match a with
  | ⟨0, _⟩ => show 3 + 1 * u.val = 3; omega
  | ⟨1, _⟩ => show 0 + 1 * r.val = r.val; omega
  | ⟨2, _⟩ => show 0 + 1 * j.val = j.val; omega
theorem ldW1_3 (x1 : Vec Ideal S5x30x30 .bf16) (u : Fin 1) (j : Fin 30) (q : Fin 30) :
    View.ld x1 rW1_3 (ix3 u j q) = x1 (ix3 (3 : Fin 5) j q) := by
  show x1 (rW1_3.idx (ix3 u j q)) = x1 (ix3 (3 : Fin 5) j q)
  refine congrArg x1 (funext fun a => Fin.ext ?_)
  have hu : u.val = 0 := by omega
  match a with
  | ⟨0, _⟩ => show 3 + 1 * u.val = 3; omega
  | ⟨1, _⟩ => show 0 + 1 * j.val = j.val; omega
  | ⟨2, _⟩ => show 0 + 1 * q.val = q.val; omega

theorem ldA1_4 (x0 : Vec Ideal S5x10000x30 .bf16) (u : Fin 1) (r : Fin 10000) (j : Fin 30) :
    View.ld x0 rA1_4 (ix3 u r j) = x0 (ix3 (4 : Fin 5) r j) := by
  show x0 (rA1_4.idx (ix3 u r j)) = x0 (ix3 (4 : Fin 5) r j)
  refine congrArg x0 (funext fun a => Fin.ext ?_)
  have hu : u.val = 0 := by omega
  match a with
  | ⟨0, _⟩ => show 4 + 1 * u.val = 4; omega
  | ⟨1, _⟩ => show 0 + 1 * r.val = r.val; omega
  | ⟨2, _⟩ => show 0 + 1 * j.val = j.val; omega
theorem ldW1_4 (x1 : Vec Ideal S5x30x30 .bf16) (u : Fin 1) (j : Fin 30) (q : Fin 30) :
    View.ld x1 rW1_4 (ix3 u j q) = x1 (ix3 (4 : Fin 5) j q) := by
  show x1 (rW1_4.idx (ix3 u j q)) = x1 (ix3 (4 : Fin 5) j q)
  refine congrArg x1 (funext fun a => Fin.ext ?_)
  have hu : u.val = 0 := by omega
  match a with
  | ⟨0, _⟩ => show 4 + 1 * u.val = 4; omega
  | ⟨1, _⟩ => show 0 + 1 * j.val = j.val; omega
  | ⟨2, _⟩ => show 0 + 1 * q.val = q.val; omega

/-! ## A slab product at an index -/

theorem slab1_0 (x0 : Vec Ideal S5x10000x30 .bf16) (x1 : Vec Ideal S5x30x30 .bf16) (r : Fin 10000) (q : Fin 30) :
    (matmul (F := Ideal) (φ₁ := .bf16) (φ₂ := .bf16) dot_S10000x30_S30x30_S10000x30_1_0_0_1_n_n none (shapeCast S10000x30 (View.ld x0 rA1_0) shapeCasts_S1x10000x30_S10000x30) (shapeCast S30x30 (View.ld x1 rW1_0) shapeCasts_S1x30x30_S30x30)
        (constant S10000x30 .f32 0x00000000#32) (ix2 r q) : EReal)
      = ∑ j : Fin 30, (x0 (ix3 (0 : Fin 5) r j) : EReal) * (x1 (ix3 (0 : Fin 5) j q) : EReal) := by
  refine (Cert.Lib.PlainDot.matmul_zero_apply reads1 none _ _ r q).trans (Finset.sum_congr rfl fun j _ => ?_)
  rw [shapeCast_1ab_ab_apply, shapeCast_1ab_ab_apply, ldA1_0, ldW1_0]

theorem slab1_1 (x0 : Vec Ideal S5x10000x30 .bf16) (x1 : Vec Ideal S5x30x30 .bf16) (r : Fin 10000) (q : Fin 30) :
    (matmul (F := Ideal) (φ₁ := .bf16) (φ₂ := .bf16) dot_S10000x30_S30x30_S10000x30_1_0_0_1_n_n none (shapeCast S10000x30 (View.ld x0 rA1_1) shapeCasts_S1x10000x30_S10000x30) (shapeCast S30x30 (View.ld x1 rW1_1) shapeCasts_S1x30x30_S30x30)
        (constant S10000x30 .f32 0x00000000#32) (ix2 r q) : EReal)
      = ∑ j : Fin 30, (x0 (ix3 (1 : Fin 5) r j) : EReal) * (x1 (ix3 (1 : Fin 5) j q) : EReal) := by
  refine (Cert.Lib.PlainDot.matmul_zero_apply reads1 none _ _ r q).trans (Finset.sum_congr rfl fun j _ => ?_)
  rw [shapeCast_1ab_ab_apply, shapeCast_1ab_ab_apply, ldA1_1, ldW1_1]

theorem slab1_2 (x0 : Vec Ideal S5x10000x30 .bf16) (x1 : Vec Ideal S5x30x30 .bf16) (r : Fin 10000) (q : Fin 30) :
    (matmul (F := Ideal) (φ₁ := .bf16) (φ₂ := .bf16) dot_S10000x30_S30x30_S10000x30_1_0_0_1_n_n none (shapeCast S10000x30 (View.ld x0 rA1_2) shapeCasts_S1x10000x30_S10000x30) (shapeCast S30x30 (View.ld x1 rW1_2) shapeCasts_S1x30x30_S30x30)
        (constant S10000x30 .f32 0x00000000#32) (ix2 r q) : EReal)
      = ∑ j : Fin 30, (x0 (ix3 (2 : Fin 5) r j) : EReal) * (x1 (ix3 (2 : Fin 5) j q) : EReal) := by
  refine (Cert.Lib.PlainDot.matmul_zero_apply reads1 none _ _ r q).trans (Finset.sum_congr rfl fun j _ => ?_)
  rw [shapeCast_1ab_ab_apply, shapeCast_1ab_ab_apply, ldA1_2, ldW1_2]

theorem slab1_3 (x0 : Vec Ideal S5x10000x30 .bf16) (x1 : Vec Ideal S5x30x30 .bf16) (r : Fin 10000) (q : Fin 30) :
    (matmul (F := Ideal) (φ₁ := .bf16) (φ₂ := .bf16) dot_S10000x30_S30x30_S10000x30_1_0_0_1_n_n none (shapeCast S10000x30 (View.ld x0 rA1_3) shapeCasts_S1x10000x30_S10000x30) (shapeCast S30x30 (View.ld x1 rW1_3) shapeCasts_S1x30x30_S30x30)
        (constant S10000x30 .f32 0x00000000#32) (ix2 r q) : EReal)
      = ∑ j : Fin 30, (x0 (ix3 (3 : Fin 5) r j) : EReal) * (x1 (ix3 (3 : Fin 5) j q) : EReal) := by
  refine (Cert.Lib.PlainDot.matmul_zero_apply reads1 none _ _ r q).trans (Finset.sum_congr rfl fun j _ => ?_)
  rw [shapeCast_1ab_ab_apply, shapeCast_1ab_ab_apply, ldA1_3, ldW1_3]

theorem slab1_4 (x0 : Vec Ideal S5x10000x30 .bf16) (x1 : Vec Ideal S5x30x30 .bf16) (r : Fin 10000) (q : Fin 30) :
    (matmul (F := Ideal) (φ₁ := .bf16) (φ₂ := .bf16) dot_S10000x30_S30x30_S10000x30_1_0_0_1_n_n none (shapeCast S10000x30 (View.ld x0 rA1_4) shapeCasts_S1x10000x30_S10000x30) (shapeCast S30x30 (View.ld x1 rW1_4) shapeCasts_S1x30x30_S30x30)
        (constant S10000x30 .f32 0x00000000#32) (ix2 r q) : EReal)
      = ∑ j : Fin 30, (x0 (ix3 (4 : Fin 5) r j) : EReal) * (x1 (ix3 (4 : Fin 5) j q) : EReal) := by
  refine (Cert.Lib.PlainDot.matmul_zero_apply reads1 none _ _ r q).trans (Finset.sum_congr rfl fun j _ => ?_)
  rw [shapeCast_1ab_ab_apply, shapeCast_1ab_ab_apply, ldA1_4, ldW1_4]

/-- The bias, loaded whole, laid out as a row and spread over the rows, at `(r, q)`. -/
theorem bias1 (x2 : Vec Ideal S30 .f32) (r : Fin 10000) (q : Fin 30) :
    (broadcastTo S10000x30 (shapeCast S1x30 (View.ld x2 rB1) shapeCasts_S30_S1x30) broadcasts_S1x30_S10000x30 (ix2 r q) : EReal) = (x2 (ix1 q) : EReal) := by
  rw [broadcastTo_1b_ab_apply, shapeCast_a_1a_apply]
  show x2 (rB1.idx (ix1 q)) = x2 (ix1 q)
  refine congrArg x2 (funext fun a => Fin.ext ?_)
  match a with
  | ⟨0, _⟩ => show 0 + 1 * q.val = q.val; omega

theorem hz1 : (![0, 0] : Fin 2 → Nat) = fun _ => 0 := funext fun a => by fin_cases a <;> rfl

/-- THE BLOCK: what the body leaves in the output block, at `(r, q)`. -/
theorem out1_apply (x0 : Vec Ideal S5x10000x30 .bf16) (x1 : Vec Ideal S5x30x30 .bf16) (x2 : Vec Ideal S30 .f32) (r : Fin 10000) (q : Fin 30) :
    (out1_3 (F := Ideal) x0 x1 x2 (ix2 r q) : EReal) = max (((((((0 : EReal) + ∑ j : Fin 30, (x0 (ix3 (0 : Fin 5) r j) : EReal) * (x1 (ix3 (0 : Fin 5) j q) : EReal)) + ∑ j : Fin 30, (x0 (ix3 (1 : Fin 5) r j) : EReal) * (x1 (ix3 (1 : Fin 5) j q) : EReal)) + ∑ j : Fin 30, (x0 (ix3 (2 : Fin 5) r j) : EReal) * (x1 (ix3 (2 : Fin 5) j q) : EReal)) + ∑ j : Fin 30, (x0 (ix3 (3 : Fin 5) r j) : EReal) * (x1 (ix3 (3 : Fin 5) j q) : EReal)) + ∑ j : Fin 30, (x0 (ix3 (4 : Fin 5) r j) : EReal) * (x1 (ix3 (4 : Fin 5) j q) : EReal)) + (x2 (ix1 q) : EReal)) 0 := by
  unfold out1_3
  rw [View.canon_unit_zero hz1]
  unfold k1_pay1 k1_pay2 k1_pay3
  simp only [ValueIdx.maximumf_apply, ValueIdx.addf_apply, ValueIdx.broadcast_apply, slab1_0, slab1_1, slab1_2, slab1_3, slab1_4, bias1]
  simp only [Scalar.ofBits, Ideal.ofBits_def, Ideal.ofBits_zero_f32]

end Cert.KernelIdeal.Blk

end
-- ==== Proof.KI.Final1.lean ====
/-
  Region 1: from what each grid point writes back to the whole output array, over the extended reals.

  Point `t` of the 10 works on rows `t·10000 … t·10000 + 9999`: its operand block is those rows of every slab, its weight
  and bias blocks are the whole arrays, and it writes those rows of the output. Row `p` of the output therefore ends at
      max( 0 + Σ_j A(0, p, j)·W(0, j, q) + … + Σ_j A(4, p, j)·W(4, j, q) + b(q) , 0 )
  of the arrays `A`, `W`, `b` the region is entered with — one function of the array index, which the blocks tile.
-/
import proofs.«140782_j81638738363109_1_alg».proof.Proof.KI.Block1

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The layer at row `p`, column `q`, from the stacked operand, the stacked weights and the bias. -/
def G1 (A : S5x100000x30.Idx → EReal) (Wt : S5x30x30.Idx → EReal) (b : S30.Idx → EReal) (p : Fin 100000) (q : Fin 30) : EReal :=
  max (((((((0 : EReal) + ∑ j : Fin 30, (A (ix3 (0 : Fin 5) p j) : EReal) * (Wt (ix3 (0 : Fin 5) j q) : EReal)) + ∑ j : Fin 30, (A (ix3 (1 : Fin 5) p j) : EReal) * (Wt (ix3 (1 : Fin 5) j q) : EReal)) + ∑ j : Fin 30, (A (ix3 (2 : Fin 5) p j) : EReal) * (Wt (ix3 (2 : Fin 5) j q) : EReal)) + ∑ j : Fin 30, (A (ix3 (3 : Fin 5) p j) : EReal) * (Wt (ix3 (3 : Fin 5) j q) : EReal)) + ∑ j : Fin 30, (A (ix3 (4 : Fin 5) p j) : EReal) * (Wt (ix3 (4 : Fin 5) j q) : EReal)) + (b (ix1 q) : EReal)) 0

/-- The same as an array. -/
def arr1 (A : S5x100000x30.Idx → EReal) (Wt : S5x30x30.Idx → EReal) (b : S30.Idx → EReal) : S100000x30.Idx → EReal :=
  fun i => G1 A Wt b (i 0) (i 1)

variable (V : (c : Dev nD) → (b : Ref sig .tc) → Buf (Elt Ideal) ((c : Thread nD τ).loc b))

/-- The printed index maps over the grid: the operand's and the output's blocks move along the rows with the point, every
    other block index is zero. -/
theorem idx_facts1 : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the layer of the entry arrays. -/
theorem flushed1_eq (c : Dev nD) (t : Fin cfg1.N) :
    (dat1 V c).flushed 3 t = ((cfg1.win 3).blk t).view.read (Elt Ideal) (arr1 (V c main_v169) (V c main_v170) (V c main_arg6)) := by
  show (cfg1.win 3).cut (grid1.coords t) ((dat1 V c).after 3 t) = _
  rw [after1_3]
  obtain ⟨e00, e01, e02, e10, e11, e12, e20, e30, e31⟩ := idx_facts1 t
  have ht : t.val < 10 := by have h := t.isLt; have hN : cfg1.N = 10 := N_1; omega
  funext y
  obtain ⟨r, q, rfl⟩ : ∃ (r : Fin 10000) (q : Fin 30), y = ix2 r q := ⟨y 0, y 1, eq_ix2 y⟩
  refine (out1_apply (iblk1 V c 0 t) (iblk1 V c 1 t) (iblk1 V c 2 t) r q).trans ?_
  have hp : t.val * 10000 + r.val < 100000 := by have := r.isLt; omega
  -- the output index this block entry lands on
  have hO : ((cfg1.win 3).blk t).view.emb (ix2 r q) = (ix2 (⟨t.val * 10000 + r.val, hp⟩ : Fin 100000) q : S100000x30.Idx) := by
    funext a; apply Fin.ext
    match a with
    | ⟨0, _⟩ => show win1_3.index t (0 : Fin 2) * 10000 + 1 * r.val = t.val * 10000 + r.val; omega
    | ⟨1, _⟩ => show win1_3.index t (1 : Fin 2) * 30 + 1 * q.val = q.val; omega
  have hA : ∀ (k : Fin 5) (j : Fin 30), iblk1 V c 0 t (ix3 k r j) = V c main_v169 (ix3 k (⟨t.val * 10000 + r.val, hp⟩ : Fin 100000) j) := by
    intro k j
    show V c main_v169 (((cfg1.win 0).blk t).view.emb (ix3 k r j)) = _
    refine congrArg (V c main_v169) (funext fun a => Fin.ext ?_)
    match a with
    | ⟨0, _⟩ => show win1_0.index t (0 : Fin 3) * 5 + 1 * k.val = k.val; omega
    | ⟨1, _⟩ => show win1_0.index t (1 : Fin 3) * 10000 + 1 * r.val = t.val * 10000 + r.val; omega
    | ⟨2, _⟩ => show win1_0.index t (2 : Fin 3) * 30 + 1 * j.val = j.val; omega
  have hW : ∀ (k : Fin 5) (j : Fin 30), iblk1 V c 1 t (ix3 k j q) = V c main_v170 (ix3 k j q) := by
    intro k j
    show V c main_v170 (((cfg1.win 1).blk t).view.emb (ix3 k j q)) = _
    refine congrArg (V c main_v170) (funext fun a => Fin.ext ?_)
    match a with
    | ⟨0, _⟩ => show win1_1.index t (0 : Fin 3) * 5 + 1 * k.val = k.val; omega
    | ⟨1, _⟩ => show win1_1.index t (1 : Fin 3) * 30 + 1 * j.val = j.val; omega
    | ⟨2, _⟩ => show win1_1.index t (2 : Fin 3) * 30 + 1 * q.val = q.val; omega
  have hB : iblk1 V c 2 t (ix1 q) = V c main_arg6 (ix1 q) := by
    show V c main_arg6 (((cfg1.win 2).blk t).view.emb (ix1 q)) = _
    refine congrArg (V c main_arg6) (funext fun a => Fin.ext ?_)
    match a with
    | ⟨0, _⟩ => show win1_2.index t (0 : Fin 1) * 30 + 1 * q.val = q.val; omega
  show _ = arr1 (V c main_v169) (V c main_v170) (V c main_arg6) (((cfg1.win 3).blk t).view.emb (ix2 r q))
  rw [hO]
  show _ = G1 (V c main_v169) (V c main_v170) (V c main_arg6) (⟨t.val * 10000 + r.val, hp⟩ : Fin 100000) q
  unfold G1
  simp only [hA, hW, hB]

/-- An index of the output array is in point `t`'s block iff its row is one of the point's rows. -/
theorem mem_blk1 (t : Fin cfg1.N) (i : S100000x30.Idx) :
    i ∈ ((cfg1.win 3).blk t).view.set ↔ ∀ a : Fin 2, win1_3.index t a * S10000x30.size a ≤ (i a).val ∧ (i a).val < win1_3.index t a * S10000x30.size a + S10000x30.size a := by
  show i ∈ ((View.whole main_v171).slice (win1_3.rect t)).set ↔ _
  rw [View.set_slice_whole, Rect.mem_set_unit]
  exact Iff.rfl

/-- THE ARRAY after the region: the layer of the entry arrays, at every index (the 10 row blocks tile it). -/
theorem final1 (c : Dev nD) :
    (dat1 V c).arrAt 3 cfg1.N = arr1 (V c main_v169) (V c main_v170) (V c main_arg6) :=
  (dat1 V c).arrAt_eq_of_cover 3 (arr1 (V c main_v169) (V c main_v170) (V c main_arg6)) (fun t _ => flushed1_eq V c t) fun i => by
    have hi0 : (i 0).val < 100000 := (i 0).isLt
    have hi1 : (i 1).val < 30 := (i 1).isLt
    have hN : cfg1.N = 10 := N_1
    refine ⟨⟨(i 0).val / 10000, by rw [hN]; omega⟩, flush1_3 _, ?_⟩
    rw [mem_blk1]
    obtain ⟨-, -, -, -, -, -, -, e30, e31⟩ := idx_facts1 ⟨(i 0).val / 10000, by rw [hN]; omega⟩
    intro a
    match a with
    | ⟨0, _⟩ =>
      show win1_3.index _ (0 : Fin 2) * 10000 ≤ (i 0).val ∧ (i 0).val < win1_3.index _ (0 : Fin 2) * 10000 + 10000
      rw [e30]; show (i 0).val / 10000 * 10000 ≤ (i 0).val ∧ (i 0).val < (i 0).val / 10000 * 10000 + 10000; omega
    | ⟨1, _⟩ =>
      show win1_3.index _ (1 : Fin 2) * 30 ≤ (i 1).val ∧ (i 1).val < win1_3.index _ (1 : Fin 2) * 30 + 30
      rw [e31]; omega

end Cert.KernelIdeal.Blk

end
-- ==== Proof.KI.Block2.lean ====
/-
  Region 2's output block at an index, over the extended reals.

  With `x0` the operand block (1 slab of 10000 rows by 30), `x1` the weight block (1 slab of 30 by 4) and `x2` the
  bias, the body's one store leaves at `(r, q)`
      ( 0 + Σ_j x0(0, r, j)·x1(0, j, q) + x2(q) )
  — each slab product a matrix product into the zero accumulator, read as a plain sum; the bias a row broadcast over the
  rows; a change of float format is the identity on extended reals, so the slabs' narrow format plays no part.
-/
import proofs.«140782_j81638738363109_1_alg».proof.Proof.KI.Region2
import proofs.«140782_j81638738363109_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx

/-- How the slab product's dimension record reads its operands: left axis 1 against right axis 0. -/
theorem reads2 : Cert.Lib.PlainDot.Reads (R := 10000) (K := 30) (C := 4) dot_S10000x30_S30x4_S10000x4_1_0_0_1_n_n where
  rank := rfl
  size := rfl
  lhs0 i q := by
    unfold DotDims.lhsIdx
    rw [dif_neg (show ¬(0 : Fin S10000x30.rank) ∈ dot_S10000x30_S30x4_S10000x4_1_0_0_1_n_n.lhsBatch by decide), dif_pos (show (0 : Fin S10000x30.rank) ∈ dot_S10000x30_S30x4_S10000x4_1_0_0_1_n_n.lhsNonContracting by decide)]
    rfl
  lhs1 i q := dot_S10000x30_S30x4_S10000x4_1_0_0_1_n_n.lhsIdx_val_of_single rfl i q
  rhs0 i q := dot_S10000x30_S30x4_S10000x4_1_0_0_1_n_n.rhsIdx_val_of_single rfl i q
  rhs1 i q := by
    unfold DotDims.rhsIdx
    rw [dif_neg (show ¬(1 : Fin S30x4.rank) ∈ dot_S10000x30_S30x4_S10000x4_1_0_0_1_n_n.rhsBatch by decide), dif_pos (show (1 : Fin S30x4.rank) ∈ dot_S10000x30_S30x4_S10000x4_1_0_0_1_n_n.rhsNonContracting by decide)]
    rfl

/-! ## A slab of a block, read at an index -/

theorem ldA2_0 (x0 : Vec Ideal S1x10000x30 .bf16) (u : Fin 1) (r : Fin 10000) (j : Fin 30) :
    View.ld x0 rA2_0 (ix3 u r j) = x0 (ix3 (0 : Fin 1) r j) := by
  show x0 (rA2_0.idx (ix3 u r j)) = x0 (ix3 (0 : Fin 1) r j)
  refine congrArg x0 (funext fun a => Fin.ext ?_)
  have hu : u.val = 0 := by omega
  match a with
  | ⟨0, _⟩ => show 0 + 1 * u.val = 0; omega
  | ⟨1, _⟩ => show 0 + 1 * r.val = r.val; omega
  | ⟨2, _⟩ => show 0 + 1 * j.val = j.val; omega
theorem ldW2_0 (x1 : Vec Ideal S1x30x4 .bf16) (u : Fin 1) (j : Fin 30) (q : Fin 4) :
    View.ld x1 rW2_0 (ix3 u j q) = x1 (ix3 (0 : Fin 1) j q) := by
  show x1 (rW2_0.idx (ix3 u j q)) = x1 (ix3 (0 : Fin 1) j q)
  refine congrArg x1 (funext fun a => Fin.ext ?_)
  have hu : u.val = 0 := by omega
  match a with
  | ⟨0, _⟩ => show 0 + 1 * u.val = 0; omega
  | ⟨1, _⟩ => show 0 + 1 * j.val = j.val; omega
  | ⟨2, _⟩ => show 0 + 1 * q.val = q.val; omega

/-! ## A slab product at an index -/

theorem slab2_0 (x0 : Vec Ideal S1x10000x30 .bf16) (x1 : Vec Ideal S1x30x4 .bf16) (r : Fin 10000) (q : Fin 4) :
    (matmul (F := Ideal) (φ₁ := .bf16) (φ₂ := .bf16) dot_S10000x30_S30x4_S10000x4_1_0_0_1_n_n none (shapeCast S10000x30 (View.ld x0 rA2_0) shapeCasts_S1x10000x30_S10000x30) (shapeCast S30x4 (View.ld x1 rW2_0) shapeCasts_S1x30x4_S30x4)
        (constant S10000x4 .f32 0x00000000#32) (ix2 r q) : EReal)
      = ∑ j : Fin 30, (x0 (ix3 (0 : Fin 1) r j) : EReal) * (x1 (ix3 (0 : Fin 1) j q) : EReal) := by
  refine (Cert.Lib.PlainDot.matmul_zero_apply reads2 none _ _ r q).trans (Finset.sum_congr rfl fun j _ => ?_)
  rw [shapeCast_1ab_ab_apply, shapeCast_1ab_ab_apply, ldA2_0, ldW2_0]

/-- The bias, loaded whole, laid out as a row and spread over the rows, at `(r, q)`. -/
theorem bias2 (x2 : Vec Ideal S4 .f32) (r : Fin 10000) (q : Fin 4) :
    (broadcastTo S10000x4 (shapeCast S1x4 (View.ld x2 rB2) shapeCasts_S4_S1x4) broadcasts_S1x4_S10000x4 (ix2 r q) : EReal) = (x2 (ix1 q) : EReal) := by
  rw [broadcastTo_1b_ab_apply, shapeCast_a_1a_apply]
  show x2 (rB2.idx (ix1 q)) = x2 (ix1 q)
  refine congrArg x2 (funext fun a => Fin.ext ?_)
  match a with
  | ⟨0, _⟩ => show 0 + 1 * q.val = q.val; omega

theorem hz2 : (![0, 0] : Fin 2 → Nat) = fun _ => 0 := funext fun a => by fin_cases a <;> rfl

/-- THE BLOCK: what the body leaves in the output block, at `(r, q)`. -/
theorem out2_apply (x0 : Vec Ideal S1x10000x30 .bf16) (x1 : Vec Ideal S1x30x4 .bf16) (x2 : Vec Ideal S4 .f32) (r : Fin 10000) (q : Fin 4) :
    (out2_3 (F := Ideal) x0 x1 x2 (ix2 r q) : EReal) = ((0 : EReal) + ∑ j : Fin 30, (x0 (ix3 (0 : Fin 1) r j) : EReal) * (x1 (ix3 (0 : Fin 1) j q) : EReal)) + (x2 (ix1 q) : EReal) := by
  unfold out2_3
  rw [View.canon_unit_zero hz2]
  unfold k2_pay1
  simp only [ValueIdx.maximumf_apply, ValueIdx.addf_apply, ValueIdx.broadcast_apply, slab2_0, bias2]
  simp only [Scalar.ofBits, Ideal.ofBits_def, Ideal.ofBits_zero_f32]

end Cert.KernelIdeal.Blk

end
-- ==== Proof.KI.Final2.lean ====
/-
  Region 2: from what each grid point writes back to the whole output array, over the extended reals.

  Point `t` of the 10 works on rows `t·10000 … t·10000 + 9999`: its operand block is those rows of every slab, its weight
  and bias blocks are the whole arrays, and it writes those rows of the output. Row `p` of the output therefore ends at
      ( 0 + Σ_j A(0, p, j)·W(0, j, q) + b(q) )
  of the arrays `A`, `W`, `b` the region is entered with — one function of the array index, which the blocks tile.
-/
import proofs.«140782_j81638738363109_1_alg».proof.Proof.KI.Block2

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The layer at row `p`, column `q`, from the stacked operand, the stacked weights and the bias. -/
def G2 (A : S1x100000x30.Idx → EReal) (Wt : S1x30x4.Idx → EReal) (b : S4.Idx → EReal) (p : Fin 100000) (q : Fin 4) : EReal :=
  ((0 : EReal) + ∑ j : Fin 30, (A (ix3 (0 : Fin 1) p j) : EReal) * (Wt (ix3 (0 : Fin 1) j q) : EReal)) + (b (ix1 q) : EReal)

/-- The same as an array. -/
def arr2 (A : S1x100000x30.Idx → EReal) (Wt : S1x30x4.Idx → EReal) (b : S4.Idx → EReal) : S100000x4.Idx → EReal :=
  fun i => G2 A Wt b (i 0) (i 1)

variable (V : (c : Dev nD) → (b : Ref sig .tc) → Buf (Elt Ideal) ((c : Thread nD τ).loc b))

/-- The printed index maps over the grid: the operand's and the output's blocks move along the rows with the point, every
    other block index is zero. -/
theorem idx_facts2 : ∀ t : Fin cfg2.N, win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the layer of the entry arrays. -/
theorem flushed2_eq (c : Dev nD) (t : Fin cfg2.N) :
    (dat2 V c).flushed 3 t = ((cfg2.win 3).blk t).view.read (Elt Ideal) (arr2 (V c main_v173) (V c main_v175) (V c main_arg8)) := by
  show (cfg2.win 3).cut (grid2.coords t) ((dat2 V c).after 3 t) = _
  rw [after2_3]
  obtain ⟨e00, e01, e02, e10, e11, e12, e20, e30, e31⟩ := idx_facts2 t
  have ht : t.val < 10 := by have h := t.isLt; have hN : cfg2.N = 10 := N_2; omega
  funext y
  obtain ⟨r, q, rfl⟩ : ∃ (r : Fin 10000) (q : Fin 4), y = ix2 r q := ⟨y 0, y 1, eq_ix2 y⟩
  refine (out2_apply (iblk2 V c 0 t) (iblk2 V c 1 t) (iblk2 V c 2 t) r q).trans ?_
  have hp : t.val * 10000 + r.val < 100000 := by have := r.isLt; omega
  -- the output index this block entry lands on
  have hO : ((cfg2.win 3).blk t).view.emb (ix2 r q) = (ix2 (⟨t.val * 10000 + r.val, hp⟩ : Fin 100000) q : S100000x4.Idx) := by
    funext a; apply Fin.ext
    match a with
    | ⟨0, _⟩ => show win2_3.index t (0 : Fin 2) * 10000 + 1 * r.val = t.val * 10000 + r.val; omega
    | ⟨1, _⟩ => show win2_3.index t (1 : Fin 2) * 4 + 1 * q.val = q.val; omega
  have hA : ∀ (k : Fin 1) (j : Fin 30), iblk2 V c 0 t (ix3 k r j) = V c main_v173 (ix3 k (⟨t.val * 10000 + r.val, hp⟩ : Fin 100000) j) := by
    intro k j
    show V c main_v173 (((cfg2.win 0).blk t).view.emb (ix3 k r j)) = _
    refine congrArg (V c main_v173) (funext fun a => Fin.ext ?_)
    match a with
    | ⟨0, _⟩ => show win2_0.index t (0 : Fin 3) * 1 + 1 * k.val = k.val; omega
    | ⟨1, _⟩ => show win2_0.index t (1 : Fin 3) * 10000 + 1 * r.val = t.val * 10000 + r.val; omega
    | ⟨2, _⟩ => show win2_0.index t (2 : Fin 3) * 30 + 1 * j.val = j.val; omega
  have hW : ∀ (k : Fin 1) (j : Fin 30), iblk2 V c 1 t (ix3 k j q) = V c main_v175 (ix3 k j q) := by
    intro k j
    show V c main_v175 (((cfg2.win 1).blk t).view.emb (ix3 k j q)) = _
    refine congrArg (V c main_v175) (funext fun a => Fin.ext ?_)
    match a with
    | ⟨0, _⟩ => show win2_1.index t (0 : Fin 3) * 1 + 1 * k.val = k.val; omega
    | ⟨1, _⟩ => show win2_1.index t (1 : Fin 3) * 30 + 1 * j.val = j.val; omega
    | ⟨2, _⟩ => show win2_1.index t (2 : Fin 3) * 4 + 1 * q.val = q.val; omega
  have hB : iblk2 V c 2 t (ix1 q) = V c main_arg8 (ix1 q) := by
    show V c main_arg8 (((cfg2.win 2).blk t).view.emb (ix1 q)) = _
    refine congrArg (V c main_arg8) (funext fun a => Fin.ext ?_)
    match a with
    | ⟨0, _⟩ => show win2_2.index t (0 : Fin 1) * 4 + 1 * q.val = q.val; omega
  show _ = arr2 (V c main_v173) (V c main_v175) (V c main_arg8) (((cfg2.win 3).blk t).view.emb (ix2 r q))
  rw [hO]
  show _ = G2 (V c main_v173) (V c main_v175) (V c main_arg8) (⟨t.val * 10000 + r.val, hp⟩ : Fin 100000) q
  unfold G2
  simp only [hA, hW, hB]

/-- An index of the output array is in point `t`'s block iff its row is one of the point's rows. -/
theorem mem_blk2 (t : Fin cfg2.N) (i : S100000x4.Idx) :
    i ∈ ((cfg2.win 3).blk t).view.set ↔ ∀ a : Fin 2, win2_3.index t a * S10000x4.size a ≤ (i a).val ∧ (i a).val < win2_3.index t a * S10000x4.size a + S10000x4.size a := by
  show i ∈ ((View.whole main_v176).slice (win2_3.rect t)).set ↔ _
  rw [View.set_slice_whole, Rect.mem_set_unit]
  exact Iff.rfl

/-- THE ARRAY after the region: the layer of the entry arrays, at every index (the 10 row blocks tile it). -/
theorem final2 (c : Dev nD) :
    (dat2 V c).arrAt 3 cfg2.N = arr2 (V c main_v173) (V c main_v175) (V c main_arg8) :=
  (dat2 V c).arrAt_eq_of_cover 3 (arr2 (V c main_v173) (V c main_v175) (V c main_arg8)) (fun t _ => flushed2_eq V c t) fun i => by
    have hi0 : (i 0).val < 100000 := (i 0).isLt
    have hi1 : (i 1).val < 4 := (i 1).isLt
    have hN : cfg2.N = 10 := N_2
    refine ⟨⟨(i 0).val / 10000, by rw [hN]; omega⟩, flush2_3 _, ?_⟩
    rw [mem_blk2]
    obtain ⟨-, -, -, -, -, -, -, e30, e31⟩ := idx_facts2 ⟨(i 0).val / 10000, by rw [hN]; omega⟩
    intro a
    match a with
    | ⟨0, _⟩ =>
      show win2_3.index _ (0 : Fin 2) * 10000 ≤ (i 0).val ∧ (i 0).val < win2_3.index _ (0 : Fin 2) * 10000 + 10000
      rw [e30]; show (i 0).val / 10000 * 10000 ≤ (i 0).val ∧ (i 0).val < (i 0).val / 10000 * 10000 + 10000; omega
    | ⟨1, _⟩ =>
      show win2_3.index _ (1 : Fin 2) * 4 ≤ (i 1).val ∧ (i 1).val < win2_3.index _ (1 : Fin 2) * 4 + 4
      rw [e31]; omega

end Cert.KernelIdeal.Blk

end
-- ==== Proof.RefLayer1.lean ====
/-
  The reference's first layer at an index, over the extended reals.

  With T0 = x and T1 … T4 the Chebyshev terms of the propagate recursion, the reference computes
      relu( T0·W[0] + T1·W[1] + T2·W[2] + T3·W[3] + T4·W[4] + b )
  by five `dot_general`s added left to right; at (p, q) that is the nested sum below, each product a plain sum over the 10 features.
-/
import proofs.«140782_j81638738363109_1_alg».proof.Proof.RefReadP

set_option maxRecDepth 16384

noncomputable section

namespace Cert.RefLayer

open Cert.ReferenceIdeal
open Idealize.ShloMosaic Idealize.ShloMosaic.ValueIdx

/-- The first layer's output at `(p, q)`. -/
theorem layer1_apply (a0 : (⟨Cert.ReferenceIdeal.S100000x10, .f32⟩ : BufTy).Contents (Elt Ideal)) (a1 : (⟨Cert.ReferenceIdeal.S2x3200000, .i32⟩ : BufTy).Contents (Elt Ideal)) (a2 : (⟨Cert.ReferenceIdeal.S3200000, .f32⟩ : BufTy).Contents (Elt Ideal)) (a3 : (⟨Cert.ReferenceIdeal.S5x10x30, .f32⟩ : BufTy).Contents (Elt Ideal)) (a4 : (⟨Cert.ReferenceIdeal.S30, .f32⟩ : BufTy).Contents (Elt Ideal)) (p : Fin 100000) (q : Fin 30) :
    (Cert.ReferenceIdeal.ReadP.val_main_v115 (F := Ideal) a0 a1 a2 a3 a4 (ix2 p q) : EReal)
      = max (((((∑ j : Fin 10, (a0 (ix2 p j) : EReal) * (a3 (ix3 (0 : Fin 5) j q) : EReal) + ∑ j : Fin 10, ((Cert.ReferenceIdeal.ReadP.val_main_v47 (F := Ideal) a0 a1 a2) (ix2 p j) : EReal) * (a3 (ix3 (1 : Fin 5) j q) : EReal)) + ∑ j : Fin 10, ((Cert.ReferenceIdeal.ReadP.val_main_v67 (F := Ideal) a0 a1 a2) (ix2 p j) : EReal) * (a3 (ix3 (2 : Fin 5) j q) : EReal)) + ∑ j : Fin 10, ((Cert.ReferenceIdeal.ReadP.val_main_v87 (F := Ideal) a0 a1 a2) (ix2 p j) : EReal) * (a3 (ix3 (3 : Fin 5) j q) : EReal)) + ∑ j : Fin 10, ((Cert.ReferenceIdeal.ReadP.val_main_v107 (F := Ideal) a0 a1 a2) (ix2 p j) : EReal) * (a3 (ix3 (4 : Fin 5) j q) : EReal)) + (a4 (ix1 q) : EReal)) 0 := by
  have hl0 : ∀ j : Fin 10, Cert.ReferenceIdeal.ReadP.lidx_main_v34 (ix2 p q) j = (ix2 p j : S100000x10.Idx) := fun j => funext fun a => Fin.ext (by
    match a with
    | ⟨0, _⟩ => rfl
    | ⟨1, _⟩ => rfl)
  have hr0 : ∀ j : Fin 10, Cert.ReferenceIdeal.ReadP.idx_main_v32 (Cert.ReferenceIdeal.ReadP.idx_main_v33 (Cert.ReferenceIdeal.ReadP.ridx_main_v34 (ix2 p q) j)) = (ix3 (0 : Fin 5) j q : S5x10x30.Idx) := fun j => funext fun a => Fin.ext (by
    have hj : j.val < 10 := j.isLt
    have hq : q.val < 30 := q.isLt
    match a with
    | ⟨0, _⟩ => show (0 : ℕ) = 0; rfl
    | ⟨1, _⟩ => show (j.val * 30 + q.val) / 30 % 10 = j.val; omega
    | ⟨2, _⟩ => show (j.val * 30 + q.val) % 30 = q.val; omega)
  have hl1 : ∀ j : Fin 10, Cert.ReferenceIdeal.ReadP.lidx_main_v50 (ix2 p q) j = (ix2 p j : S100000x10.Idx) := fun j => funext fun a => Fin.ext (by
    match a with
    | ⟨0, _⟩ => rfl
    | ⟨1, _⟩ => rfl)
  have hr1 : ∀ j : Fin 10, Cert.ReferenceIdeal.ReadP.idx_main_v48 (Cert.ReferenceIdeal.ReadP.idx_main_v49 (Cert.ReferenceIdeal.ReadP.ridx_main_v50 (ix2 p q) j)) = (ix3 (1 : Fin 5) j q : S5x10x30.Idx) := fun j => funext fun a => Fin.ext (by
    have hj : j.val < 10 := j.isLt
    have hq : q.val < 30 := q.isLt
    match a with
    | ⟨0, _⟩ => show 1 + (0 : ℕ) = 1; rfl
    | ⟨1, _⟩ => show (j.val * 30 + q.val) / 30 % 10 = j.val; omega
    | ⟨2, _⟩ => show (j.val * 30 + q.val) % 30 = q.val; omega)
  have hl2 : ∀ j : Fin 10, Cert.ReferenceIdeal.ReadP.lidx_main_v70 (ix2 p q) j = (ix2 p j : S100000x10.Idx) := fun j => funext fun a => Fin.ext (by
    match a with
    | ⟨0, _⟩ => rfl
    | ⟨1, _⟩ => rfl)
  have hr2 : ∀ j : Fin 10, Cert.ReferenceIdeal.ReadP.idx_main_v68 (Cert.ReferenceIdeal.ReadP.idx_main_v69 (Cert.ReferenceIdeal.ReadP.ridx_main_v70 (ix2 p q) j)) = (ix3 (2 : Fin 5) j q : S5x10x30.Idx) := fun j => funext fun a => Fin.ext (by
    have hj : j.val < 10 := j.isLt
    have hq : q.val < 30 := q.isLt
    match a with
    | ⟨0, _⟩ => show 2 + (0 : ℕ) = 2; rfl
    | ⟨1, _⟩ => show (j.val * 30 + q.val) / 30 % 10 = j.val; omega
    | ⟨2, _⟩ => show (j.val * 30 + q.val) % 30 = q.val; omega)
  have hl3 : ∀ j : Fin 10, Cert.ReferenceIdeal.ReadP.lidx_main_v90 (ix2 p q) j = (ix2 p j : S100000x10.Idx) := fun j => funext fun a => Fin.ext (by
    match a with
    | ⟨0, _⟩ => rfl
    | ⟨1, _⟩ => rfl)
  have hr3 : ∀ j : Fin 10, Cert.ReferenceIdeal.ReadP.idx_main_v88 (Cert.ReferenceIdeal.ReadP.idx_main_v89 (Cert.ReferenceIdeal.ReadP.ridx_main_v90 (ix2 p q) j)) = (ix3 (3 : Fin 5) j q : S5x10x30.Idx) := fun j => funext fun a => Fin.ext (by
    have hj : j.val < 10 := j.isLt
    have hq : q.val < 30 := q.isLt
    match a with
    | ⟨0, _⟩ => show 3 + (0 : ℕ) = 3; rfl
    | ⟨1, _⟩ => show (j.val * 30 + q.val) / 30 % 10 = j.val; omega
    | ⟨2, _⟩ => show (j.val * 30 + q.val) % 30 = q.val; omega)
  have hl4 : ∀ j : Fin 10, Cert.ReferenceIdeal.ReadP.lidx_main_v110 (ix2 p q) j = (ix2 p j : S100000x10.Idx) := fun j => funext fun a => Fin.ext (by
    match a with
    | ⟨0, _⟩ => rfl
    | ⟨1, _⟩ => rfl)
  have hr4 : ∀ j : Fin 10, Cert.ReferenceIdeal.ReadP.idx_main_v108 (Cert.ReferenceIdeal.ReadP.idx_main_v109 (Cert.ReferenceIdeal.ReadP.ridx_main_v110 (ix2 p q) j)) = (ix3 (4 : Fin 5) j q : S5x10x30.Idx) := fun j => funext fun a => Fin.ext (by
    have hj : j.val < 10 := j.isLt
    have hq : q.val < 30 := q.isLt
    match a with
    | ⟨0, _⟩ => show 4 + (0 : ℕ) = 4; rfl
    | ⟨1, _⟩ => show (j.val * 30 + q.val) / 30 % 10 = j.val; omega
    | ⟨2, _⟩ => show (j.val * 30 + q.val) % 30 = q.val; omega)
  have hb : Cert.ReferenceIdeal.ReadP.idx_main_v112 (Cert.ReferenceIdeal.ReadP.idx_main_v113 (ix2 p q)) = (ix1 q : S30.Idx) := funext fun a => Fin.ext (by
    match a with
    | ⟨0, _⟩ => rfl)
  simp only [Cert.ReferenceIdeal.ReadP.val_main_v115_apply, Cert.ReferenceIdeal.ReadP.val_main_call2_v0_apply, Cert.ReferenceIdeal.ReadP.val_main_call2_cst_apply, Cert.ReferenceIdeal.ReadP.val_main_v114_apply, Cert.ReferenceIdeal.ReadP.val_main_v113_apply, Cert.ReferenceIdeal.ReadP.val_main_v112_apply, Cert.ReferenceIdeal.ReadP.val_main_v111_apply, Cert.ReferenceIdeal.ReadP.val_main_v91_apply, Cert.ReferenceIdeal.ReadP.val_main_v71_apply, Cert.ReferenceIdeal.ReadP.val_main_v51_apply, Cert.ReferenceIdeal.ReadP.val_main_v34_apply, Cert.ReferenceIdeal.ReadP.val_main_v33_apply, Cert.ReferenceIdeal.ReadP.val_main_v32_apply, Cert.ReferenceIdeal.ReadP.val_main_v50_apply, Cert.ReferenceIdeal.ReadP.val_main_v49_apply, Cert.ReferenceIdeal.ReadP.val_main_v48_apply, Cert.ReferenceIdeal.ReadP.val_main_v70_apply, Cert.ReferenceIdeal.ReadP.val_main_v69_apply, Cert.ReferenceIdeal.ReadP.val_main_v68_apply, Cert.ReferenceIdeal.ReadP.val_main_v90_apply, Cert.ReferenceIdeal.ReadP.val_main_v89_apply, Cert.ReferenceIdeal.ReadP.val_main_v88_apply, Cert.ReferenceIdeal.ReadP.val_main_v110_apply, Cert.ReferenceIdeal.ReadP.val_main_v109_apply, Cert.ReferenceIdeal.ReadP.val_main_v108_apply]
  simp only [hl0, hr0, hl1, hr1, hl2, hr2, hl3, hr3, hl4, hr4, hb]
  simp only [Ideal.addf_def, Ideal.maximumf_def, Ideal.ofBits_def, Ideal.ofBits_zero_f32]

end Cert.RefLayer

end
-- ==== Proof.RefLayer2.lean ====
/-
  The reference's second layer at an index, over the extended reals.

  The same affine map and relu over the 30 hidden features, fed the first layer's output and its Chebyshev terms.
-/
import proofs.«140782_j81638738363109_1_alg».proof.Proof.RefReadP

set_option maxRecDepth 16384

noncomputable section

namespace Cert.RefLayer

open Cert.ReferenceIdeal
open Idealize.ShloMosaic Idealize.ShloMosaic.ValueIdx

/-- The second layer's output at `(p, q)`. -/
theorem layer2_apply (a0 : (⟨Cert.ReferenceIdeal.S100000x10, .f32⟩ : BufTy).Contents (Elt Ideal)) (a1 : (⟨Cert.ReferenceIdeal.S2x3200000, .i32⟩ : BufTy).Contents (Elt Ideal)) (a2 : (⟨Cert.ReferenceIdeal.S3200000, .f32⟩ : BufTy).Contents (Elt Ideal)) (a3 : (⟨Cert.ReferenceIdeal.S5x10x30, .f32⟩ : BufTy).Contents (Elt Ideal)) (a4 : (⟨Cert.ReferenceIdeal.S30, .f32⟩ : BufTy).Contents (Elt Ideal)) (a5 : (⟨Cert.ReferenceIdeal.S5x30x30, .f32⟩ : BufTy).Contents (Elt Ideal)) (a6 : (⟨Cert.ReferenceIdeal.S30, .f32⟩ : BufTy).Contents (Elt Ideal)) (p : Fin 100000) (q : Fin 30) :
    (Cert.ReferenceIdeal.ReadP.val_main_v199 (F := Ideal) a0 a1 a2 a3 a4 a5 a6 (ix2 p q) : EReal)
      = max (((((∑ j : Fin 30, ((Cert.ReferenceIdeal.ReadP.val_main_v115 (F := Ideal) a0 a1 a2 a3 a4) (ix2 p j) : EReal) * (a5 (ix3 (0 : Fin 5) j q) : EReal) + ∑ j : Fin 30, ((Cert.ReferenceIdeal.ReadP.val_main_v131 (F := Ideal) a0 a1 a2 a3 a4) (ix2 p j) : EReal) * (a5 (ix3 (1 : Fin 5) j q) : EReal)) + ∑ j : Fin 30, ((Cert.ReferenceIdeal.ReadP.val_main_v151 (F := Ideal) a0 a1 a2 a3 a4) (ix2 p j) : EReal) * (a5 (ix3 (2 : Fin 5) j q) : EReal)) + ∑ j : Fin 30, ((Cert.ReferenceIdeal.ReadP.val_main_v171 (F := Ideal) a0 a1 a2 a3 a4) (ix2 p j) : EReal) * (a5 (ix3 (3 : Fin 5) j q) : EReal)) + ∑ j : Fin 30, ((Cert.ReferenceIdeal.ReadP.val_main_v191 (F := Ideal) a0 a1 a2 a3 a4) (ix2 p j) : EReal) * (a5 (ix3 (4 : Fin 5) j q) : EReal)) + (a6 (ix1 q) : EReal)) 0 := by
  have hl0 : ∀ j : Fin 30, Cert.ReferenceIdeal.ReadP.lidx_main_v118 (ix2 p q) j = (ix2 p j : S100000x30.Idx) := fun j => funext fun a => Fin.ext (by
    match a with
    | ⟨0, _⟩ => rfl
    | ⟨1, _⟩ => rfl)
  have hr0 : ∀ j : Fin 30, Cert.ReferenceIdeal.ReadP.idx_main_v116 (Cert.ReferenceIdeal.ReadP.idx_main_v117 (Cert.ReferenceIdeal.ReadP.ridx_main_v118 (ix2 p q) j)) = (ix3 (0 : Fin 5) j q : S5x30x30.Idx) := fun j => funext fun a => Fin.ext (by
    have hj : j.val < 30 := j.isLt
    have hq : q.val < 30 := q.isLt
    match a with
    | ⟨0, _⟩ => show (0 : ℕ) = 0; rfl
    | ⟨1, _⟩ => show (j.val * 30 + q.val) / 30 % 30 = j.val; omega
    | ⟨2, _⟩ => show (j.val * 30 + q.val) % 30 = q.val; omega)
  have hl1 : ∀ j : Fin 30, Cert.ReferenceIdeal.ReadP.lidx_main_v134 (ix2 p q) j = (ix2 p j : S100000x30.Idx) := fun j => funext fun a => Fin.ext (by
    match a with
    | ⟨0, _⟩ => rfl
    | ⟨1, _⟩ => rfl)
  have hr1 : ∀ j : Fin 30, Cert.ReferenceIdeal.ReadP.idx_main_v132 (Cert.ReferenceIdeal.ReadP.idx_main_v133 (Cert.ReferenceIdeal.ReadP.ridx_main_v134 (ix2 p q) j)) = (ix3 (1 : Fin 5) j q : S5x30x30.Idx) := fun j => funext fun a => Fin.ext (by
    have hj : j.val < 30 := j.isLt
    have hq : q.val < 30 := q.isLt
    match a with
    | ⟨0, _⟩ => show 1 + (0 : ℕ) = 1; rfl
    | ⟨1, _⟩ => show (j.val * 30 + q.val) / 30 % 30 = j.val; omega
    | ⟨2, _⟩ => show (j.val * 30 + q.val) % 30 = q.val; omega)
  have hl2 : ∀ j : Fin 30, Cert.ReferenceIdeal.ReadP.lidx_main_v154 (ix2 p q) j = (ix2 p j : S100000x30.Idx) := fun j => funext fun a => Fin.ext (by
    match a with
    | ⟨0, _⟩ => rfl
    | ⟨1, _⟩ => rfl)
  have hr2 : ∀ j : Fin 30, Cert.ReferenceIdeal.ReadP.idx_main_v152 (Cert.ReferenceIdeal.ReadP.idx_main_v153 (Cert.ReferenceIdeal.ReadP.ridx_main_v154 (ix2 p q) j)) = (ix3 (2 : Fin 5) j q : S5x30x30.Idx) := fun j => funext fun a => Fin.ext (by
    have hj : j.val < 30 := j.isLt
    have hq : q.val < 30 := q.isLt
    match a with
    | ⟨0, _⟩ => show 2 + (0 : ℕ) = 2; rfl
    | ⟨1, _⟩ => show (j.val * 30 + q.val) / 30 % 30 = j.val; omega
    | ⟨2, _⟩ => show (j.val * 30 + q.val) % 30 = q.val; omega)
  have hl3 : ∀ j : Fin 30, Cert.ReferenceIdeal.ReadP.lidx_main_v174 (ix2 p q) j = (ix2 p j : S100000x30.Idx) := fun j => funext fun a => Fin.ext (by
    match a with
    | ⟨0, _⟩ => rfl
    | ⟨1, _⟩ => rfl)
  have hr3 : ∀ j : Fin 30, Cert.ReferenceIdeal.ReadP.idx_main_v172 (Cert.ReferenceIdeal.ReadP.idx_main_v173 (Cert.ReferenceIdeal.ReadP.ridx_main_v174 (ix2 p q) j)) = (ix3 (3 : Fin 5) j q : S5x30x30.Idx) := fun j => funext fun a => Fin.ext (by
    have hj : j.val < 30 := j.isLt
    have hq : q.val < 30 := q.isLt
    match a with
    | ⟨0, _⟩ => show 3 + (0 : ℕ) = 3; rfl
    | ⟨1, _⟩ => show (j.val * 30 + q.val) / 30 % 30 = j.val; omega
    | ⟨2, _⟩ => show (j.val * 30 + q.val) % 30 = q.val; omega)
  have hl4 : ∀ j : Fin 30, Cert.ReferenceIdeal.ReadP.lidx_main_v194 (ix2 p q) j = (ix2 p j : S100000x30.Idx) := fun j => funext fun a => Fin.ext (by
    match a with
    | ⟨0, _⟩ => rfl
    | ⟨1, _⟩ => rfl)
  have hr4 : ∀ j : Fin 30, Cert.ReferenceIdeal.ReadP.idx_main_v192 (Cert.ReferenceIdeal.ReadP.idx_main_v193 (Cert.ReferenceIdeal.ReadP.ridx_main_v194 (ix2 p q) j)) = (ix3 (4 : Fin 5) j q : S5x30x30.Idx) := fun j => funext fun a => Fin.ext (by
    have hj : j.val < 30 := j.isLt
    have hq : q.val < 30 := q.isLt
    match a with
    | ⟨0, _⟩ => show 4 + (0 : ℕ) = 4; rfl
    | ⟨1, _⟩ => show (j.val * 30 + q.val) / 30 % 30 = j.val; omega
    | ⟨2, _⟩ => show (j.val * 30 + q.val) % 30 = q.val; omega)
  have hb : Cert.ReferenceIdeal.ReadP.idx_main_v196 (Cert.ReferenceIdeal.ReadP.idx_main_v197 (ix2 p q)) = (ix1 q : S30.Idx) := funext fun a => Fin.ext (by
    match a with
    | ⟨0, _⟩ => rfl)
  simp only [Cert.ReferenceIdeal.ReadP.val_main_v199_apply, Cert.ReferenceIdeal.ReadP.val_main_call3_v0_apply, Cert.ReferenceIdeal.ReadP.val_main_call3_cst_apply, Cert.ReferenceIdeal.ReadP.val_main_v198_apply, Cert.ReferenceIdeal.ReadP.val_main_v197_apply, Cert.ReferenceIdeal.ReadP.val_main_v196_apply, Cert.ReferenceIdeal.ReadP.val_main_v195_apply, Cert.ReferenceIdeal.ReadP.val_main_v175_apply, Cert.ReferenceIdeal.ReadP.val_main_v155_apply, Cert.ReferenceIdeal.ReadP.val_main_v135_apply, Cert.ReferenceIdeal.ReadP.val_main_v118_apply, Cert.ReferenceIdeal.ReadP.val_main_v117_apply, Cert.ReferenceIdeal.ReadP.val_main_v116_apply, Cert.ReferenceIdeal.ReadP.val_main_v134_apply, Cert.ReferenceIdeal.ReadP.val_main_v133_apply, Cert.ReferenceIdeal.ReadP.val_main_v132_apply, Cert.ReferenceIdeal.ReadP.val_main_v154_apply, Cert.ReferenceIdeal.ReadP.val_main_v153_apply, Cert.ReferenceIdeal.ReadP.val_main_v152_apply, Cert.ReferenceIdeal.ReadP.val_main_v174_apply, Cert.ReferenceIdeal.ReadP.val_main_v173_apply, Cert.ReferenceIdeal.ReadP.val_main_v172_apply, Cert.ReferenceIdeal.ReadP.val_main_v194_apply, Cert.ReferenceIdeal.ReadP.val_main_v193_apply, Cert.ReferenceIdeal.ReadP.val_main_v192_apply]
  simp only [hl0, hr0, hl1, hr1, hl2, hr2, hl3, hr3, hl4, hr4, hb]
  simp only [Ideal.addf_def, Ideal.maximumf_def, Ideal.ofBits_def, Ideal.ofBits_zero_f32]

end Cert.RefLayer

end
-- ==== Proof.RefLayer3.lean ====
/-
  The reference's read-out at an index, over the extended reals.

  h·Wl + bl: one `dot_general` over the 30 hidden features and the bias row.
-/
import proofs.«140782_j81638738363109_1_alg».proof.Proof.RefReadP

set_option maxRecDepth 16384

noncomputable section

namespace Cert.RefLayer

open Cert.ReferenceIdeal
open Idealize.ShloMosaic Idealize.ShloMosaic.ValueIdx

/-- The result at `(p, q)`. -/
theorem head_apply (a0 : (⟨Cert.ReferenceIdeal.S100000x10, .f32⟩ : BufTy).Contents (Elt Ideal)) (a1 : (⟨Cert.ReferenceIdeal.S2x3200000, .i32⟩ : BufTy).Contents (Elt Ideal)) (a2 : (⟨Cert.ReferenceIdeal.S3200000, .f32⟩ : BufTy).Contents (Elt Ideal)) (a3 : (⟨Cert.ReferenceIdeal.S5x10x30, .f32⟩ : BufTy).Contents (Elt Ideal)) (a4 : (⟨Cert.ReferenceIdeal.S30, .f32⟩ : BufTy).Contents (Elt Ideal)) (a5 : (⟨Cert.ReferenceIdeal.S5x30x30, .f32⟩ : BufTy).Contents (Elt Ideal)) (a6 : (⟨Cert.ReferenceIdeal.S30, .f32⟩ : BufTy).Contents (Elt Ideal)) (a7 : (⟨Cert.ReferenceIdeal.S30x4, .f32⟩ : BufTy).Contents (Elt Ideal)) (a8 : (⟨Cert.ReferenceIdeal.S4, .f32⟩ : BufTy).Contents (Elt Ideal)) (p : Fin 100000) (q : Fin 4) :
    (Cert.ReferenceIdeal.ReadP.val_main_v203 (F := Ideal) a0 a1 a2 a3 a4 a5 a6 a7 a8 (ix2 p q) : EReal)
      = ∑ j : Fin 30, ((Cert.ReferenceIdeal.ReadP.val_main_v199 (F := Ideal) a0 a1 a2 a3 a4 a5 a6) (ix2 p j) : EReal) * (a7 (ix2 j q) : EReal) + (a8 (ix1 q) : EReal) := by
  have hl0 : ∀ j : Fin 30, Cert.ReferenceIdeal.ReadP.lidx_main_v200 (ix2 p q) j = (ix2 p j : S100000x30.Idx) := fun j => funext fun a => Fin.ext (by
    match a with
    | ⟨0, _⟩ => rfl
    | ⟨1, _⟩ => rfl)
  have hr0 : ∀ j : Fin 30, Cert.ReferenceIdeal.ReadP.ridx_main_v200 (ix2 p q) j = (ix2 j q : S30x4.Idx) := fun j => funext fun a => Fin.ext (by
    match a with
    | ⟨0, _⟩ => rfl
    | ⟨1, _⟩ => rfl)
  have hb : Cert.ReferenceIdeal.ReadP.idx_main_v201 (Cert.ReferenceIdeal.ReadP.idx_main_v202 (ix2 p q)) = (ix1 q : S4.Idx) := funext fun a => Fin.ext (by
    match a with
    | ⟨0, _⟩ => rfl)
  simp only [Cert.ReferenceIdeal.ReadP.val_main_v203_apply, Cert.ReferenceIdeal.ReadP.val_main_v202_apply, Cert.ReferenceIdeal.ReadP.val_main_v201_apply, Cert.ReferenceIdeal.ReadP.val_main_v200_apply]
  simp only [hl0, hr0, hb]
  simp only [Ideal.addf_def, Ideal.maximumf_def, Ideal.ofBits_def, Ideal.ofBits_zero_f32]

end Cert.RefLayer

end
-- ==== Proof.Bridge.lean ====
/-
  Each region's output array IS the reference's stage, over the extended reals.

  Region 0 computes, at row p and column q, max(0 + Σ_j A(0,p,j)·W(0,j,q) + … + Σ_j A(4,p,j)·W(4,j,q) + b(q), 0) of the
  stacked operand A; the reference computes relu(T0·W[0] + … + T4·W[4] + b) by five products added left to right. When the
  stack's slab k is the reference's Chebyshev term T_k these are one number: the kernel's leading `0 +` is the only
  difference, and 0 + a = a for every extended real a, finite or not. The same holds for the second layer, and for the
  read-out (one product, no relu).
-/
import proofs.«140782_j81638738363109_1_alg».proof.Proof.KI.Final0
import proofs.«140782_j81638738363109_1_alg».proof.Proof.KI.Final1
import proofs.«140782_j81638738363109_1_alg».proof.Proof.KI.Final2
import proofs.«140782_j81638738363109_1_alg».proof.Proof.RefLayer1
import proofs.«140782_j81638738363109_1_alg».proof.Proof.RefLayer2
import proofs.«140782_j81638738363109_1_alg».proof.Proof.RefLayer3

set_option maxRecDepth 16384

noncomputable section

namespace Cert.Bridge

open Cert.KernelIdeal Cert.KernelIdeal.Blk
open Idealize.ShloMosaic Idealize.ShloMosaic.ValueIdx

/-- Region 0's array is the first layer's output, when slab `k` of the stacked operand is the reference's term `T_k`,
    the stacked weights are `W1` and the bias is `b1`. -/
theorem region0_eq (a0 : (⟨Cert.ReferenceIdeal.S100000x10, .f32⟩ : BufTy).Contents (Elt Ideal)) (a1 : (⟨Cert.ReferenceIdeal.S2x3200000, .i32⟩ : BufTy).Contents (Elt Ideal)) (a2 : (⟨Cert.ReferenceIdeal.S3200000, .f32⟩ : BufTy).Contents (Elt Ideal)) (a3 : (⟨Cert.ReferenceIdeal.S5x10x30, .f32⟩ : BufTy).Contents (Elt Ideal)) (a4 : (⟨Cert.ReferenceIdeal.S30, .f32⟩ : BufTy).Contents (Elt Ideal))
    (A : S5x100000x10.Idx → EReal) (Wt : S5x10x30.Idx → EReal) (b : S30.Idx → EReal)
    (h0 : ∀ (p : Fin 100000) (j : Fin 10), A (ix3 (0 : Fin 5) p j) = a0 (ix2 p j))
    (h1 : ∀ (p : Fin 100000) (j : Fin 10), A (ix3 (1 : Fin 5) p j) = Cert.ReferenceIdeal.ReadP.val_main_v47 (F := Ideal) a0 a1 a2 (ix2 p j))
    (h2 : ∀ (p : Fin 100000) (j : Fin 10), A (ix3 (2 : Fin 5) p j) = Cert.ReferenceIdeal.ReadP.val_main_v67 (F := Ideal) a0 a1 a2 (ix2 p j))
    (h3 : ∀ (p : Fin 100000) (j : Fin 10), A (ix3 (3 : Fin 5) p j) = Cert.ReferenceIdeal.ReadP.val_main_v87 (F := Ideal) a0 a1 a2 (ix2 p j))
    (h4 : ∀ (p : Fin 100000) (j : Fin 10), A (ix3 (4 : Fin 5) p j) = Cert.ReferenceIdeal.ReadP.val_main_v107 (F := Ideal) a0 a1 a2 (ix2 p j))
    (hW : Wt = a3) (hb : b = a4) :
    arr0 A Wt b = Cert.ReferenceIdeal.ReadP.val_main_v115 (F := Ideal) a0 a1 a2 a3 a4 := by
  subst hW hb
  funext i
  obtain ⟨p, q, rfl⟩ : ∃ (p : Fin 100000) (q : Fin 30), i = ix2 p q := ⟨i 0, i 1, eq_ix2 i⟩
  refine Eq.trans ?_ (Cert.RefLayer.layer1_apply a0 a1 a2 Wt b p q).symm
  show G0 A Wt b p q = _
  unfold G0
  simp only [h0, h1, h2, h3, h4, zero_add]

/-- Region 1's array is the second layer's output. -/
theorem region1_eq (a0 : (⟨Cert.ReferenceIdeal.S100000x10, .f32⟩ : BufTy).Contents (Elt Ideal)) (a1 : (⟨Cert.ReferenceIdeal.S2x3200000, .i32⟩ : BufTy).Contents (Elt Ideal)) (a2 : (⟨Cert.ReferenceIdeal.S3200000, .f32⟩ : BufTy).Contents (Elt Ideal)) (a3 : (⟨Cert.ReferenceIdeal.S5x10x30, .f32⟩ : BufTy).Contents (Elt Ideal)) (a4 : (⟨Cert.ReferenceIdeal.S30, .f32⟩ : BufTy).Contents (Elt Ideal)) (a5 : (⟨Cert.ReferenceIdeal.S5x30x30, .f32⟩ : BufTy).Contents (Elt Ideal)) (a6 : (⟨Cert.ReferenceIdeal.S30, .f32⟩ : BufTy).Contents (Elt Ideal))
    (A : S5x100000x30.Idx → EReal) (Wt : S5x30x30.Idx → EReal) (b : S30.Idx → EReal)
    (h0 : ∀ (p : Fin 100000) (j : Fin 30), A (ix3 (0 : Fin 5) p j) = Cert.ReferenceIdeal.ReadP.val_main_v115 (F := Ideal) a0 a1 a2 a3 a4 (ix2 p j))
    (h1 : ∀ (p : Fin 100000) (j : Fin 30), A (ix3 (1 : Fin 5) p j) = Cert.ReferenceIdeal.ReadP.val_main_v131 (F := Ideal) a0 a1 a2 a3 a4 (ix2 p j))
    (h2 : ∀ (p : Fin 100000) (j : Fin 30), A (ix3 (2 : Fin 5) p j) = Cert.ReferenceIdeal.ReadP.val_main_v151 (F := Ideal) a0 a1 a2 a3 a4 (ix2 p j))
    (h3 : ∀ (p : Fin 100000) (j : Fin 30), A (ix3 (3 : Fin 5) p j) = Cert.ReferenceIdeal.ReadP.val_main_v171 (F := Ideal) a0 a1 a2 a3 a4 (ix2 p j))
    (h4 : ∀ (p : Fin 100000) (j : Fin 30), A (ix3 (4 : Fin 5) p j) = Cert.ReferenceIdeal.ReadP.val_main_v191 (F := Ideal) a0 a1 a2 a3 a4 (ix2 p j))
    (hW : Wt = a5) (hb : b = a6) :
    arr1 A Wt b = Cert.ReferenceIdeal.ReadP.val_main_v199 (F := Ideal) a0 a1 a2 a3 a4 a5 a6 := by
  subst hW hb
  funext i
  obtain ⟨p, q, rfl⟩ : ∃ (p : Fin 100000) (q : Fin 30), i = ix2 p q := ⟨i 0, i 1, eq_ix2 i⟩
  refine Eq.trans ?_ (Cert.RefLayer.layer2_apply a0 a1 a2 a3 a4 Wt b p q).symm
  show G1 A Wt b p q = _
  unfold G1
  simp only [h0, h1, h2, h3, h4, zero_add]

/-- Region 2's array is the result, when its operand's one slab is the second layer's output and its weight's one slab
    is `Wl`. -/
theorem region2_eq (a0 : (⟨Cert.ReferenceIdeal.S100000x10, .f32⟩ : BufTy).Contents (Elt Ideal)) (a1 : (⟨Cert.ReferenceIdeal.S2x3200000, .i32⟩ : BufTy).Contents (Elt Ideal)) (a2 : (⟨Cert.ReferenceIdeal.S3200000, .f32⟩ : BufTy).Contents (Elt Ideal)) (a3 : (⟨Cert.ReferenceIdeal.S5x10x30, .f32⟩ : BufTy).Contents (Elt Ideal)) (a4 : (⟨Cert.ReferenceIdeal.S30, .f32⟩ : BufTy).Contents (Elt Ideal)) (a5 : (⟨Cert.ReferenceIdeal.S5x30x30, .f32⟩ : BufTy).Contents (Elt Ideal)) (a6 : (⟨Cert.ReferenceIdeal.S30, .f32⟩ : BufTy).Contents (Elt Ideal)) (a7 : (⟨Cert.ReferenceIdeal.S30x4, .f32⟩ : BufTy).Contents (Elt Ideal)) (a8 : (⟨Cert.ReferenceIdeal.S4, .f32⟩ : BufTy).Contents (Elt Ideal))
    (A : S1x100000x30.Idx → EReal) (Wt : S1x30x4.Idx → EReal) (b : S4.Idx → EReal)
    (h0 : ∀ (p : Fin 100000) (j : Fin 30), A (ix3 (0 : Fin 1) p j) = Cert.ReferenceIdeal.ReadP.val_main_v199 (F := Ideal) a0 a1 a2 a3 a4 a5 a6 (ix2 p j))
    (hW : ∀ (j : Fin 30) (q : Fin 4), Wt (ix3 (0 : Fin 1) j q) = a7 (ix2 j q)) (hb : b = a8) :
    arr2 A Wt b = Cert.ReferenceIdeal.ReadP.val_main_v203 (F := Ideal) a0 a1 a2 a3 a4 a5 a6 a7 a8 := by
  subst hb
  funext i
  obtain ⟨p, q, rfl⟩ : ∃ (p : Fin 100000) (q : Fin 4), i = ix2 p q := ⟨i 0, i 1, eq_ix2 i⟩
  refine Eq.trans ?_ (Cert.RefLayer.head_apply a0 a1 a2 a3 a4 a5 a6 a7 b p q).symm
  show G2 A Wt b p q = _
  unfold G2
  simp only [h0, hW, zero_add]

end Cert.Bridge

end
-- ==== Proof.LibStackRows.lean ====
/-
  Five arrays stacked along a new leading axis, read at an index.

  `jnp.stack([T0, …, T4], axis = 0)` prints as: each `[N, C]` array laid out as `[1, N, C]` by a `broadcast_in_dim` along
  dims (1, 2), then the five joined along axis 0 into `[5, N, C]`. At `(k, p, j)` the stack reads `T_k` at `(p, j)`,
  whatever the extents; with ONE array the `[1, N, C]` layout alone reads `T` at `(p, j)`.
-/
import Idealize.ShloMosaic.Lib.Pipeline.Value
import Idealize.ShloMosaic.Lib.ValueIdx

noncomputable section

namespace Cert.Lib.StackRows

open Idealize.ShloMosaic Idealize.ShloMosaic.ValueIdx

variable {α : Type} {N C : ℕ}

/-- An `[N, C]` array laid out as `[1, N, C]` along dims (1, 2) reads, at `(u, p, j)`, the array at `(p, j)`. -/
theorem unit_layer_apply (dims : Fin 2 → Fin 3) (hd : dims = ![1, 2])
    (h : (⟨2, ![N, C]⟩ : Shape).BroadcastsInDim ⟨3, ![1, N, C]⟩ dims) (T : (⟨2, ![N, C]⟩ : Shape).Idx → α)
    (u : Fin 1) (p : Fin N) (j : Fin C) : broadcastInDim ⟨3, ![1, N, C]⟩ dims h T (ix3 u p j) = T (ix2 p j) := by
  subst hd
  refine broadcastInDim_apply _ h T (ix3 u p j) (ix2 p j) fun ax => ?_
  match ax with
  | ⟨0, _⟩ =>
    show p.val = if N = 1 then 0 else p.val
    split
    · have := p.isLt; omega
    · rfl
  | ⟨1, _⟩ =>
    show j.val = if C = 1 then 0 else j.val
    split
    · have := j.isLt; omega
    · rfl

/-- Five `[1, N, C]` layers joined along axis 0, at `(k, p, j)`: layer `k` at `(0, p, j)`. -/
theorem join5_apply (L0 L1 L2 L3 L4 : (⟨3, ![1, N, C]⟩ : Shape).Idx → α)
    (h : Shape.Concatenates (([⟨⟨3, ![1, N, C]⟩, L0⟩, ⟨⟨3, ![1, N, C]⟩, L1⟩, ⟨⟨3, ![1, N, C]⟩, L2⟩, ⟨⟨3, ![1, N, C]⟩, L3⟩, ⟨⟨3, ![1, N, C]⟩, L4⟩] :
      List ((s : Shape) × (s.Idx → α))).map (·.1)) ⟨3, ![5, N, C]⟩ 0)
    (k : Fin 5) (p : Fin N) (j : Fin C) :
    concatenate ⟨3, ![5, N, C]⟩ 0 [⟨⟨3, ![1, N, C]⟩, L0⟩, ⟨⟨3, ![1, N, C]⟩, L1⟩, ⟨⟨3, ![1, N, C]⟩, L2⟩, ⟨⟨3, ![1, N, C]⟩, L3⟩, ⟨⟨3, ![1, N, C]⟩, L4⟩] h (ix3 k p j)
      = (![L0, L1, L2, L3, L4] k) (ix3 (0 : Fin 1) p j) := by
  have hi : ∀ b : Fin 3, b.cast (rfl : (3 : ℕ) = 3) ≠ (0 : Fin 3) → ((ix3 (0 : Fin 1) p j : (⟨3, ![1, N, C]⟩ : Shape).Idx) b).val
      = ((ix3 k p j : (⟨3, ![5, N, C]⟩ : Shape).Idx) (b.cast rfl)).val := fun b hb =>
    match b, hb with
    | ⟨0, _⟩, hb => absurd rfl hb
    | ⟨1, _⟩, _ => rfl
    | ⟨2, _⟩, _ => rfl
  match k with
  | ⟨0, _⟩ => exact concatenate_apply_piece 0 _ h _ 0 (by show (0 : ℕ) < 5; omega) _ L0 rfl rfl 0 rfl (ix3 (0 : Fin 1) p j) hi rfl
  | ⟨1, _⟩ => exact concatenate_apply_piece 0 _ h _ 1 (by show (1 : ℕ) < 5; omega) _ L1 rfl rfl 1 rfl (ix3 (0 : Fin 1) p j) hi rfl
  | ⟨2, _⟩ => exact concatenate_apply_piece 0 _ h _ 2 (by show (2 : ℕ) < 5; omega) _ L2 rfl rfl 2 rfl (ix3 (0 : Fin 1) p j) hi rfl
  | ⟨3, _⟩ => exact concatenate_apply_piece 0 _ h _ 3 (by show (3 : ℕ) < 5; omega) _ L3 rfl rfl 3 rfl (ix3 (0 : Fin 1) p j) hi rfl
  | ⟨4, _⟩ => exact concatenate_apply_piece 0 _ h _ 4 (by show (4 : ℕ) < 5; omega) _ L4 rfl rfl 4 rfl (ix3 (0 : Fin 1) p j) hi rfl

/-- THE STACK at `(k, p, j)`: array `k` at `(p, j)`. -/
theorem stack5_apply (dims : Fin 2 → Fin 3) (hd : dims = ![1, 2])
    (hb : (⟨2, ![N, C]⟩ : Shape).BroadcastsInDim ⟨3, ![1, N, C]⟩ dims) (T0 T1 T2 T3 T4 : (⟨2, ![N, C]⟩ : Shape).Idx → α)
    (h : Shape.Concatenates (([⟨⟨3, ![1, N, C]⟩, broadcastInDim ⟨3, ![1, N, C]⟩ dims hb T0⟩, ⟨⟨3, ![1, N, C]⟩, broadcastInDim ⟨3, ![1, N, C]⟩ dims hb T1⟩,
        ⟨⟨3, ![1, N, C]⟩, broadcastInDim ⟨3, ![1, N, C]⟩ dims hb T2⟩, ⟨⟨3, ![1, N, C]⟩, broadcastInDim ⟨3, ![1, N, C]⟩ dims hb T3⟩,
        ⟨⟨3, ![1, N, C]⟩, broadcastInDim ⟨3, ![1, N, C]⟩ dims hb T4⟩] : List ((s : Shape) × (s.Idx → α))).map (·.1)) ⟨3, ![5, N, C]⟩ 0)
    (k : Fin 5) (p : Fin N) (j : Fin C) :
    concatenate ⟨3, ![5, N, C]⟩ 0 [⟨⟨3, ![1, N, C]⟩, broadcastInDim ⟨3, ![1, N, C]⟩ dims hb T0⟩, ⟨⟨3, ![1, N, C]⟩, broadcastInDim ⟨3, ![1, N, C]⟩ dims hb T1⟩,
        ⟨⟨3, ![1, N, C]⟩, broadcastInDim ⟨3, ![1, N, C]⟩ dims hb T2⟩, ⟨⟨3, ![1, N, C]⟩, broadcastInDim ⟨3, ![1, N, C]⟩ dims hb T3⟩,
        ⟨⟨3, ![1, N, C]⟩, broadcastInDim ⟨3, ![1, N, C]⟩ dims hb T4⟩] h (ix3 k p j)
      = (![T0, T1, T2, T3, T4] k) (ix2 p j) := by
  rw [join5_apply]
  match k with
  | ⟨0, _⟩ => exact unit_layer_apply dims hd hb T0 0 p j
  | ⟨1, _⟩ => exact unit_layer_apply dims hd hb T1 0 p j
  | ⟨2, _⟩ => exact unit_layer_apply dims hd hb T2 0 p j
  | ⟨3, _⟩ => exact unit_layer_apply dims hd hb T3 0 p j
  | ⟨4, _⟩ => exact unit_layer_apply dims hd hb T4 0 p j

end Cert.Lib.StackRows

end
-- ==== Proof.KI.KernelValue.lean ====
/-
  The value the program leaves in its result buffer, at the ideal instance: the reference's last stage of the
  launch contents of the nine arguments.

  The fold of buffer contents is read forwards. The five stretches before the first launch leave the edges'
  endpoints, the edge weights, the five terms of the recursion stacked and the weights in the first launch's windows;
  the first launch's output array is then the reference's first layer. The stretch after it leaves the five terms
  of the second recursion stacked, and the second launch's output is the second layer; the last stretch lays that
  out under a unit axis, and the last launch's output is the result. A change of float format is the identity at
  the ideal instance, a slab of a stack of five is the term stacked there, and a unit axis adds nothing.
-/
import proofs.«140782_j81638738363109_1_alg».proof.Proof.KI.Run
import proofs.«140782_j81638738363109_1_alg».proof.Proof.KI.HostStages
import proofs.«140782_j81638738363109_1_alg».proof.Proof.KI.HostStages0
import proofs.«140782_j81638738363109_1_alg».proof.Proof.KI.HostStages1
import proofs.«140782_j81638738363109_1_alg».proof.Proof.Bridge
import proofs.«140782_j81638738363109_1_alg».proof.Proof.LibStackRows

set_option maxRecDepth 16384

noncomputable section

namespace Cert.KernelIdeal.Val

open Cert.KernelIdeal Cert.KernelIdeal.Gen Cert.KernelIdeal.Fr Cert.KernelIdeal.HostStages Cert.KernelIdeal.Blk
open Cert.Bridge Cert.Lib.StackRows
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arguments as launched on a core -/

abbrev A0 (c : Dev nD) : (⟨Cert.ReferenceIdeal.S100000x10, .f32⟩ : BufTy).Contents (Elt Ideal) := m ((c : Thread nD τ).loc main_arg0)
abbrev A1 (c : Dev nD) : (⟨Cert.ReferenceIdeal.S2x3200000, .i32⟩ : BufTy).Contents (Elt Ideal) := m ((c : Thread nD τ).loc main_arg1)
abbrev A2 (c : Dev nD) : (⟨Cert.ReferenceIdeal.S3200000, .f32⟩ : BufTy).Contents (Elt Ideal) := m ((c : Thread nD τ).loc main_arg2)
abbrev A3 (c : Dev nD) : (⟨Cert.ReferenceIdeal.S5x10x30, .f32⟩ : BufTy).Contents (Elt Ideal) := m ((c : Thread nD τ).loc main_arg3)
abbrev A4 (c : Dev nD) : (⟨Cert.ReferenceIdeal.S30, .f32⟩ : BufTy).Contents (Elt Ideal) := m ((c : Thread nD τ).loc main_arg4)
abbrev A5 (c : Dev nD) : (⟨Cert.ReferenceIdeal.S5x30x30, .f32⟩ : BufTy).Contents (Elt Ideal) := m ((c : Thread nD τ).loc main_arg5)
abbrev A6 (c : Dev nD) : (⟨Cert.ReferenceIdeal.S30, .f32⟩ : BufTy).Contents (Elt Ideal) := m ((c : Thread nD τ).loc main_arg6)
abbrev A7 (c : Dev nD) : (⟨Cert.ReferenceIdeal.S30x4, .f32⟩ : BufTy).Contents (Elt Ideal) := m ((c : Thread nD τ).loc main_arg7)
abbrev A8 (c : Dev nD) : (⟨Cert.ReferenceIdeal.S4, .f32⟩ : BufTy).Contents (Elt Ideal) := m ((c : Thread nD τ).loc main_arg8)

/-! ## The arguments at the later boundaries -/

/-- An argument's buffer at the first launch's exit. -/
theorem W6_arg {b : Ref sig .tc} (hb : b ∈ args) (hne : ∀ w, Pipeline.arrRef spec0 w ≠ b) (c : Dev nD) :
    W6 (F := Ideal) m ρ c (Proc.devRef .tc b) = m ((c : Thread nD τ).loc b) :=
  (W6_of_ne m ρ c b hne).trans (W5_arg m ρ hb c)
/-- An argument's buffer at the second launch's exit. -/
theorem W8_arg {b : Ref sig .tc} (hb : b ∈ args) (hne0 : ∀ w, Pipeline.arrRef spec0 w ≠ b) (hne1 : ∀ w, Pipeline.arrRef spec1 w ≠ b)
    (c : Dev nD) : W8 (F := Ideal) m ρ c (Proc.devRef .tc b) = m ((c : Thread nD τ).loc b) :=
  (W8_of_ne m ρ c b hne1).trans ((keep_hostOps1 hb _).trans (W6_arg m ρ hb hne0 c))

/-! ## A slab of a stack of five -/

section Slabs
variable {α : Type} {N C : ℕ}

/-- Slab 0 of five arrays stacked under a leading axis is the first of them. -/
theorem slab0 (dims : Fin 2 → Fin 3) (hd : dims = ![1, 2])
    (hb : (⟨2, ![N, C]⟩ : Shape).BroadcastsInDim ⟨3, ![1, N, C]⟩ dims) (T0 T1 T2 T3 T4 : (⟨2, ![N, C]⟩ : Shape).Idx → α)
    (h : Shape.Concatenates (([⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] : List ((s : Shape) × (s.Idx → α))).map (·.1)) ⟨3, ![5, N, C]⟩ 0)
    (p : Fin N) (j : Fin C) :
    concatenate ⟨3, ![5, N, C]⟩ 0 [⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] h (ix3 (0 : Fin 5) p j) = T0 (ix2 p j) :=
  stack5_apply dims hd hb T0 T1 T2 T3 T4 h (0 : Fin 5) p j
/-- Slab 1 of five arrays stacked under a leading axis is the second of them. -/
theorem slab1 (dims : Fin 2 → Fin 3) (hd : dims = ![1, 2])
    (hb : (⟨2, ![N, C]⟩ : Shape).BroadcastsInDim ⟨3, ![1, N, C]⟩ dims) (T0 T1 T2 T3 T4 : (⟨2, ![N, C]⟩ : Shape).Idx → α)
    (h : Shape.Concatenates (([⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] : List ((s : Shape) × (s.Idx → α))).map (·.1)) ⟨3, ![5, N, C]⟩ 0)
    (p : Fin N) (j : Fin C) :
    concatenate ⟨3, ![5, N, C]⟩ 0 [⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] h (ix3 (1 : Fin 5) p j) = T1 (ix2 p j) :=
  stack5_apply dims hd hb T0 T1 T2 T3 T4 h (1 : Fin 5) p j
/-- Slab 2 of five arrays stacked under a leading axis is the third of them. -/
theorem slab2 (dims : Fin 2 → Fin 3) (hd : dims = ![1, 2])
    (hb : (⟨2, ![N, C]⟩ : Shape).BroadcastsInDim ⟨3, ![1, N, C]⟩ dims) (T0 T1 T2 T3 T4 : (⟨2, ![N, C]⟩ : Shape).Idx → α)
    (h : Shape.Concatenates (([⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] : List ((s : Shape) × (s.Idx → α))).map (·.1)) ⟨3, ![5, N, C]⟩ 0)
    (p : Fin N) (j : Fin C) :
    concatenate ⟨3, ![5, N, C]⟩ 0 [⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] h (ix3 (2 : Fin 5) p j) = T2 (ix2 p j) :=
  stack5_apply dims hd hb T0 T1 T2 T3 T4 h (2 : Fin 5) p j
/-- Slab 3 of five arrays stacked under a leading axis is the fourth of them. -/
theorem slab3 (dims : Fin 2 → Fin 3) (hd : dims = ![1, 2])
    (hb : (⟨2, ![N, C]⟩ : Shape).BroadcastsInDim ⟨3, ![1, N, C]⟩ dims) (T0 T1 T2 T3 T4 : (⟨2, ![N, C]⟩ : Shape).Idx → α)
    (h : Shape.Concatenates (([⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] : List ((s : Shape) × (s.Idx → α))).map (·.1)) ⟨3, ![5, N, C]⟩ 0)
    (p : Fin N) (j : Fin C) :
    concatenate ⟨3, ![5, N, C]⟩ 0 [⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] h (ix3 (3 : Fin 5) p j) = T3 (ix2 p j) :=
  stack5_apply dims hd hb T0 T1 T2 T3 T4 h (3 : Fin 5) p j
/-- Slab 4 of five arrays stacked under a leading axis is the fifth of them. -/
theorem slab4 (dims : Fin 2 → Fin 3) (hd : dims = ![1, 2])
    (hb : (⟨2, ![N, C]⟩ : Shape).BroadcastsInDim ⟨3, ![1, N, C]⟩ dims) (T0 T1 T2 T3 T4 : (⟨2, ![N, C]⟩ : Shape).Idx → α)
    (h : Shape.Concatenates (([⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] : List ((s : Shape) × (s.Idx → α))).map (·.1)) ⟨3, ![5, N, C]⟩ 0)
    (p : Fin N) (j : Fin C) :
    concatenate ⟨3, ![5, N, C]⟩ 0 [⟨⟨3, ![1, N, C]⟩, broadcastInDim ⟨3, ![1, N, C]⟩ dims hb T0⟩, ⟨⟨3, ![1, N, C]⟩, broadcastInDim ⟨3, ![1, N, C]⟩ dims hb T1⟩, ⟨⟨3, ![1, N, C]⟩, broadcastInDim ⟨3, ![1, N, C]⟩ dims hb T2⟩, ⟨⟨3, ![1, N, C]⟩, broadcastInDim ⟨3, ![1, N, C]⟩ dims hb T3⟩, ⟨⟨3, ![1, N, C]⟩, broadcastInDim ⟨3, ![1, N, C]⟩ dims hb T4⟩] h (ix3 (4 : Fin 5) p j) = T4 (ix2 p j) :=
  stack5_apply dims hd hb T0 T1 T2 T3 T4 h (4 : Fin 5) p j

end Slabs

/-! ## The first layer -/

/-- The edges' sources, targets and weights at the first launch's exit: the launch does not write them. -/
theorem W6_v1 (c : Dev nD) : W6 (F := Ideal) m ρ c (Proc.devRef .tc main_v1) = Cert.ReferenceIdeal.ReadP.val_main_v1 (F := Ideal) (A1 m c) :=
  (W6_of_ne m ρ c main_v1 (by decide)).trans (prefix_v1 (W0 m ρ c))
theorem W6_v3 (c : Dev nD) : W6 (F := Ideal) m ρ c (Proc.devRef .tc main_v3) = Cert.ReferenceIdeal.ReadP.val_main_v3 (F := Ideal) (A1 m c) :=
  (W6_of_ne m ρ c main_v3 (by decide)).trans (prefix_v3 (W0 m ρ c))
theorem W6_v31 (c : Dev nD) : W6 (F := Ideal) m ρ c (Proc.devRef .tc main_v31) = Cert.ReferenceIdeal.ReadP.val_main_v31 (F := Ideal) (A1 m c) (A2 m c) :=
  (W6_of_ne m ρ c main_v31 (by decide)).trans (prefix_v31 (W0 m ρ c))

/-- The five terms of the first recursion, stacked under a leading axis. -/
abbrev stack0 (c : Dev nD) :=
  concatenate S5x100000x10 0
    [⟨S1x100000x10, broadcastInDim S1x100000x10 ![1, 2] bcast_S100000x10_S1x100000x10_1_2 (A0 m c)⟩,
     ⟨S1x100000x10, broadcastInDim S1x100000x10 ![1, 2] bcast_S100000x10_S1x100000x10_1_2 (Cert.ReferenceIdeal.ReadP.val_main_v47 (F := Ideal) (A0 m c) (A1 m c) (A2 m c))⟩,
     ⟨S1x100000x10, broadcastInDim S1x100000x10 ![1, 2] bcast_S100000x10_S1x100000x10_1_2 (Cert.ReferenceIdeal.ReadP.val_main_v67 (F := Ideal) (A0 m c) (A1 m c) (A2 m c))⟩,
     ⟨S1x100000x10, broadcastInDim S1x100000x10 ![1, 2] bcast_S100000x10_S1x100000x10_1_2 (Cert.ReferenceIdeal.ReadP.val_main_v87 (F := Ideal) (A0 m c) (A1 m c) (A2 m c))⟩,
     ⟨S1x100000x10, broadcastInDim S1x100000x10 ![1, 2] bcast_S100000x10_S1x100000x10_1_2 (Cert.ReferenceIdeal.ReadP.val_main_v107 (F := Ideal) (A0 m c) (A1 m c) (A2 m c))⟩]
    concatenates_S1x100000x10_S1x100000x10_S1x100000x10_S1x100000x10_S1x100000x10_S5x100000x10_d0

/-- The first launch's output array is the reference's first layer. -/
theorem W6_v101 (c : Dev nD) :
    W6 (F := Ideal) m ρ c (Proc.devRef .tc main_v101) = Cert.ReferenceIdeal.ReadP.val_main_v115 (F := Ideal) (A0 m c) (A1 m c) (A2 m c) (A3 m c) (A4 m c) := by
  have hA : V5 (F := Ideal) m ρ c main_v99 = stack0 m c := prefix_v99 (W0 (F := Ideal) m ρ c)
  have h0 : ∀ (p : Fin 100000) (j : Fin 10), V5 (F := Ideal) m ρ c main_v99 (ix3 (0 : Fin 5) p j) = A0 m c (ix2 p j) :=
    fun p j => (congrFun hA (ix3 (0 : Fin 5) p j)).trans (slab0 _ rfl _ _ _ _ _ _ _ p j)
  have h1 : ∀ (p : Fin 100000) (j : Fin 10), V5 (F := Ideal) m ρ c main_v99 (ix3 (1 : Fin 5) p j) = Cert.ReferenceIdeal.ReadP.val_main_v47 (F := Ideal) (A0 m c) (A1 m c) (A2 m c) (ix2 p j) :=
    fun p j => (congrFun hA (ix3 (1 : Fin 5) p j)).trans (slab1 _ rfl _ _ _ _ _ _ _ p j)
  have h2 : ∀ (p : Fin 100000) (j : Fin 10), V5 (F := Ideal) m ρ c main_v99 (ix3 (2 : Fin 5) p j) = Cert.ReferenceIdeal.ReadP.val_main_v67 (F := Ideal) (A0 m c) (A1 m c) (A2 m c) (ix2 p j) :=
    fun p j => (congrFun hA (ix3 (2 : Fin 5) p j)).trans (slab2 _ rfl _ _ _ _ _ _ _ p j)
  have h3 : ∀ (p : Fin 100000) (j : Fin 10), V5 (F := Ideal) m ρ c main_v99 (ix3 (3 : Fin 5) p j) = Cert.ReferenceIdeal.ReadP.val_main_v87 (F := Ideal) (A0 m c) (A1 m c) (A2 m c) (ix2 p j) :=
    fun p j => (congrFun hA (ix3 (3 : Fin 5) p j)).trans (slab3 _ rfl _ _ _ _ _ _ _ p j)
  have h4 : ∀ (p : Fin 100000) (j : Fin 10), V5 (F := Ideal) m ρ c main_v99 (ix3 (4 : Fin 5) p j) = Cert.ReferenceIdeal.ReadP.val_main_v107 (F := Ideal) (A0 m c) (A1 m c) (A2 m c) (ix2 p j) :=
    fun p j => (congrFun hA (ix3 (4 : Fin 5) p j)).trans (slab4 _ rfl _ _ _ _ _ _ _ p j)
  have hW : V5 (F := Ideal) m ρ c main_v100 = A3 m c := prefix_v100 (W0 (F := Ideal) m ρ c)
  have hb : V5 (F := Ideal) m ρ c main_arg4 = A4 m c := prefix_arg4 (W0 (F := Ideal) m ρ c)
  exact (W6_arr m ρ c 3).trans ((final0 (V5 (F := Ideal) m ρ) c).trans
    (region0_eq (A0 m c) (A1 m c) (A2 m c) (A3 m c) (A4 m c) _ _ _ h0 h1 h2 h3 h4 hW hb))

/-! ## The second layer -/

/-- The five terms of the second recursion, stacked under a leading axis. -/
abbrev stack1 (c : Dev nD) :=
  concatenate S5x100000x30 0
    [⟨S1x100000x30, broadcastInDim S1x100000x30 ![1, 2] bcast_S100000x30_S1x100000x30_1_2 (Cert.ReferenceIdeal.ReadP.val_main_v115 (F := Ideal) (A0 m c) (A1 m c) (A2 m c) (A3 m c) (A4 m c))⟩,
     ⟨S1x100000x30, broadcastInDim S1x100000x30 ![1, 2] bcast_S100000x30_S1x100000x30_1_2 (Cert.ReferenceIdeal.ReadP.val_main_v131 (F := Ideal) (A0 m c) (A1 m c) (A2 m c) (A3 m c) (A4 m c))⟩,
     ⟨S1x100000x30, broadcastInDim S1x100000x30 ![1, 2] bcast_S100000x30_S1x100000x30_1_2 (Cert.ReferenceIdeal.ReadP.val_main_v151 (F := Ideal) (A0 m c) (A1 m c) (A2 m c) (A3 m c) (A4 m c))⟩,
     ⟨S1x100000x30, broadcastInDim S1x100000x30 ![1, 2] bcast_S100000x30_S1x100000x30_1_2 (Cert.ReferenceIdeal.ReadP.val_main_v171 (F := Ideal) (A0 m c) (A1 m c) (A2 m c) (A3 m c) (A4 m c))⟩,
     ⟨S1x100000x30, broadcastInDim S1x100000x30 ![1, 2] bcast_S100000x30_S1x100000x30_1_2 (Cert.ReferenceIdeal.ReadP.val_main_v191 (F := Ideal) (A0 m c) (A1 m c) (A2 m c) (A3 m c) (A4 m c))⟩]
    concatenates_S1x100000x30_S1x100000x30_S1x100000x30_S1x100000x30_S1x100000x30_S5x100000x30_d0

/-- The second launch's output array is the reference's second layer. -/
theorem W8_v171 (c : Dev nD) :
    W8 (F := Ideal) m ρ c (Proc.devRef .tc main_v171) = Cert.ReferenceIdeal.ReadP.val_main_v199 (F := Ideal) (A0 m c) (A1 m c) (A2 m c) (A3 m c) (A4 m c) (A5 m c) (A6 m c) := by
  obtain ⟨hA0, hWt, hbias⟩ := middle_read (W6 (F := Ideal) m ρ c) (A0 m c) (A1 m c) (A2 m c) (A3 m c) (A4 m c) (W6_v101 m ρ c) (W6_v1 m ρ c) (W6_v3 m ρ c) (W6_v31 m ρ c)
  have hA : V7 (F := Ideal) m ρ c main_v169 = stack1 m c := hA0
  have h0 : ∀ (p : Fin 100000) (j : Fin 30), V7 (F := Ideal) m ρ c main_v169 (ix3 (0 : Fin 5) p j) = Cert.ReferenceIdeal.ReadP.val_main_v115 (F := Ideal) (A0 m c) (A1 m c) (A2 m c) (A3 m c) (A4 m c) (ix2 p j) :=
    fun p j => (congrFun hA (ix3 (0 : Fin 5) p j)).trans (slab0 _ rfl _ _ _ _ _ _ _ p j)
  have h1 : ∀ (p : Fin 100000) (j : Fin 30), V7 (F := Ideal) m ρ c main_v169 (ix3 (1 : Fin 5) p j) = Cert.ReferenceIdeal.ReadP.val_main_v131 (F := Ideal) (A0 m c) (A1 m c) (A2 m c) (A3 m c) (A4 m c) (ix2 p j) :=
    fun p j => (congrFun hA (ix3 (1 : Fin 5) p j)).trans (slab1 _ rfl _ _ _ _ _ _ _ p j)
  have h2 : ∀ (p : Fin 100000) (j : Fin 30), V7 (F := Ideal) m ρ c main_v169 (ix3 (2 : Fin 5) p j) = Cert.ReferenceIdeal.ReadP.val_main_v151 (F := Ideal) (A0 m c) (A1 m c) (A2 m c) (A3 m c) (A4 m c) (ix2 p j) :=
    fun p j => (congrFun hA (ix3 (2 : Fin 5) p j)).trans (slab2 _ rfl _ _ _ _ _ _ _ p j)
  have h3 : ∀ (p : Fin 100000) (j : Fin 30), V7 (F := Ideal) m ρ c main_v169 (ix3 (3 : Fin 5) p j) = Cert.ReferenceIdeal.ReadP.val_main_v171 (F := Ideal) (A0 m c) (A1 m c) (A2 m c) (A3 m c) (A4 m c) (ix2 p j) :=
    fun p j => (congrFun hA (ix3 (3 : Fin 5) p j)).trans (slab3 _ rfl _ _ _ _ _ _ _ p j)
  have h4 : ∀ (p : Fin 100000) (j : Fin 30), V7 (F := Ideal) m ρ c main_v169 (ix3 (4 : Fin 5) p j) = Cert.ReferenceIdeal.ReadP.val_main_v191 (F := Ideal) (A0 m c) (A1 m c) (A2 m c) (A3 m c) (A4 m c) (ix2 p j) :=
    fun p j => (congrFun hA (ix3 (4 : Fin 5) p j)).trans (slab4 _ rfl _ _ _ _ _ _ _ p j)
  have hW : V7 (F := Ideal) m ρ c main_v170 = A5 m c := hWt.trans (W6_arg m ρ (b := main_arg5) (by decide) (by decide) c)
  have hb : V7 (F := Ideal) m ρ c main_arg6 = A6 m c := hbias.trans (W6_arg m ρ (b := main_arg6) (by decide) (by decide) c)
  exact (W8_arr m ρ c 3).trans ((final1 (V7 (F := Ideal) m ρ) c).trans
    (region1_eq (A0 m c) (A1 m c) (A2 m c) (A3 m c) (A4 m c) (A5 m c) (A6 m c) _ _ _ h0 h1 h2 h3 h4 hW hb))

/-! ## The result -/

/-- The result buffer at the end is the reference's last stage of the arguments as launched. -/
theorem result_eq (c : Dev nD) :
    W10 (F := Ideal) m ρ c (Proc.devRef .tc main_v176)
      = Cert.ReferenceIdeal.ReadP.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hA : V9 (F := Ideal) m ρ c main_v173
      = broadcastInDim S1x100000x30 ![1, 2] bcast_S100000x30_S1x100000x30_1_2 (W8 (F := Ideal) m ρ c (Proc.devRef .tc main_v171)) :=
    last_v173 (W8 (F := Ideal) m ρ c)
  have hWt : V9 (F := Ideal) m ρ c main_v175
      = broadcastInDim S1x30x4 ![1, 2] bcast_S30x4_S1x30x4_1_2 (W8 (F := Ideal) m ρ c (Proc.devRef .tc main_arg7)) :=
    last_v175 (W8 (F := Ideal) m ρ c)
  have hbias := last_arg8 (W8 (F := Ideal) m ρ c)
  have h0 : ∀ (p : Fin 100000) (j : Fin 30), V9 (F := Ideal) m ρ c main_v173 (ix3 (0 : Fin 1) p j) = Cert.ReferenceIdeal.ReadP.val_main_v199 (F := Ideal) (A0 m c) (A1 m c) (A2 m c) (A3 m c) (A4 m c) (A5 m c) (A6 m c) (ix2 p j) :=
    fun p j => (congrFun hA (ix3 (0 : Fin 1) p j)).trans ((unit_layer_apply _ rfl _ _ (0 : Fin 1) p j).trans (congrFun (W8_v171 m ρ c) (ix2 p j)))
  have hW : ∀ (j : Fin 30) (q : Fin 4), V9 (F := Ideal) m ρ c main_v175 (ix3 (0 : Fin 1) j q) = A7 m c (ix2 j q) :=
    fun j q => (congrFun hWt (ix3 (0 : Fin 1) j q)).trans ((unit_layer_apply _ rfl _ _ (0 : Fin 1) j q).trans
      (congrFun (W8_arg m ρ (b := main_arg7) (by decide) (by decide) (by decide) c) (ix2 j q)))
  have hb : V9 (F := Ideal) m ρ c main_arg8 = A8 m c := hbias.trans (W8_arg m ρ (b := main_arg8) (by decide) (by decide) (by decide) c)
  exact (W10_arr m ρ c 3).trans ((final2 (V9 (F := Ideal) m ρ) c).trans
    (region2_eq (A0 m c) (A1 m c) (A2 m c) (A3 m c) (A4 m c) (A5 m c) (A6 m c) (A7 m c) (A8 m c) _ _ _ h0 hW hb))

/-! ## The run -/

/-- From any memory with zero counters, every weakly fair execution of the program on the TensorCores terminates,
    nothing faulting; every final state has the result buffer at the reference's last stage of the launch contents of
    the arguments, and the nine argument arrays as launched. -/
theorem run : θ_run defs (onTc (τ := τ) (main (F := Ideal))) ⟨m, fun _ => 0, ρ⟩ (fun r => ∀ c : Dev nD,
      r.2.mem ((c.tc : Thread nD τ).loc main_v176)
        = Cert.ReferenceIdeal.ReadP.val_main_v203 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨ (h c _ (mem_uc main_v176 (by decide))).trans (result_eq m ρ c),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c) ⟩) (run_all (F := Ideal) m ρ)

end Cert.KernelIdeal.Val

end
-- ==== Proof.RefRunPieces.lean ====
import proofs.«140782_j81638738363109_1_alg».proof.Proof.RefRunP
import proofs.«140782_j81638738363109_1_alg».proof.Proof.RefReadP

/-!
# The reference's fold of operations, read back in pieces

The reference program is a straight line of 251 host operations. Its contents after the run are the fold
`StableHlo.after` of the operations' results over the launch contents. Here the line is cut into twelve consecutive
pieces at points where few values are still needed later (the edge indices, the edge normalisation, and the last
two Chebyshev terms with the running sum), and for each piece, over ARBITRARY starting contents `W`:

* `keepK`: a buffer that no operation of the piece writes holds after the piece what it held before;
* `stepK`: if `W` holds, at each buffer the piece reads from before it, that value's stage function of the
  arguments, then after the piece each buffer it writes that is read later holds its stage function.

A stage function is one operation applied to earlier stage functions, so once the fold is computed at a buffer
and the hypotheses are substituted, both sides are the same term up to unfolding the stages' definitions.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- The fold of a literal line of operations read at a buffer, as one simp pass: at each operation first try to
    step over it (it does not write the buffer: the references differ, by computation), and only where that fails
    take the operation's own result. -/
macro "after_at" : tactic =>
  `(tactic| (simp (disch := decide) only [after_cons, after_nil,
      ↓ nullary_result_ne', ↓ unary_result_ne', ↓ binary_result_ne', ↓ ternary_result_ne', ↓ reshape_result_ne',
      nullary_result', unary_result', binary_result', ternary_result', reshape_result']))

/-! ### Operations 0 to 23 -/

noncomputable abbrev ops0 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_v1 main_v3 main_v4 (cmpi .eq : (⟨S3200000, .i32⟩ : BufTy).Contents (Elt F) → (⟨S3200000, .i32⟩ : BufTy).Contents (Elt F) → (⟨S3200000, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S3200000, .f32⟩) main_call0_v1) (broadcastInDim S3200000 ![] bcast_S_S3200000),
    TRef.ternary (TRef.of (T := ⟨S3200000, .i1⟩) main_v4) (TRef.of (T := ⟨S3200000, .f32⟩) main_call0_v1) (TRef.of (T := ⟨S3200000, .f32⟩) main_arg2) (TRef.of (T := ⟨S3200000, .f32⟩) main_v5) select,
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v1 main_v7 (broadcastInDim S3200000x1 ![0] bcast_S3200000_S3200000x1_0 : (⟨S3200000, .i32⟩ : BufTy).Contents (Elt F) → (⟨S3200000x1, .i32⟩ : BufTy).Contents (Elt F)),
    ternary main_v6 main_v7 main_v5 main_v8 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x0DA24260#32),
    unary main_cst_2 main_v11 (broadcastInDim S100000 ![] bcast_S_S100000 : (⟨S_, .f32⟩ : BufTy).Contents (Elt F) → (⟨S100000, .f32⟩ : BufTy).Contents (Elt F)),
    binary main_v8 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v10) (TRef.of (T := ⟨S100000, .f32⟩) main_v13) (TRef.of (T := ⟨S100000, .f32⟩) main_call1_v1) (TRef.of (T := ⟨S100000, .f32⟩) main_v14) select ]

/-- A buffer that is the result of none of these operations is as before them. -/
theorem keep0 (W : Valuation τ sig (Elt F)) (b : Ref sig .tc)
    (hb : b ∉ [main_v0, main_v1, main_v2, main_v3, main_v4, main_cst, main_call0_v0, main_call0_v1, main_v5, main_cst_0, main_v6, main_v7, main_v8, main_cst_1, main_v9, main_v10, main_cst_2, main_v11, main_v12, main_v13, main_cst_3, main_call1_v0, main_call1_v1, main_v14]) :
    after (ops0 (F := F)) W (Proc.devRef .tc b) = W (Proc.devRef .tc b) :=
  after_of_forall_not_mem (b := Proc.devRef .tc b) _ _ (List.forall_iff_forall_mem.mp (by
    simp only [ops0, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step0 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg1 : W (Proc.devRef .tc main_arg1) = x1)
    (h_arg2 : W (Proc.devRef .tc main_arg2) = x2)
    :
    after ops0 W (Proc.devRef .tc main_v1) = ReadP.val_main_v1 (F := F) x1
    ∧ after ops0 W (Proc.devRef .tc main_v3) = ReadP.val_main_v3 (F := F) x1
    ∧ after ops0 W (Proc.devRef .tc main_v5) = ReadP.val_main_v5 (F := F) x1 x2
    ∧ after ops0 W (Proc.devRef .tc main_v14) = ReadP.val_main_v14 (F := F) x1 x2 := by
  after_at
  refine ⟨?_, ?_, ?_, ?_⟩
  · rw [h_arg1]; rfl
  · rw [h_arg1]; rfl
  · rw [h_arg1, h_arg2]; rfl
  · rw [h_arg1, h_arg2]; rfl

/-! ### Operations 24 to 44 -/

noncomputable abbrev ops1 : List (HloOp τ sig (Elt F)) :=
  [ nullary main_c (constantI S_ 32 0#32),
    unary main_c main_v15 (broadcastInDim S3200000 ![] bcast_S_S3200000 : (⟨S_, .i32⟩ : BufTy).Contents (Elt F) → (⟨S3200000, .i32⟩ : BufTy).Contents (Elt F)),
    binary main_v1 main_v15 main_v16 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v17 (broadcastInDim S3200000 ![] bcast_S_S3200000 : (⟨S_, .i32⟩ : BufTy).Contents (Elt F) → (⟨S3200000, .i32⟩ : BufTy).Contents (Elt F)),
    binary main_v1 main_v17 main_v18 (addi : (⟨S3200000, .i32⟩ : BufTy).Contents (Elt F) → (⟨S3200000, .i32⟩ : BufTy).Contents (Elt F) → (⟨S3200000, .i32⟩ : BufTy).Contents (Elt F)),
    ternary main_v16 main_v18 main_v1 main_v19 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v19 main_v20 (broadcastInDim S3200000x1 ![0] bcast_S3200000_S3200000x1_0 : (⟨S3200000, .i32⟩ : BufTy).Contents (Elt F) → (⟨S3200000x1, .i32⟩ : BufTy).Contents (Elt F)),
    binary main_v14 main_v20 main_v21 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    unary main_v21 main_v22 (Host.negf : (⟨S3200000, .f32⟩ : BufTy).Contents (Elt F) → (⟨S3200000, .f32⟩ : BufTy).Contents (Elt F)),
    binary main_v22 main_v5 main_v23 (mulf : (⟨S3200000, .f32⟩ : BufTy).Contents (Elt F) → (⟨S3200000, .f32⟩ : BufTy).Contents (Elt F) → (⟨S3200000, .f32⟩ : BufTy).Contents (Elt F)),
    nullary main_c_5 (constantI S_ 32 0#32),
    unary main_c_5 main_v24 (broadcastInDim S3200000 ![] bcast_S_S3200000 : (⟨S_, .i32⟩ : BufTy).Contents (Elt F) → (⟨S3200000, .i32⟩ : BufTy).Contents (Elt F)),
    binary main_v3 main_v24 main_v25 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v26 (broadcastInDim S3200000 ![] bcast_S_S3200000 : (⟨S_, .i32⟩ : BufTy).Contents (Elt F) → (⟨S3200000, .i32⟩ : BufTy).Contents (Elt F)),
    binary main_v3 main_v26 main_v27 (addi : (⟨S3200000, .i32⟩ : BufTy).Contents (Elt F) → (⟨S3200000, .i32⟩ : BufTy).Contents (Elt F) → (⟨S3200000, .i32⟩ : BufTy).Contents (Elt F)),
    ternary main_v25 main_v27 main_v3 main_v28 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v28 main_v29 (broadcastInDim S3200000x1 ![0] bcast_S3200000_S3200000x1_0 : (⟨S3200000, .i32⟩ : BufTy).Contents (Elt F) → (⟨S3200000x1, .i32⟩ : BufTy).Contents (Elt F)),
    binary main_v14 main_v29 main_v30 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v23 main_v30 main_v31 (mulf : (⟨S3200000, .f32⟩ : BufTy).Contents (Elt F) → (⟨S3200000, .f32⟩ : BufTy).Contents (Elt F) → (⟨S3200000, .f32⟩ : BufTy).Contents (Elt F)) ]

/-- A buffer that is the result of none of these operations is as before them. -/
theorem keep1 (W : Valuation τ sig (Elt F)) (b : Ref sig .tc)
    (hb : b ∉ [main_c, main_v15, main_v16, main_c_4, main_v17, main_v18, main_v19, main_v20, main_v21, main_v22, main_v23, main_c_5, main_v24, main_v25, main_c_6, main_v26, main_v27, main_v28, main_v29, main_v30, main_v31]) :
    after (ops1 (F := F)) W (Proc.devRef .tc b) = W (Proc.devRef .tc b) :=
  after_of_forall_not_mem (b := Proc.devRef .tc b) _ _ (List.forall_iff_forall_mem.mp (by
    simp only [ops1, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step1 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_v1 : W (Proc.devRef .tc main_v1) = ReadP.val_main_v1 (F := F) x1)
    (h_v3 : W (Proc.devRef .tc main_v3) = ReadP.val_main_v3 (F := F) x1)
    (h_v5 : W (Proc.devRef .tc main_v5) = ReadP.val_main_v5 (F := F) x1 x2)
    (h_v14 : W (Proc.devRef .tc main_v14) = ReadP.val_main_v14 (F := F) x1 x2)
    :
    after ops1 W (Proc.devRef .tc main_v31) = ReadP.val_main_v31 (F := F) x1 x2 := by
  after_at
  rw [h_v1, h_v3, h_v5, h_v14]; rfl

/-! ### Operations 45 to 67 -/

noncomputable abbrev ops2 : List (HloOp τ sig (Elt F)) :=
  [ unary main_arg3 main_v32 ((extractStridedSlice S1x10x30 ![0, 0, 0] · slices_S5x10x30_S1x10x30_0_0_0) : (⟨S5x10x30, .f32⟩ : BufTy).Contents (Elt F) → (⟨S1x10x30, .f32⟩ : BufTy).Contents (Elt F)),
    reshape main_v32 main_v33 rfl shapeCasts_S1x10x30_S10x30,
    binary main_arg0 main_v33 main_v34 ((fun l r => Host.dotGeneral dot_S100000x10_S10x30_S100000x30_1_0_0_1_n_n none l r) : (⟨S100000x10, .f32⟩ : BufTy).Contents (Elt F) → (⟨S10x30, .f32⟩ : BufTy).Contents (Elt F) → (⟨S100000x30, .f32⟩ : BufTy).Contents (Elt F)),
    nullary main_c_7 (constantI S_ 32 0#32),
    unary main_c_7 main_v35 (broadcastInDim S3200000 ![] bcast_S_S3200000 : (⟨S_, .i32⟩ : BufTy).Contents (Elt F) → (⟨S3200000, .i32⟩ : BufTy).Contents (Elt F)),
    binary main_v1 main_v35 main_v36 (cmpi .slt : (⟨S3200000, .i32⟩ : BufTy).Contents (Elt F) → (⟨S3200000, .i32⟩ : BufTy).Contents (Elt F) → (⟨S3200000, .i1⟩ : BufTy).Contents (Elt F)),
    nullary main_c_8 (constantI S_ 32 100000#32),
    unary main_c_8 main_v37 (broadcastInDim S3200000 ![] bcast_S_S3200000 : (⟨S_, .i32⟩ : BufTy).Contents (Elt F) → (⟨S3200000, .i32⟩ : BufTy).Contents (Elt F)),
    binary main_v1 main_v37 main_v38 (addi : (⟨S3200000, .i32⟩ : BufTy).Contents (Elt F) → (⟨S3200000, .i32⟩ : BufTy).Contents (Elt F) → (⟨S3200000, .i32⟩ : BufTy).Contents (Elt F)),
    ternary main_v36 main_v38 main_v1 main_v39 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v39 main_v40 (broadcastInDim S3200000x1 ![0] bcast_S3200000_S3200000x1_0 : (⟨S3200000, .i32⟩ : BufTy).Contents (Elt F) → (⟨S3200000x1, .i32⟩ : BufTy).Contents (Elt F)),
    binary main_arg0 main_v40 main_v41 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),
    unary main_v31 main_v42 (broadcastInDim S3200000x1 ![0] bcast_S3200000_S3200000x1_0 : (⟨S3200000, .f32⟩ : BufTy).Contents (Elt F) → (⟨S3200000x1, .f32⟩ : BufTy).Contents (Elt F)),
    unary main_v42 main_v43 (broadcastInDim S3200000x10 ![0, 1] bcast_S3200000x1_S3200000x10_0_1 : (⟨S3200000x1, .f32⟩ : BufTy).Contents (Elt F) → (⟨S3200000x10, .f32⟩ : BufTy).Contents (Elt F)),
    binary main_v41 main_v43 main_v44 (mulf : (⟨S3200000x10, .f32⟩ : BufTy).Contents (Elt F) → (⟨S3200000x10, .f32⟩ : BufTy).Contents (Elt F) → (⟨S3200000x10, .f32⟩ : BufTy).Contents (Elt F)),
    nullary main_cst_9 (constant S_ .f32 0x00000000#32),
    unary main_cst_9 main_v45 (broadcastInDim S100000x10 ![] bcast_S_S100000x10 : (⟨S_, .f32⟩ : BufTy).Contents (Elt F) → (⟨S100000x10, .f32⟩ : BufTy).Contents (Elt F)),
    unary main_v3 main_v46 (broadcastInDim S3200000x1 ![0] bcast_S3200000_S3200000x1_0 : (⟨S3200000, .i32⟩ : BufTy).Contents (Elt F) → (⟨S3200000x1, .i32⟩ : BufTy).Contents (Elt F)),
    ternary main_v45 main_v46 main_v44 main_v47 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),
    unary main_arg3 main_v48 ((extractStridedSlice S1x10x30 ![1, 0, 0] · slices_S5x10x30_S1x10x30_1_0_0) : (⟨S5x10x30, .f32⟩ : BufTy).Contents (Elt F) → (⟨S1x10x30, .f32⟩ : BufTy).Contents (Elt F)),
    reshape main_v48 main_v49 rfl shapeCasts_S1x10x30_S10x30,
    binary main_v47 main_v49 main_v50 ((fun l r => Host.dotGeneral dot_S100000x10_S10x30_S100000x30_1_0_0_1_n_n none l r) : (⟨S100000x10, .f32⟩ : BufTy).Contents (Elt F) → (⟨S10x30, .f32⟩ : BufTy).Contents (Elt F) → (⟨S100000x30, .f32⟩ : BufTy).Contents (Elt F)),
    binary main_v34 main_v50 main_v51 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep2 (W : Valuation τ sig (Elt F)) (b : Ref sig .tc)
    (hb : b ∉ [main_v32, main_v33, main_v34, main_c_7, main_v35, main_v36, main_c_8, main_v37, main_v38, main_v39, main_v40, main_v41, main_v42, main_v43, main_v44, main_cst_9, main_v45, main_v46, main_v47, main_v48, main_v49, main_v50, main_v51]) :
    after (ops2 (F := F)) W (Proc.devRef .tc b) = W (Proc.devRef .tc b) :=
  after_of_forall_not_mem (b := Proc.devRef .tc b) _ _ (List.forall_iff_forall_mem.mp (by
    simp only [ops2, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step2 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg0 : W (Proc.devRef .tc main_arg0) = x0)
    (h_arg3 : W (Proc.devRef .tc main_arg3) = x3)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    :
    after ops2 W (Proc.devRef .tc main_v47) = ReadP.val_main_v47 (F := F) x0 x1 x2
    ∧ after ops2 W (Proc.devRef .tc main_v51) = ReadP.val_main_v51 (F := F) x0 x1 x2 x3 := by
  after_at
  refine ⟨?_, ?_⟩
  · rw [h_arg0, h_v1, h_v3, h_v31]; rfl
  · rw [h_arg0, h_arg3, h_v1, h_v3, h_v31]; rfl

/-! ### Operations 68 to 91 -/

noncomputable abbrev ops3 : List (HloOp τ sig (Elt F)) :=
  [ nullary main_c_10 (constantI S_ 32 0#32),
    unary main_c_10 main_v52 (broadcastInDim S3200000 ![] bcast_S_S3200000 : (⟨S_, .i32⟩ : BufTy).Contents (Elt F) → (⟨S3200000, .i32⟩ : BufTy).Contents (Elt F)),
    binary main_v1 main_v52 main_v53 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v54 (broadcastInDim S3200000 ![] bcast_S_S3200000 : (⟨S_, .i32⟩ : BufTy).Contents (Elt F) → (⟨S3200000, .i32⟩ : BufTy).Contents (Elt F)),
    binary main_v1 main_v54 main_v55 (addi : (⟨S3200000, .i32⟩ : BufTy).Contents (Elt F) → (⟨S3200000, .i32⟩ : BufTy).Contents (Elt F) → (⟨S3200000, .i32⟩ : BufTy).Contents (Elt F)),
    ternary main_v53 main_v55 main_v1 main_v56 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v56 main_v57 (broadcastInDim S3200000x1 ![0] bcast_S3200000_S3200000x1_0 : (⟨S3200000, .i32⟩ : BufTy).Contents (Elt F) → (⟨S3200000x1, .i32⟩ : BufTy).Contents (Elt F)),
    binary main_v47 main_v57 main_v58 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),
    unary main_v31 main_v59 (broadcastInDim S3200000x1 ![0] bcast_S3200000_S3200000x1_0 : (⟨S3200000, .f32⟩ : BufTy).Contents (Elt F) → (⟨S3200000x1, .f32⟩ : BufTy).Contents (Elt F)),
    unary main_v59 main_v60 (broadcastInDim S3200000x10 ![0, 1] bcast_S3200000x1_S3200000x10_0_1 : (⟨S3200000x1, .f32⟩ : BufTy).Contents (Elt F) → (⟨S3200000x10, .f32⟩ : BufTy).Contents (Elt F)),
    binary main_v58 main_v60 main_v61 (mulf : (⟨S3200000x10, .f32⟩ : BufTy).Contents (Elt F) → (⟨S3200000x10, .f32⟩ : BufTy).Contents (Elt F) → (⟨S3200000x10, .f32⟩ : BufTy).Contents (Elt F)),
    nullary main_cst_12 (constant S_ .f32 0x00000000#32),
    unary main_cst_12 main_v62 (broadcastInDim S100000x10 ![] bcast_S_S100000x10 : (⟨S_, .f32⟩ : BufTy).Contents (Elt F) → (⟨S100000x10, .f32⟩ : BufTy).Contents (Elt F)),
    unary main_v3 main_v63 (broadcastInDim S3200000x1 ![0] bcast_S3200000_S3200000x1_0 : (⟨S3200000, .i32⟩ : BufTy).Contents (Elt F) → (⟨S3200000x1, .i32⟩ : BufTy).Contents (Elt F)),
    ternary main_v62 main_v63 main_v61 main_v64 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),
    nullary main_cst_13 (constant S_ .f32 0x40000000#32),
    unary main_cst_13 main_v65 (broadcastInDim S100000x10 ![] bcast_S_S100000x10 : (⟨S_, .f32⟩ : BufTy).Contents (Elt F) → (⟨S100000x10, .f32⟩ : BufTy).Contents (Elt F)),
    binary main_v65 main_v64 main_v66 (mulf : (⟨S100000x10, .f32⟩ : BufTy).Contents (Elt F) → (⟨S100000x10, .f32⟩ : BufTy).Contents (Elt F) → (⟨S100000x10, .f32⟩ : BufTy).Contents (Elt F)),
    binary main_v66 main_arg0 main_v67 (subf : (⟨S100000x10, .f32⟩ : BufTy).Contents (Elt F) → (⟨S100000x10, .f32⟩ : BufTy).Contents (Elt F) → (⟨S100000x10, .f32⟩ : BufTy).Contents (Elt F)),
    unary main_arg3 main_v68 ((extractStridedSlice S1x10x30 ![2, 0, 0] · slices_S5x10x30_S1x10x30_2_0_0) : (⟨S5x10x30, .f32⟩ : BufTy).Contents (Elt F) → (⟨S1x10x30, .f32⟩ : BufTy).Contents (Elt F)),
    reshape main_v68 main_v69 rfl shapeCasts_S1x10x30_S10x30,
    binary main_v67 main_v69 main_v70 ((fun l r => Host.dotGeneral dot_S100000x10_S10x30_S100000x30_1_0_0_1_n_n none l r) : (⟨S100000x10, .f32⟩ : BufTy).Contents (Elt F) → (⟨S10x30, .f32⟩ : BufTy).Contents (Elt F) → (⟨S100000x30, .f32⟩ : BufTy).Contents (Elt F)),
    binary main_v51 main_v70 main_v71 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep3 (W : Valuation τ sig (Elt F)) (b : Ref sig .tc)
    (hb : b ∉ [main_c_10, main_v52, main_v53, main_c_11, main_v54, main_v55, main_v56, main_v57, main_v58, main_v59, main_v60, main_v61, main_cst_12, main_v62, main_v63, main_v64, main_cst_13, main_v65, main_v66, main_v67, main_v68, main_v69, main_v70, main_v71]) :
    after (ops3 (F := F)) W (Proc.devRef .tc b) = W (Proc.devRef .tc b) :=
  after_of_forall_not_mem (b := Proc.devRef .tc b) _ _ (List.forall_iff_forall_mem.mp (by
    simp only [ops3, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step3 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg0 : W (Proc.devRef .tc main_arg0) = x0)
    (h_arg3 : W (Proc.devRef .tc main_arg3) = x3)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v47 : W (Proc.devRef .tc main_v47) = ReadP.val_main_v47 (F := F) x0 x1 x2)
    (h_v51 : W (Proc.devRef .tc main_v51) = ReadP.val_main_v51 (F := F) x0 x1 x2 x3)
    :
    after ops3 W (Proc.devRef .tc main_v67) = ReadP.val_main_v67 (F := F) x0 x1 x2
    ∧ after ops3 W (Proc.devRef .tc main_v71) = ReadP.val_main_v71 (F := F) x0 x1 x2 x3 := by
  after_at
  refine ⟨?_, ?_⟩
  · rw [h_arg0, h_v1, h_v3, h_v31, h_v47]; rfl
  · rw [h_arg0, h_arg3, h_v1, h_v3, h_v31, h_v47, h_v51]; rfl

/-! ### Operations 92 to 115 -/

noncomputable abbrev ops4 : List (HloOp τ sig (Elt F)) :=
  [ nullary main_c_14 (constantI S_ 32 0#32),
    unary main_c_14 main_v72 (broadcastInDim S3200000 ![] bcast_S_S3200000 : (⟨S_, .i32⟩ : BufTy).Contents (Elt F) → (⟨S3200000, .i32⟩ : BufTy).Contents (Elt F)),
    binary main_v1 main_v72 main_v73 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v74 (broadcastInDim S3200000 ![] bcast_S_S3200000 : (⟨S_, .i32⟩ : BufTy).Contents (Elt F) → (⟨S3200000, .i32⟩ : BufTy).Contents (Elt F)),
    binary main_v1 main_v74 main_v75 (addi : (⟨S3200000, .i32⟩ : BufTy).Contents (Elt F) → (⟨S3200000, .i32⟩ : BufTy).Contents (Elt F) → (⟨S3200000, .i32⟩ : BufTy).Contents (Elt F)),
    ternary main_v73 main_v75 main_v1 main_v76 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v76 main_v77 (broadcastInDim S3200000x1 ![0] bcast_S3200000_S3200000x1_0 : (⟨S3200000, .i32⟩ : BufTy).Contents (Elt F) → (⟨S3200000x1, .i32⟩ : BufTy).Contents (Elt F)),
    binary main_v67 main_v77 main_v78 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),
    unary main_v31 main_v79 (broadcastInDim S3200000x1 ![0] bcast_S3200000_S3200000x1_0 : (⟨S3200000, .f32⟩ : BufTy).Contents (Elt F) → (⟨S3200000x1, .f32⟩ : BufTy).Contents (Elt F)),
    unary main_v79 main_v80 (broadcastInDim S3200000x10 ![0, 1] bcast_S3200000x1_S3200000x10_0_1 : (⟨S3200000x1, .f32⟩ : BufTy).Contents (Elt F) → (⟨S3200000x10, .f32⟩ : BufTy).Contents (Elt F)),
    binary main_v78 main_v80 main_v81 (mulf : (⟨S3200000x10, .f32⟩ : BufTy).Contents (Elt F) → (⟨S3200000x10, .f32⟩ : BufTy).Contents (Elt F) → (⟨S3200000x10, .f32⟩ : BufTy).Contents (Elt F)),
    nullary main_cst_16 (constant S_ .f32 0x00000000#32),
    unary main_cst_16 main_v82 (broadcastInDim S100000x10 ![] bcast_S_S100000x10 : (⟨S_, .f32⟩ : BufTy).Contents (Elt F) → (⟨S100000x10, .f32⟩ : BufTy).Contents (Elt F)),
    unary main_v3 main_v83 (broadcastInDim S3200000x1 ![0] bcast_S3200000_S3200000x1_0 : (⟨S3200000, .i32⟩ : BufTy).Contents (Elt F) → (⟨S3200000x1, .i32⟩ : BufTy).Contents (Elt F)),
    ternary main_v82 main_v83 main_v81 main_v84 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),
    nullary main_cst_17 (constant S_ .f32 0x40000000#32),
    unary main_cst_17 main_v85 (broadcastInDim S100000x10 ![] bcast_S_S100000x10 : (⟨S_, .f32⟩ : BufTy).Contents (Elt F) → (⟨S100000x10, .f32⟩ : BufTy).Contents (Elt F)),
    binary main_v85 main_v84 main_v86 (mulf : (⟨S100000x10, .f32⟩ : BufTy).Contents (Elt F) → (⟨S100000x10, .f32⟩ : BufTy).Contents (Elt F) → (⟨S100000x10, .f32⟩ : BufTy).Contents (Elt F)),
    binary main_v86 main_v47 main_v87 (subf : (⟨S100000x10, .f32⟩ : BufTy).Contents (Elt F) → (⟨S100000x10, .f32⟩ : BufTy).Contents (Elt F) → (⟨S100000x10, .f32⟩ : BufTy).Contents (Elt F)),
    unary main_arg3 main_v88 ((extractStridedSlice S1x10x30 ![3, 0, 0] · slices_S5x10x30_S1x10x30_3_0_0) : (⟨S5x10x30, .f32⟩ : BufTy).Contents (Elt F) → (⟨S1x10x30, .f32⟩ : BufTy).Contents (Elt F)),
    reshape main_v88 main_v89 rfl shapeCasts_S1x10x30_S10x30,
    binary main_v87 main_v89 main_v90 ((fun l r => Host.dotGeneral dot_S100000x10_S10x30_S100000x30_1_0_0_1_n_n none l r) : (⟨S100000x10, .f32⟩ : BufTy).Contents (Elt F) → (⟨S10x30, .f32⟩ : BufTy).Contents (Elt F) → (⟨S100000x30, .f32⟩ : BufTy).Contents (Elt F)),
    binary main_v71 main_v90 main_v91 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep4 (W : Valuation τ sig (Elt F)) (b : Ref sig .tc)
    (hb : b ∉ [main_c_14, main_v72, main_v73, main_c_15, main_v74, main_v75, main_v76, main_v77, main_v78, main_v79, main_v80, main_v81, main_cst_16, main_v82, main_v83, main_v84, main_cst_17, main_v85, main_v86, main_v87, main_v88, main_v89, main_v90, main_v91]) :
    after (ops4 (F := F)) W (Proc.devRef .tc b) = W (Proc.devRef .tc b) :=
  after_of_forall_not_mem (b := Proc.devRef .tc b) _ _ (List.forall_iff_forall_mem.mp (by
    simp only [ops4, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step4 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg3 : W (Proc.devRef .tc main_arg3) = x3)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v47 : W (Proc.devRef .tc main_v47) = ReadP.val_main_v47 (F := F) x0 x1 x2)
    (h_v67 : W (Proc.devRef .tc main_v67) = ReadP.val_main_v67 (F := F) x0 x1 x2)
    (h_v71 : W (Proc.devRef .tc main_v71) = ReadP.val_main_v71 (F := F) x0 x1 x2 x3)
    :
    after ops4 W (Proc.devRef .tc main_v87) = ReadP.val_main_v87 (F := F) x0 x1 x2
    ∧ after ops4 W (Proc.devRef .tc main_v91) = ReadP.val_main_v91 (F := F) x0 x1 x2 x3 := by
  after_at
  refine ⟨?_, ?_⟩
  · rw [h_v1, h_v3, h_v31, h_v47, h_v67]; rfl
  · rw [h_arg3, h_v1, h_v3, h_v31, h_v47, h_v67, h_v71]; rfl

/-! ### Operations 116 to 139 -/

noncomputable abbrev ops5 : List (HloOp τ sig (Elt F)) :=
  [ nullary main_c_18 (constantI S_ 32 0#32),
    unary main_c_18 main_v92 (broadcastInDim S3200000 ![] bcast_S_S3200000 : (⟨S_, .i32⟩ : BufTy).Contents (Elt F) → (⟨S3200000, .i32⟩ : BufTy).Contents (Elt F)),
    binary main_v1 main_v92 main_v93 (cmpi .slt : (⟨S3200000, .i32⟩ : BufTy).Contents (Elt F) → (⟨S3200000, .i32⟩ : BufTy).Contents (Elt F) → (⟨S3200000, .i1⟩ : BufTy).Contents (Elt F)),
    nullary main_c_19 (constantI S_ 32 100000#32),
    unary main_c_19 main_v94 (broadcastInDim S3200000 ![] bcast_S_S3200000 : (⟨S_, .i32⟩ : BufTy).Contents (Elt F) → (⟨S3200000, .i32⟩ : BufTy).Contents (Elt F)),
    binary main_v1 main_v94 main_v95 (addi : (⟨S3200000, .i32⟩ : BufTy).Contents (Elt F) → (⟨S3200000, .i32⟩ : BufTy).Contents (Elt F) → (⟨S3200000, .i32⟩ : BufTy).Contents (Elt F)),
    ternary main_v93 main_v95 main_v1 main_v96 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v96 main_v97 (broadcastInDim S3200000x1 ![0] bcast_S3200000_S3200000x1_0 : (⟨S3200000, .i32⟩ : BufTy).Contents (Elt F) → (⟨S3200000x1, .i32⟩ : BufTy).Contents (Elt F)),
    binary main_v87 main_v97 main_v98 ((fun x i => Host.gather gather_S100000x10_S3200000x1_S3200000x10_1_0_n_n_0_1_110 x i) : (⟨S100000x10, .f32⟩ : BufTy).Contents (Elt F) → (⟨S3200000x1, .i32⟩ : BufTy).Contents (Elt F) → (⟨S3200000x10, .f32⟩ : BufTy).Contents (Elt F)),
    unary main_v31 main_v99 (broadcastInDim S3200000x1 ![0] bcast_S3200000_S3200000x1_0 : (⟨S3200000, .f32⟩ : BufTy).Contents (Elt F) → (⟨S3200000x1, .f32⟩ : BufTy).Contents (Elt F)),
    unary main_v99 main_v100 (broadcastInDim S3200000x10 ![0, 1] bcast_S3200000x1_S3200000x10_0_1 : (⟨S3200000x1, .f32⟩ : BufTy).Contents (Elt F) → (⟨S3200000x10, .f32⟩ : BufTy).Contents (Elt F)),
    binary main_v98 main_v100 main_v101 (mulf : (⟨S3200000x10, .f32⟩ : BufTy).Contents (Elt F) → (⟨S3200000x10, .f32⟩ : BufTy).Contents (Elt F) → (⟨S3200000x10, .f32⟩ : BufTy).Contents (Elt F)),
    nullary main_cst_20 (constant S_ .f32 0x00000000#32),
    unary main_cst_20 main_v102 (broadcastInDim S100000x10 ![] bcast_S_S100000x10 : (⟨S_, .f32⟩ : BufTy).Contents (Elt F) → (⟨S100000x10, .f32⟩ : BufTy).Contents (Elt F)),
    unary main_v3 main_v103 (broadcastInDim S3200000x1 ![0] bcast_S3200000_S3200000x1_0 : (⟨S3200000, .i32⟩ : BufTy).Contents (Elt F) → (⟨S3200000x1, .i32⟩ : BufTy).Contents (Elt F)),
    ternary main_v102 main_v103 main_v101 main_v104 ((fun x i u => Host.scatterAdd scatter_S100000x10_S3200000x1_S3200000x10_1_0_0_1 x i u) : (⟨S100000x10, .f32⟩ : BufTy).Contents (Elt F) → (⟨S3200000x1, .i32⟩ : BufTy).Contents (Elt F) → (⟨S3200000x10, .f32⟩ : BufTy).Contents (Elt F) → (⟨S100000x10, .f32⟩ : BufTy).Contents (Elt F)),
    nullary main_cst_21 (constant S_ .f32 0x40000000#32),
    unary main_cst_21 main_v105 (broadcastInDim S100000x10 ![] bcast_S_S100000x10 : (⟨S_, .f32⟩ : BufTy).Contents (Elt F) → (⟨S100000x10, .f32⟩ : BufTy).Contents (Elt F)),
    binary main_v105 main_v104 main_v106 (mulf : (⟨S100000x10, .f32⟩ : BufTy).Contents (Elt F) → (⟨S100000x10, .f32⟩ : BufTy).Contents (Elt F) → (⟨S100000x10, .f32⟩ : BufTy).Contents (Elt F)),
    binary main_v106 main_v67 main_v107 (subf : (⟨S100000x10, .f32⟩ : BufTy).Contents (Elt F) → (⟨S100000x10, .f32⟩ : BufTy).Contents (Elt F) → (⟨S100000x10, .f32⟩ : BufTy).Contents (Elt F)),
    unary main_arg3 main_v108 ((extractStridedSlice S1x10x30 ![4, 0, 0] · slices_S5x10x30_S1x10x30_4_0_0) : (⟨S5x10x30, .f32⟩ : BufTy).Contents (Elt F) → (⟨S1x10x30, .f32⟩ : BufTy).Contents (Elt F)),
    reshape main_v108 main_v109 rfl shapeCasts_S1x10x30_S10x30,
    binary main_v107 main_v109 main_v110 ((fun l r => Host.dotGeneral dot_S100000x10_S10x30_S100000x30_1_0_0_1_n_n none l r) : (⟨S100000x10, .f32⟩ : BufTy).Contents (Elt F) → (⟨S10x30, .f32⟩ : BufTy).Contents (Elt F) → (⟨S100000x30, .f32⟩ : BufTy).Contents (Elt F)),
    binary main_v91 main_v110 main_v111 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep5 (W : Valuation τ sig (Elt F)) (b : Ref sig .tc)
    (hb : b ∉ [main_c_18, main_v92, main_v93, main_c_19, main_v94, main_v95, main_v96, main_v97, main_v98, main_v99, main_v100, main_v101, main_cst_20, main_v102, main_v103, main_v104, main_cst_21, main_v105, main_v106, main_v107, main_v108, main_v109, main_v110, main_v111]) :
    after (ops5 (F := F)) W (Proc.devRef .tc b) = W (Proc.devRef .tc b) :=
  after_of_forall_not_mem (b := Proc.devRef .tc b) _ _ (List.forall_iff_forall_mem.mp (by
    simp only [ops5, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step5 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg3 : W (Proc.devRef .tc main_arg3) = x3)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v67 : W (Proc.devRef .tc main_v67) = ReadP.val_main_v67 (F := F) x0 x1 x2)
    (h_v87 : W (Proc.devRef .tc main_v87) = ReadP.val_main_v87 (F := F) x0 x1 x2)
    (h_v91 : W (Proc.devRef .tc main_v91) = ReadP.val_main_v91 (F := F) x0 x1 x2 x3)
    :
    after ops5 W (Proc.devRef .tc main_v111) = ReadP.val_main_v111 (F := F) x0 x1 x2 x3 := by
  after_at
  rw [h_arg3, h_v1, h_v3, h_v31, h_v67, h_v87, h_v91]; rfl

/-! ### Operations 140 to 148 -/

noncomputable abbrev ops6 : List (HloOp τ sig (Elt F)) :=
  [ unary main_arg4 main_v112 (broadcastInDim S1x30 ![1] bcast_S30_S1x30_1 : (⟨S30, .f32⟩ : BufTy).Contents (Elt F) → (⟨S1x30, .f32⟩ : BufTy).Contents (Elt F)),
    unary main_v112 main_v113 (broadcastInDim S100000x30 ![0, 1] bcast_S1x30_S100000x30_0_1 : (⟨S1x30, .f32⟩ : BufTy).Contents (Elt F) → (⟨S100000x30, .f32⟩ : BufTy).Contents (Elt F)),
    binary main_v111 main_v113 main_v114 (addf : (⟨S100000x30, .f32⟩ : BufTy).Contents (Elt F) → (⟨S100000x30, .f32⟩ : BufTy).Contents (Elt F) → (⟨S100000x30, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x30, .f32⟩) main_call2_v0) (broadcastInDim S100000x30 ![] bcast_S_S100000x30),
    TRef.binary (TRef.of (T := ⟨S100000x30, .f32⟩) main_v114) (TRef.of (T := ⟨S100000x30, .f32⟩) main_call2_v0) (TRef.of (T := ⟨S100000x30, .f32⟩) main_v115) maximumf,
    unary main_arg5 main_v116 ((extractStridedSlice S1x30x30 ![0, 0, 0] · slices_S5x30x30_S1x30x30_0_0_0) : (⟨S5x30x30, .f32⟩ : BufTy).Contents (Elt F) → (⟨S1x30x30, .f32⟩ : BufTy).Contents (Elt F)),
    reshape main_v116 main_v117 rfl shapeCasts_S1x30x30_S30x30,
    binary main_v115 main_v117 main_v118 ((fun l r => Host.dotGeneral dot_S100000x30_S30x30_S100000x30_1_0_0_1_n_n none l r) : (⟨S100000x30, .f32⟩ : BufTy).Contents (Elt F) → (⟨S30x30, .f32⟩ : BufTy).Contents (Elt F) → (⟨S100000x30, .f32⟩ : BufTy).Contents (Elt F)) ]

/-- A buffer that is the result of none of these operations is as before them. -/
theorem keep6 (W : Valuation τ sig (Elt F)) (b : Ref sig .tc)
    (hb : b ∉ [main_v112, main_v113, main_v114, main_call2_cst, main_call2_v0, main_v115, main_v116, main_v117, main_v118]) :
    after (ops6 (F := F)) W (Proc.devRef .tc b) = W (Proc.devRef .tc b) :=
  after_of_forall_not_mem (b := Proc.devRef .tc b) _ _ (List.forall_iff_forall_mem.mp (by
    simp only [ops6, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step6 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg4 : W (Proc.devRef .tc main_arg4) = x4)
    (h_arg5 : W (Proc.devRef .tc main_arg5) = x5)
    (h_v111 : W (Proc.devRef .tc main_v111) = ReadP.val_main_v111 (F := F) x0 x1 x2 x3)
    :
    after ops6 W (Proc.devRef .tc main_v115) = ReadP.val_main_v115 (F := F) x0 x1 x2 x3 x4
    ∧ after ops6 W (Proc.devRef .tc main_v118) = ReadP.val_main_v118 (F := F) x0 x1 x2 x3 x4 x5 := by
  after_at
  refine ⟨?_, ?_⟩
  · rw [h_arg4, h_v111]; rfl
  · rw [h_arg4, h_arg5, h_v111]; rfl

/-! ### Operations 149 to 168 -/

noncomputable abbrev ops7 : List (HloOp τ sig (Elt F)) :=
  [ nullary main_c_22 (constantI S_ 32 0#32),
    unary main_c_22 main_v119 (broadcastInDim S3200000 ![] bcast_S_S3200000 : (⟨S_, .i32⟩ : BufTy).Contents (Elt F) → (⟨S3200000, .i32⟩ : BufTy).Contents (Elt F)),
    binary main_v1 main_v119 main_v120 (cmpi .slt : (⟨S3200000, .i32⟩ : BufTy).Contents (Elt F) → (⟨S3200000, .i32⟩ : BufTy).Contents (Elt F) → (⟨S3200000, .i1⟩ : BufTy).Contents (Elt F)),
    nullary main_c_23 (constantI S_ 32 100000#32),
    unary main_c_23 main_v121 (broadcastInDim S3200000 ![] bcast_S_S3200000 : (⟨S_, .i32⟩ : BufTy).Contents (Elt F) → (⟨S3200000, .i32⟩ : BufTy).Contents (Elt F)),
    binary main_v1 main_v121 main_v122 (addi : (⟨S3200000, .i32⟩ : BufTy).Contents (Elt F) → (⟨S3200000, .i32⟩ : BufTy).Contents (Elt F) → (⟨S3200000, .i32⟩ : BufTy).Contents (Elt F)),
    ternary main_v120 main_v122 main_v1 main_v123 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v123 main_v124 (broadcastInDim S3200000x1 ![0] bcast_S3200000_S3200000x1_0 : (⟨S3200000, .i32⟩ : BufTy).Contents (Elt F) → (⟨S3200000x1, .i32⟩ : BufTy).Contents (Elt F)),
    binary main_v115 main_v124 main_v125 ((fun x i => Host.gather gather_S100000x30_S3200000x1_S3200000x30_1_0_n_n_0_1_130 x i) : (⟨S100000x30, .f32⟩ : BufTy).Contents (Elt F) → (⟨S3200000x1, .i32⟩ : BufTy).Contents (Elt F) → (⟨S3200000x30, .f32⟩ : BufTy).Contents (Elt F)),
    unary main_v31 main_v126 (broadcastInDim S3200000x1 ![0] bcast_S3200000_S3200000x1_0 : (⟨S3200000, .f32⟩ : BufTy).Contents (Elt F) → (⟨S3200000x1, .f32⟩ : BufTy).Contents (Elt F)),
    unary main_v126 main_v127 (broadcastInDim S3200000x30 ![0, 1] bcast_S3200000x1_S3200000x30_0_1 : (⟨S3200000x1, .f32⟩ : BufTy).Contents (Elt F) → (⟨S3200000x30, .f32⟩ : BufTy).Contents (Elt F)),
    binary main_v125 main_v127 main_v128 (mulf : (⟨S3200000x30, .f32⟩ : BufTy).Contents (Elt F) → (⟨S3200000x30, .f32⟩ : BufTy).Contents (Elt F) → (⟨S3200000x30, .f32⟩ : BufTy).Contents (Elt F)),
    nullary main_cst_24 (constant S_ .f32 0x00000000#32),
    unary main_cst_24 main_v129 (broadcastInDim S100000x30 ![] bcast_S_S100000x30 : (⟨S_, .f32⟩ : BufTy).Contents (Elt F) → (⟨S100000x30, .f32⟩ : BufTy).Contents (Elt F)),
    unary main_v3 main_v130 (broadcastInDim S3200000x1 ![0] bcast_S3200000_S3200000x1_0 : (⟨S3200000, .i32⟩ : BufTy).Contents (Elt F) → (⟨S3200000x1, .i32⟩ : BufTy).Contents (Elt F)),
    ternary main_v129 main_v130 main_v128 main_v131 ((fun x i u => Host.scatterAdd scatter_S100000x30_S3200000x1_S3200000x30_1_0_0_1 x i u) : (⟨S100000x30, .f32⟩ : BufTy).Contents (Elt F) → (⟨S3200000x1, .i32⟩ : BufTy).Contents (Elt F) → (⟨S3200000x30, .f32⟩ : BufTy).Contents (Elt F) → (⟨S100000x30, .f32⟩ : BufTy).Contents (Elt F)),
    unary main_arg5 main_v132 ((extractStridedSlice S1x30x30 ![1, 0, 0] · slices_S5x30x30_S1x30x30_1_0_0) : (⟨S5x30x30, .f32⟩ : BufTy).Contents (Elt F) → (⟨S1x30x30, .f32⟩ : BufTy).Contents (Elt F)),
    reshape main_v132 main_v133 rfl shapeCasts_S1x30x30_S30x30,
    binary main_v131 main_v133 main_v134 ((fun l r => Host.dotGeneral dot_S100000x30_S30x30_S100000x30_1_0_0_1_n_n none l r) : (⟨S100000x30, .f32⟩ : BufTy).Contents (Elt F) → (⟨S30x30, .f32⟩ : BufTy).Contents (Elt F) → (⟨S100000x30, .f32⟩ : BufTy).Contents (Elt F)),
    binary main_v118 main_v134 main_v135 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep7 (W : Valuation τ sig (Elt F)) (b : Ref sig .tc)
    (hb : b ∉ [main_c_22, main_v119, main_v120, main_c_23, main_v121, main_v122, main_v123, main_v124, main_v125, main_v126, main_v127, main_v128, main_cst_24, main_v129, main_v130, main_v131, main_v132, main_v133, main_v134, main_v135]) :
    after (ops7 (F := F)) W (Proc.devRef .tc b) = W (Proc.devRef .tc b) :=
  after_of_forall_not_mem (b := Proc.devRef .tc b) _ _ (List.forall_iff_forall_mem.mp (by
    simp only [ops7, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step7 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg5 : W (Proc.devRef .tc main_arg5) = x5)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v115 : W (Proc.devRef .tc main_v115) = ReadP.val_main_v115 (F := F) x0 x1 x2 x3 x4)
    (h_v118 : W (Proc.devRef .tc main_v118) = ReadP.val_main_v118 (F := F) x0 x1 x2 x3 x4 x5)
    :
    after ops7 W (Proc.devRef .tc main_v131) = ReadP.val_main_v131 (F := F) x0 x1 x2 x3 x4
    ∧ after ops7 W (Proc.devRef .tc main_v135) = ReadP.val_main_v135 (F := F) x0 x1 x2 x3 x4 x5 := by
  after_at
  refine ⟨?_, ?_⟩
  · rw [h_v1, h_v3, h_v31, h_v115]; rfl
  · rw [h_arg5, h_v1, h_v3, h_v31, h_v115, h_v118]; rfl

/-! ### Operations 169 to 192 -/

noncomputable abbrev ops8 : List (HloOp τ sig (Elt F)) :=
  [ nullary main_c_25 (constantI S_ 32 0#32),
    unary main_c_25 main_v136 (broadcastInDim S3200000 ![] bcast_S_S3200000 : (⟨S_, .i32⟩ : BufTy).Contents (Elt F) → (⟨S3200000, .i32⟩ : BufTy).Contents (Elt F)),
    binary main_v1 main_v136 main_v137 (cmpi .slt : (⟨S3200000, .i32⟩ : BufTy).Contents (Elt F) → (⟨S3200000, .i32⟩ : BufTy).Contents (Elt F) → (⟨S3200000, .i1⟩ : BufTy).Contents (Elt F)),
    nullary main_c_26 (constantI S_ 32 100000#32),
    unary main_c_26 main_v138 (broadcastInDim S3200000 ![] bcast_S_S3200000 : (⟨S_, .i32⟩ : BufTy).Contents (Elt F) → (⟨S3200000, .i32⟩ : BufTy).Contents (Elt F)),
    binary main_v1 main_v138 main_v139 (addi : (⟨S3200000, .i32⟩ : BufTy).Contents (Elt F) → (⟨S3200000, .i32⟩ : BufTy).Contents (Elt F) → (⟨S3200000, .i32⟩ : BufTy).Contents (Elt F)),
    ternary main_v137 main_v139 main_v1 main_v140 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v140 main_v141 (broadcastInDim S3200000x1 ![0] bcast_S3200000_S3200000x1_0 : (⟨S3200000, .i32⟩ : BufTy).Contents (Elt F) → (⟨S3200000x1, .i32⟩ : BufTy).Contents (Elt F)),
    binary main_v131 main_v141 main_v142 ((fun x i => Host.gather gather_S100000x30_S3200000x1_S3200000x30_1_0_n_n_0_1_130 x i) : (⟨S100000x30, .f32⟩ : BufTy).Contents (Elt F) → (⟨S3200000x1, .i32⟩ : BufTy).Contents (Elt F) → (⟨S3200000x30, .f32⟩ : BufTy).Contents (Elt F)),
    unary main_v31 main_v143 (broadcastInDim S3200000x1 ![0] bcast_S3200000_S3200000x1_0 : (⟨S3200000, .f32⟩ : BufTy).Contents (Elt F) → (⟨S3200000x1, .f32⟩ : BufTy).Contents (Elt F)),
    unary main_v143 main_v144 (broadcastInDim S3200000x30 ![0, 1] bcast_S3200000x1_S3200000x30_0_1 : (⟨S3200000x1, .f32⟩ : BufTy).Contents (Elt F) → (⟨S3200000x30, .f32⟩ : BufTy).Contents (Elt F)),
    binary main_v142 main_v144 main_v145 (mulf : (⟨S3200000x30, .f32⟩ : BufTy).Contents (Elt F) → (⟨S3200000x30, .f32⟩ : BufTy).Contents (Elt F) → (⟨S3200000x30, .f32⟩ : BufTy).Contents (Elt F)),
    nullary main_cst_27 (constant S_ .f32 0x00000000#32),
    unary main_cst_27 main_v146 (broadcastInDim S100000x30 ![] bcast_S_S100000x30 : (⟨S_, .f32⟩ : BufTy).Contents (Elt F) → (⟨S100000x30, .f32⟩ : BufTy).Contents (Elt F)),
    unary main_v3 main_v147 (broadcastInDim S3200000x1 ![0] bcast_S3200000_S3200000x1_0 : (⟨S3200000, .i32⟩ : BufTy).Contents (Elt F) → (⟨S3200000x1, .i32⟩ : BufTy).Contents (Elt F)),
    ternary main_v146 main_v147 main_v145 main_v148 ((fun x i u => Host.scatterAdd scatter_S100000x30_S3200000x1_S3200000x30_1_0_0_1 x i u) : (⟨S100000x30, .f32⟩ : BufTy).Contents (Elt F) → (⟨S3200000x1, .i32⟩ : BufTy).Contents (Elt F) → (⟨S3200000x30, .f32⟩ : BufTy).Contents (Elt F) → (⟨S100000x30, .f32⟩ : BufTy).Contents (Elt F)),
    nullary main_cst_28 (constant S_ .f32 0x40000000#32),
    unary main_cst_28 main_v149 (broadcastInDim S100000x30 ![] bcast_S_S100000x30 : (⟨S_, .f32⟩ : BufTy).Contents (Elt F) → (⟨S100000x30, .f32⟩ : BufTy).Contents (Elt F)),
    binary main_v149 main_v148 main_v150 (mulf : (⟨S100000x30, .f32⟩ : BufTy).Contents (Elt F) → (⟨S100000x30, .f32⟩ : BufTy).Contents (Elt F) → (⟨S100000x30, .f32⟩ : BufTy).Contents (Elt F)),
    binary main_v150 main_v115 main_v151 (subf : (⟨S100000x30, .f32⟩ : BufTy).Contents (Elt F) → (⟨S100000x30, .f32⟩ : BufTy).Contents (Elt F) → (⟨S100000x30, .f32⟩ : BufTy).Contents (Elt F)),
    unary main_arg5 main_v152 ((extractStridedSlice S1x30x30 ![2, 0, 0] · slices_S5x30x30_S1x30x30_2_0_0) : (⟨S5x30x30, .f32⟩ : BufTy).Contents (Elt F) → (⟨S1x30x30, .f32⟩ : BufTy).Contents (Elt F)),
    reshape main_v152 main_v153 rfl shapeCasts_S1x30x30_S30x30,
    binary main_v151 main_v153 main_v154 ((fun l r => Host.dotGeneral dot_S100000x30_S30x30_S100000x30_1_0_0_1_n_n none l r) : (⟨S100000x30, .f32⟩ : BufTy).Contents (Elt F) → (⟨S30x30, .f32⟩ : BufTy).Contents (Elt F) → (⟨S100000x30, .f32⟩ : BufTy).Contents (Elt F)),
    binary main_v135 main_v154 main_v155 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep8 (W : Valuation τ sig (Elt F)) (b : Ref sig .tc)
    (hb : b ∉ [main_c_25, main_v136, main_v137, main_c_26, main_v138, main_v139, main_v140, main_v141, main_v142, main_v143, main_v144, main_v145, main_cst_27, main_v146, main_v147, main_v148, main_cst_28, main_v149, main_v150, main_v151, main_v152, main_v153, main_v154, main_v155]) :
    after (ops8 (F := F)) W (Proc.devRef .tc b) = W (Proc.devRef .tc b) :=
  after_of_forall_not_mem (b := Proc.devRef .tc b) _ _ (List.forall_iff_forall_mem.mp (by
    simp only [ops8, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step8 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg5 : W (Proc.devRef .tc main_arg5) = x5)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v115 : W (Proc.devRef .tc main_v115) = ReadP.val_main_v115 (F := F) x0 x1 x2 x3 x4)
    (h_v131 : W (Proc.devRef .tc main_v131) = ReadP.val_main_v131 (F := F) x0 x1 x2 x3 x4)
    (h_v135 : W (Proc.devRef .tc main_v135) = ReadP.val_main_v135 (F := F) x0 x1 x2 x3 x4 x5)
    :
    after ops8 W (Proc.devRef .tc main_v151) = ReadP.val_main_v151 (F := F) x0 x1 x2 x3 x4
    ∧ after ops8 W (Proc.devRef .tc main_v155) = ReadP.val_main_v155 (F := F) x0 x1 x2 x3 x4 x5 := by
  after_at
  refine ⟨?_, ?_⟩
  · rw [h_v1, h_v3, h_v31, h_v115, h_v131]; rfl
  · rw [h_arg5, h_v1, h_v3, h_v31, h_v115, h_v131, h_v135]; rfl

/-! ### Operations 193 to 216 -/

noncomputable abbrev ops9 : List (HloOp τ sig (Elt F)) :=
  [ nullary main_c_29 (constantI S_ 32 0#32),
    unary main_c_29 main_v156 (broadcastInDim S3200000 ![] bcast_S_S3200000 : (⟨S_, .i32⟩ : BufTy).Contents (Elt F) → (⟨S3200000, .i32⟩ : BufTy).Contents (Elt F)),
    binary main_v1 main_v156 main_v157 (cmpi .slt : (⟨S3200000, .i32⟩ : BufTy).Contents (Elt F) → (⟨S3200000, .i32⟩ : BufTy).Contents (Elt F) → (⟨S3200000, .i1⟩ : BufTy).Contents (Elt F)),
    nullary main_c_30 (constantI S_ 32 100000#32),
    unary main_c_30 main_v158 (broadcastInDim S3200000 ![] bcast_S_S3200000 : (⟨S_, .i32⟩ : BufTy).Contents (Elt F) → (⟨S3200000, .i32⟩ : BufTy).Contents (Elt F)),
    binary main_v1 main_v158 main_v159 (addi : (⟨S3200000, .i32⟩ : BufTy).Contents (Elt F) → (⟨S3200000, .i32⟩ : BufTy).Contents (Elt F) → (⟨S3200000, .i32⟩ : BufTy).Contents (Elt F)),
    ternary main_v157 main_v159 main_v1 main_v160 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v160 main_v161 (broadcastInDim S3200000x1 ![0] bcast_S3200000_S3200000x1_0 : (⟨S3200000, .i32⟩ : BufTy).Contents (Elt F) → (⟨S3200000x1, .i32⟩ : BufTy).Contents (Elt F)),
    binary main_v151 main_v161 main_v162 ((fun x i => Host.gather gather_S100000x30_S3200000x1_S3200000x30_1_0_n_n_0_1_130 x i) : (⟨S100000x30, .f32⟩ : BufTy).Contents (Elt F) → (⟨S3200000x1, .i32⟩ : BufTy).Contents (Elt F) → (⟨S3200000x30, .f32⟩ : BufTy).Contents (Elt F)),
    unary main_v31 main_v163 (broadcastInDim S3200000x1 ![0] bcast_S3200000_S3200000x1_0 : (⟨S3200000, .f32⟩ : BufTy).Contents (Elt F) → (⟨S3200000x1, .f32⟩ : BufTy).Contents (Elt F)),
    unary main_v163 main_v164 (broadcastInDim S3200000x30 ![0, 1] bcast_S3200000x1_S3200000x30_0_1 : (⟨S3200000x1, .f32⟩ : BufTy).Contents (Elt F) → (⟨S3200000x30, .f32⟩ : BufTy).Contents (Elt F)),
    binary main_v162 main_v164 main_v165 (mulf : (⟨S3200000x30, .f32⟩ : BufTy).Contents (Elt F) → (⟨S3200000x30, .f32⟩ : BufTy).Contents (Elt F) → (⟨S3200000x30, .f32⟩ : BufTy).Contents (Elt F)),
    nullary main_cst_31 (constant S_ .f32 0x00000000#32),
    unary main_cst_31 main_v166 (broadcastInDim S100000x30 ![] bcast_S_S100000x30 : (⟨S_, .f32⟩ : BufTy).Contents (Elt F) → (⟨S100000x30, .f32⟩ : BufTy).Contents (Elt F)),
    unary main_v3 main_v167 (broadcastInDim S3200000x1 ![0] bcast_S3200000_S3200000x1_0 : (⟨S3200000, .i32⟩ : BufTy).Contents (Elt F) → (⟨S3200000x1, .i32⟩ : BufTy).Contents (Elt F)),
    ternary main_v166 main_v167 main_v165 main_v168 ((fun x i u => Host.scatterAdd scatter_S100000x30_S3200000x1_S3200000x30_1_0_0_1 x i u) : (⟨S100000x30, .f32⟩ : BufTy).Contents (Elt F) → (⟨S3200000x1, .i32⟩ : BufTy).Contents (Elt F) → (⟨S3200000x30, .f32⟩ : BufTy).Contents (Elt F) → (⟨S100000x30, .f32⟩ : BufTy).Contents (Elt F)),
    nullary main_cst_32 (constant S_ .f32 0x40000000#32),
    unary main_cst_32 main_v169 (broadcastInDim S100000x30 ![] bcast_S_S100000x30 : (⟨S_, .f32⟩ : BufTy).Contents (Elt F) → (⟨S100000x30, .f32⟩ : BufTy).Contents (Elt F)),
    binary main_v169 main_v168 main_v170 (mulf : (⟨S100000x30, .f32⟩ : BufTy).Contents (Elt F) → (⟨S100000x30, .f32⟩ : BufTy).Contents (Elt F) → (⟨S100000x30, .f32⟩ : BufTy).Contents (Elt F)),
    binary main_v170 main_v131 main_v171 (subf : (⟨S100000x30, .f32⟩ : BufTy).Contents (Elt F) → (⟨S100000x30, .f32⟩ : BufTy).Contents (Elt F) → (⟨S100000x30, .f32⟩ : BufTy).Contents (Elt F)),
    unary main_arg5 main_v172 ((extractStridedSlice S1x30x30 ![3, 0, 0] · slices_S5x30x30_S1x30x30_3_0_0) : (⟨S5x30x30, .f32⟩ : BufTy).Contents (Elt F) → (⟨S1x30x30, .f32⟩ : BufTy).Contents (Elt F)),
    reshape main_v172 main_v173 rfl shapeCasts_S1x30x30_S30x30,
    binary main_v171 main_v173 main_v174 ((fun l r => Host.dotGeneral dot_S100000x30_S30x30_S100000x30_1_0_0_1_n_n none l r) : (⟨S100000x30, .f32⟩ : BufTy).Contents (Elt F) → (⟨S30x30, .f32⟩ : BufTy).Contents (Elt F) → (⟨S100000x30, .f32⟩ : BufTy).Contents (Elt F)),
    binary main_v155 main_v174 main_v175 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep9 (W : Valuation τ sig (Elt F)) (b : Ref sig .tc)
    (hb : b ∉ [main_c_29, main_v156, main_v157, main_c_30, main_v158, main_v159, main_v160, main_v161, main_v162, main_v163, main_v164, main_v165, main_cst_31, main_v166, main_v167, main_v168, main_cst_32, main_v169, main_v170, main_v171, main_v172, main_v173, main_v174, main_v175]) :
    after (ops9 (F := F)) W (Proc.devRef .tc b) = W (Proc.devRef .tc b) :=
  after_of_forall_not_mem (b := Proc.devRef .tc b) _ _ (List.forall_iff_forall_mem.mp (by
    simp only [ops9, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step9 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg5 : W (Proc.devRef .tc main_arg5) = x5)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v131 : W (Proc.devRef .tc main_v131) = ReadP.val_main_v131 (F := F) x0 x1 x2 x3 x4)
    (h_v151 : W (Proc.devRef .tc main_v151) = ReadP.val_main_v151 (F := F) x0 x1 x2 x3 x4)
    (h_v155 : W (Proc.devRef .tc main_v155) = ReadP.val_main_v155 (F := F) x0 x1 x2 x3 x4 x5)
    :
    after ops9 W (Proc.devRef .tc main_v171) = ReadP.val_main_v171 (F := F) x0 x1 x2 x3 x4
    ∧ after ops9 W (Proc.devRef .tc main_v175) = ReadP.val_main_v175 (F := F) x0 x1 x2 x3 x4 x5 := by
  after_at
  refine ⟨?_, ?_⟩
  · rw [h_v1, h_v3, h_v31, h_v131, h_v151]; rfl
  · rw [h_arg5, h_v1, h_v3, h_v31, h_v131, h_v151, h_v155]; rfl

/-! ### Operations 217 to 240 -/

noncomputable abbrev ops10 : List (HloOp τ sig (Elt F)) :=
  [ nullary main_c_33 (constantI S_ 32 0#32),
    unary main_c_33 main_v176 (broadcastInDim S3200000 ![] bcast_S_S3200000 : (⟨S_, .i32⟩ : BufTy).Contents (Elt F) → (⟨S3200000, .i32⟩ : BufTy).Contents (Elt F)),
    binary main_v1 main_v176 main_v177 (cmpi .slt : (⟨S3200000, .i32⟩ : BufTy).Contents (Elt F) → (⟨S3200000, .i32⟩ : BufTy).Contents (Elt F) → (⟨S3200000, .i1⟩ : BufTy).Contents (Elt F)),
    nullary main_c_34 (constantI S_ 32 100000#32),
    unary main_c_34 main_v178 (broadcastInDim S3200000 ![] bcast_S_S3200000 : (⟨S_, .i32⟩ : BufTy).Contents (Elt F) → (⟨S3200000, .i32⟩ : BufTy).Contents (Elt F)),
    binary main_v1 main_v178 main_v179 (addi : (⟨S3200000, .i32⟩ : BufTy).Contents (Elt F) → (⟨S3200000, .i32⟩ : BufTy).Contents (Elt F) → (⟨S3200000, .i32⟩ : BufTy).Contents (Elt F)),
    ternary main_v177 main_v179 main_v1 main_v180 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v180 main_v181 (broadcastInDim S3200000x1 ![0] bcast_S3200000_S3200000x1_0 : (⟨S3200000, .i32⟩ : BufTy).Contents (Elt F) → (⟨S3200000x1, .i32⟩ : BufTy).Contents (Elt F)),
    binary main_v171 main_v181 main_v182 ((fun x i => Host.gather gather_S100000x30_S3200000x1_S3200000x30_1_0_n_n_0_1_130 x i) : (⟨S100000x30, .f32⟩ : BufTy).Contents (Elt F) → (⟨S3200000x1, .i32⟩ : BufTy).Contents (Elt F) → (⟨S3200000x30, .f32⟩ : BufTy).Contents (Elt F)),
    unary main_v31 main_v183 (broadcastInDim S3200000x1 ![0] bcast_S3200000_S3200000x1_0 : (⟨S3200000, .f32⟩ : BufTy).Contents (Elt F) → (⟨S3200000x1, .f32⟩ : BufTy).Contents (Elt F)),
    unary main_v183 main_v184 (broadcastInDim S3200000x30 ![0, 1] bcast_S3200000x1_S3200000x30_0_1 : (⟨S3200000x1, .f32⟩ : BufTy).Contents (Elt F) → (⟨S3200000x30, .f32⟩ : BufTy).Contents (Elt F)),
    binary main_v182 main_v184 main_v185 (mulf : (⟨S3200000x30, .f32⟩ : BufTy).Contents (Elt F) → (⟨S3200000x30, .f32⟩ : BufTy).Contents (Elt F) → (⟨S3200000x30, .f32⟩ : BufTy).Contents (Elt F)),
    nullary main_cst_35 (constant S_ .f32 0x00000000#32),
    unary main_cst_35 main_v186 (broadcastInDim S100000x30 ![] bcast_S_S100000x30 : (⟨S_, .f32⟩ : BufTy).Contents (Elt F) → (⟨S100000x30, .f32⟩ : BufTy).Contents (Elt F)),
    unary main_v3 main_v187 (broadcastInDim S3200000x1 ![0] bcast_S3200000_S3200000x1_0 : (⟨S3200000, .i32⟩ : BufTy).Contents (Elt F) → (⟨S3200000x1, .i32⟩ : BufTy).Contents (Elt F)),
    ternary main_v186 main_v187 main_v185 main_v188 ((fun x i u => Host.scatterAdd scatter_S100000x30_S3200000x1_S3200000x30_1_0_0_1 x i u) : (⟨S100000x30, .f32⟩ : BufTy).Contents (Elt F) → (⟨S3200000x1, .i32⟩ : BufTy).Contents (Elt F) → (⟨S3200000x30, .f32⟩ : BufTy).Contents (Elt F) → (⟨S100000x30, .f32⟩ : BufTy).Contents (Elt F)),
    nullary main_cst_36 (constant S_ .f32 0x40000000#32),
    unary main_cst_36 main_v189 (broadcastInDim S100000x30 ![] bcast_S_S100000x30 : (⟨S_, .f32⟩ : BufTy).Contents (Elt F) → (⟨S100000x30, .f32⟩ : BufTy).Contents (Elt F)),
    binary main_v189 main_v188 main_v190 (mulf : (⟨S100000x30, .f32⟩ : BufTy).Contents (Elt F) → (⟨S100000x30, .f32⟩ : BufTy).Contents (Elt F) → (⟨S100000x30, .f32⟩ : BufTy).Contents (Elt F)),
    binary main_v190 main_v151 main_v191 (subf : (⟨S100000x30, .f32⟩ : BufTy).Contents (Elt F) → (⟨S100000x30, .f32⟩ : BufTy).Contents (Elt F) → (⟨S100000x30, .f32⟩ : BufTy).Contents (Elt F)),
    unary main_arg5 main_v192 ((extractStridedSlice S1x30x30 ![4, 0, 0] · slices_S5x30x30_S1x30x30_4_0_0) : (⟨S5x30x30, .f32⟩ : BufTy).Contents (Elt F) → (⟨S1x30x30, .f32⟩ : BufTy).Contents (Elt F)),
    reshape main_v192 main_v193 rfl shapeCasts_S1x30x30_S30x30,
    binary main_v191 main_v193 main_v194 ((fun l r => Host.dotGeneral dot_S100000x30_S30x30_S100000x30_1_0_0_1_n_n none l r) : (⟨S100000x30, .f32⟩ : BufTy).Contents (Elt F) → (⟨S30x30, .f32⟩ : BufTy).Contents (Elt F) → (⟨S100000x30, .f32⟩ : BufTy).Contents (Elt F)),
    binary main_v175 main_v194 main_v195 (addf : (⟨S100000x30, .f32⟩ : BufTy).Contents (Elt F) → (⟨S100000x30, .f32⟩ : BufTy).Contents (Elt F) → (⟨S100000x30, .f32⟩ : BufTy).Contents (Elt F)) ]

/-- A buffer that is the result of none of these operations is as before them. -/
theorem keep10 (W : Valuation τ sig (Elt F)) (b : Ref sig .tc)
    (hb : b ∉ [main_c_33, main_v176, main_v177, main_c_34, main_v178, main_v179, main_v180, main_v181, main_v182, main_v183, main_v184, main_v185, main_cst_35, main_v186, main_v187, main_v188, main_cst_36, main_v189, main_v190, main_v191, main_v192, main_v193, main_v194, main_v195]) :
    after (ops10 (F := F)) W (Proc.devRef .tc b) = W (Proc.devRef .tc b) :=
  after_of_forall_not_mem (b := Proc.devRef .tc b) _ _ (List.forall_iff_forall_mem.mp (by
    simp only [ops10, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step10 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg5 : W (Proc.devRef .tc main_arg5) = x5)
    (h_v1 : W (Proc.devRef .tc main_v1) = ReadP.val_main_v1 (F := F) x1)
    (h_v3 : W (Proc.devRef .tc main_v3) = ReadP.val_main_v3 (F := F) x1)
    (h_v31 : W (Proc.devRef .tc main_v31) = ReadP.val_main_v31 (F := F) x1 x2)
    (h_v151 : W (Proc.devRef .tc main_v151) = ReadP.val_main_v151 (F := F) x0 x1 x2 x3 x4)
    (h_v171 : W (Proc.devRef .tc main_v171) = ReadP.val_main_v171 (F := F) x0 x1 x2 x3 x4)
    (h_v175 : W (Proc.devRef .tc main_v175) = ReadP.val_main_v175 (F := F) x0 x1 x2 x3 x4 x5)
    :
    after ops10 W (Proc.devRef .tc main_v195) = ReadP.val_main_v195 (F := F) x0 x1 x2 x3 x4 x5 := by
  after_at
  rw [h_arg5, h_v1, h_v3, h_v31, h_v151, h_v171, h_v175]; rfl

/-! ### Operations 241 to 250 -/

noncomputable abbrev ops11 : List (HloOp τ sig (Elt F)) :=
  [ unary main_arg6 main_v196 (broadcastInDim S1x30 ![1] bcast_S30_S1x30_1 : (⟨S30, .f32⟩ : BufTy).Contents (Elt F) → (⟨S1x30, .f32⟩ : BufTy).Contents (Elt F)),
    unary main_v196 main_v197 (broadcastInDim S100000x30 ![0, 1] bcast_S1x30_S100000x30_0_1 : (⟨S1x30, .f32⟩ : BufTy).Contents (Elt F) → (⟨S100000x30, .f32⟩ : BufTy).Contents (Elt F)),
    binary main_v195 main_v197 main_v198 (addf : (⟨S100000x30, .f32⟩ : BufTy).Contents (Elt F) → (⟨S100000x30, .f32⟩ : BufTy).Contents (Elt F) → (⟨S100000x30, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x30, .f32⟩) main_call3_v0) (broadcastInDim S100000x30 ![] bcast_S_S100000x30),
    TRef.binary (TRef.of (T := ⟨S100000x30, .f32⟩) main_v198) (TRef.of (T := ⟨S100000x30, .f32⟩) main_call3_v0) (TRef.of (T := ⟨S100000x30, .f32⟩) main_v199) maximumf,
    binary main_v199 main_arg7 main_v200 ((fun l r => Host.dotGeneral dot_S100000x30_S30x4_S100000x4_1_0_0_1_n_n none l r) : (⟨S100000x30, .f32⟩ : BufTy).Contents (Elt F) → (⟨S30x4, .f32⟩ : BufTy).Contents (Elt F) → (⟨S100000x4, .f32⟩ : BufTy).Contents (Elt F)),
    unary main_arg8 main_v201 (broadcastInDim S1x4 ![1] bcast_S4_S1x4_1 : (⟨S4, .f32⟩ : BufTy).Contents (Elt F) → (⟨S1x4, .f32⟩ : BufTy).Contents (Elt F)),
    unary main_v201 main_v202 (broadcastInDim S100000x4 ![0, 1] bcast_S1x4_S100000x4_0_1 : (⟨S1x4, .f32⟩ : BufTy).Contents (Elt F) → (⟨S100000x4, .f32⟩ : BufTy).Contents (Elt F)),
    binary main_v200 main_v202 main_v203 (addf : (⟨S100000x4, .f32⟩ : BufTy).Contents (Elt F) → (⟨S100000x4, .f32⟩ : BufTy).Contents (Elt F) → (⟨S100000x4, .f32⟩ : BufTy).Contents (Elt F)) ]

/-- A buffer that is the result of none of these operations is as before them. -/
theorem keep11 (W : Valuation τ sig (Elt F)) (b : Ref sig .tc)
    (hb : b ∉ [main_v196, main_v197, main_v198, main_call3_cst, main_call3_v0, main_v199, main_v200, main_v201, main_v202, main_v203]) :
    after (ops11 (F := F)) W (Proc.devRef .tc b) = W (Proc.devRef .tc b) :=
  after_of_forall_not_mem (b := Proc.devRef .tc b) _ _ (List.forall_iff_forall_mem.mp (by
    simp only [ops11, List.Forall, nullary_writes, unary_writes, binary_writes, ternary_writes, reshape_writes,
      Finset.mem_singleton]
    repeat' apply And.intro
    all_goals exact devRef_ne_of_ne (fun e => hb (by subst e; decide))))

set_option maxHeartbeats 1600000 in
/-- From contents holding the stages these operations read, they leave the stages they compute for later ones. -/
theorem step11 (W : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg6 : W (Proc.devRef .tc main_arg6) = x6)
    (h_arg7 : W (Proc.devRef .tc main_arg7) = x7)
    (h_arg8 : W (Proc.devRef .tc main_arg8) = x8)
    (h_v195 : W (Proc.devRef .tc main_v195) = ReadP.val_main_v195 (F := F) x0 x1 x2 x3 x4 x5)
    :
    after ops11 W (Proc.devRef .tc main_v203) = ReadP.val_main_v203 (F := F) x0 x1 x2 x3 x4 x5 x6 x7 x8 := by
  after_at
  rw [h_arg6, h_arg7, h_arg8, h_v195]; rfl

end Cert.ReferenceIdeal.RunH

end
-- ==== Proof.RefRun.lean ====
import proofs.«140782_j81638738363109_1_alg».proof.Proof.RefRunPieces

/-!
# The reference's run, stated over the stage functions

`StableHlo.run_seq` gives, for the straight line of the reference's operations, termination and every buffer at the
fold `StableHlo.after` of the operations over the launch contents. This module reads that fold back:

* at the result's buffer, by cutting the line into the twelve pieces of the module imported above and carrying from
  cut to cut the facts "this buffer holds this stage function of the arguments" for exactly the buffers read later;
* at each argument's buffer, by observing that no operation writes an argument.
-/

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 8192 in
set_option maxHeartbeats 4000000 in
/-- The line of operations is its twelve pieces in a row. -/
theorem ops_split : (ops : List (HloOp τ sig (Elt F))) = ops0 ++ (ops1 ++ (ops2 ++ (ops3 ++ (ops4 ++ (ops5 ++ (ops6 ++ (ops7 ++ (ops8 ++ (ops9 ++ (ops10 ++ (ops11))))))))))) := rfl

/-- So its fold is the pieces' folds, one after the other. -/
theorem after_ops (X : Valuation τ sig (Elt F)) : after ops X = after ops11 (after ops10 (after ops9 (after ops8 (after ops7 (after ops6 (after ops5 (after ops4 (after ops3 (after ops2 (after ops1 (after ops0 X))))))))))) := by
  rw [ops_split]; simp only [after_append]

/-- The fold at the result's buffer is the last stage function of the contents at the arguments' buffers. -/
theorem readback (X : Valuation τ sig (Elt F)) (x0 : (⟨S100000x10, .f32⟩ : BufTy).Contents (Elt F)) (x1 : (⟨S2x3200000, .i32⟩ : BufTy).Contents (Elt F)) (x2 : (⟨S3200000, .f32⟩ : BufTy).Contents (Elt F)) (x3 : (⟨S5x10x30, .f32⟩ : BufTy).Contents (Elt F)) (x4 : (⟨S30, .f32⟩ : BufTy).Contents (Elt F)) (x5 : (⟨S5x30x30, .f32⟩ : BufTy).Contents (Elt F)) (x6 : (⟨S30, .f32⟩ : BufTy).Contents (Elt F)) (x7 : (⟨S30x4, .f32⟩ : BufTy).Contents (Elt F)) (x8 : (⟨S4, .f32⟩ : BufTy).Contents (Elt F))
    (h_arg0 : X (Proc.devRef .tc main_arg0) = x0)
    (h_arg1 : X (Proc.devRef .tc main_arg1) = x1)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7)
    (h_arg8 : X (Proc.devRef .tc main_arg8) = x8) :
    after ops X (Proc.devRef .tc main_v203) = ReadP.val_main_v203 (F := F) x0 x1 x2 x3 x4 x5 x6 x7 x8 := by
  rw [after_ops]
  -- operations 0 to 23
  have s := step0 X x0 x1 x2 x3 x4 x5 x6 x7 x8 h_arg1 h_arg2
  have h_arg0 := (keep0 X main_arg0 (by decide)).trans h_arg0
  have h_arg3 := (keep0 X main_arg3 (by decide)).trans h_arg3
  have h_arg4 := (keep0 X main_arg4 (by decide)).trans h_arg4
  have h_arg5 := (keep0 X main_arg5 (by decide)).trans h_arg5
  have h_arg6 := (keep0 X main_arg6 (by decide)).trans h_arg6
  have h_arg7 := (keep0 X main_arg7 (by decide)).trans h_arg7
  have h_arg8 := (keep0 X main_arg8 (by decide)).trans h_arg8
  obtain ⟨h_v1, h_v3, h_v5, h_v14⟩ := s
  -- operations 24 to 44
  have s := step1 (after ops0 X) x0 x1 x2 x3 x4 x5 x6 x7 x8 h_v1 h_v3 h_v5 h_v14
  have h_arg0 := (keep1 (after ops0 X) main_arg0 (by decide)).trans h_arg0
  have h_arg3 := (keep1 (after ops0 X) main_arg3 (by decide)).trans h_arg3
  have h_arg4 := (keep1 (after ops0 X) main_arg4 (by decide)).trans h_arg4
  have h_arg5 := (keep1 (after ops0 X) main_arg5 (by decide)).trans h_arg5
  have h_arg6 := (keep1 (after ops0 X) main_arg6 (by decide)).trans h_arg6
  have h_arg7 := (keep1 (after ops0 X) main_arg7 (by decide)).trans h_arg7
  have h_arg8 := (keep1 (after ops0 X) main_arg8 (by decide)).trans h_arg8
  have h_v1 := (keep1 (after ops0 X) main_v1 (by decide)).trans h_v1
  have h_v3 := (keep1 (after ops0 X) main_v3 (by decide)).trans h_v3
  have h_v31 := s
  -- operations 45 to 67
  have s := step2 (after ops1 (after ops0 X)) x0 x1 x2 x3 x4 x5 x6 x7 x8 h_arg0 h_arg3 h_v1 h_v3 h_v31
  have h_arg0 := (keep2 (after ops1 (after ops0 X)) main_arg0 (by decide)).trans h_arg0
  have h_arg3 := (keep2 (after ops1 (after ops0 X)) main_arg3 (by decide)).trans h_arg3
  have h_arg4 := (keep2 (after ops1 (after ops0 X)) main_arg4 (by decide)).trans h_arg4
  have h_arg5 := (keep2 (after ops1 (after ops0 X)) main_arg5 (by decide)).trans h_arg5
  have h_arg6 := (keep2 (after ops1 (after ops0 X)) main_arg6 (by decide)).trans h_arg6
  have h_arg7 := (keep2 (after ops1 (after ops0 X)) main_arg7 (by decide)).trans h_arg7
  have h_arg8 := (keep2 (after ops1 (after ops0 X)) main_arg8 (by decide)).trans h_arg8
  have h_v1 := (keep2 (after ops1 (after ops0 X)) main_v1 (by decide)).trans h_v1
  have h_v3 := (keep2 (after ops1 (after ops0 X)) main_v3 (by decide)).trans h_v3
  have h_v31 := (keep2 (after ops1 (after ops0 X)) main_v31 (by decide)).trans h_v31
  obtain ⟨h_v47, h_v51⟩ := s
  -- operations 68 to 91
  have s := step3 (after ops2 (after ops1 (after ops0 X))) x0 x1 x2 x3 x4 x5 x6 x7 x8 h_arg0 h_arg3 h_v1 h_v3 h_v31 h_v47 h_v51
  have h_arg3 := (keep3 (after ops2 (after ops1 (after ops0 X))) main_arg3 (by decide)).trans h_arg3
  have h_arg4 := (keep3 (after ops2 (after ops1 (after ops0 X))) main_arg4 (by decide)).trans h_arg4
  have h_arg5 := (keep3 (after ops2 (after ops1 (after ops0 X))) main_arg5 (by decide)).trans h_arg5
  have h_arg6 := (keep3 (after ops2 (after ops1 (after ops0 X))) main_arg6 (by decide)).trans h_arg6
  have h_arg7 := (keep3 (after ops2 (after ops1 (after ops0 X))) main_arg7 (by decide)).trans h_arg7
  have h_arg8 := (keep3 (after ops2 (after ops1 (after ops0 X))) main_arg8 (by decide)).trans h_arg8
  have h_v1 := (keep3 (after ops2 (after ops1 (after ops0 X))) main_v1 (by decide)).trans h_v1
  have h_v3 := (keep3 (after ops2 (after ops1 (after ops0 X))) main_v3 (by decide)).trans h_v3
  have h_v31 := (keep3 (after ops2 (after ops1 (after ops0 X))) main_v31 (by decide)).trans h_v31
  have h_v47 := (keep3 (after ops2 (after ops1 (after ops0 X))) main_v47 (by decide)).trans h_v47
  obtain ⟨h_v67, h_v71⟩ := s
  -- operations 92 to 115
  have s := step4 (after ops3 (after ops2 (after ops1 (after ops0 X)))) x0 x1 x2 x3 x4 x5 x6 x7 x8 h_arg3 h_v1 h_v3 h_v31 h_v47 h_v67 h_v71
  have h_arg3 := (keep4 (after ops3 (after ops2 (after ops1 (after ops0 X)))) main_arg3 (by decide)).trans h_arg3
  have h_arg4 := (keep4 (after ops3 (after ops2 (after ops1 (after ops0 X)))) main_arg4 (by decide)).trans h_arg4
  have h_arg5 := (keep4 (after ops3 (after ops2 (after ops1 (after ops0 X)))) main_arg5 (by decide)).trans h_arg5
  have h_arg6 := (keep4 (after ops3 (after ops2 (after ops1 (after ops0 X)))) main_arg6 (by decide)).trans h_arg6
  have h_arg7 := (keep4 (after ops3 (after ops2 (after ops1 (after ops0 X)))) main_arg7 (by decide)).trans h_arg7
  have h_arg8 := (keep4 (after ops3 (after ops2 (after ops1 (after ops0 X)))) main_arg8 (by decide)).trans h_arg8
  have h_v1 := (keep4 (after ops3 (after ops2 (after ops1 (after ops0 X)))) main_v1 (by decide)).trans h_v1
  have h_v3 := (keep4 (after ops3 (after ops2 (after ops1 (after ops0 X)))) main_v3 (by decide)).trans h_v3
  have h_v31 := (keep4 (after ops3 (after ops2 (after ops1 (after ops0 X)))) main_v31 (by decide)).trans h_v31
  have h_v67 := (keep4 (after ops3 (after ops2 (after ops1 (after ops0 X)))) main_v67 (by decide)).trans h_v67
  obtain ⟨h_v87, h_v91⟩ := s
  -- operations 116 to 139
  have s := step5 (after ops4 (after ops3 (after ops2 (after ops1 (after ops0 X))))) x0 x1 x2 x3 x4 x5 x6 x7 x8 h_arg3 h_v1 h_v3 h_v31 h_v67 h_v87 h_v91
  have h_arg4 := (keep5 (after ops4 (after ops3 (after ops2 (after ops1 (after ops0 X))))) main_arg4 (by decide)).trans h_arg4
  have h_arg5 := (keep5 (after ops4 (after ops3 (after ops2 (after ops1 (after ops0 X))))) main_arg5 (by decide)).trans h_arg5
  have h_arg6 := (keep5 (after ops4 (after ops3 (after ops2 (after ops1 (after ops0 X))))) main_arg6 (by decide)).trans h_arg6
  have h_arg7 := (keep5 (after ops4 (after ops3 (after ops2 (after ops1 (after ops0 X))))) main_arg7 (by decide)).trans h_arg7
  have h_arg8 := (keep5 (after ops4 (after ops3 (after ops2 (after ops1 (after ops0 X))))) main_arg8 (by decide)).trans h_arg8
  have h_v1 := (keep5 (after ops4 (after ops3 (after ops2 (after ops1 (after ops0 X))))) main_v1 (by decide)).trans h_v1
  have h_v3 := (keep5 (after ops4 (after ops3 (after ops2 (after ops1 (after ops0 X))))) main_v3 (by decide)).trans h_v3
  have h_v31 := (keep5 (after ops4 (after ops3 (after ops2 (after ops1 (after ops0 X))))) main_v31 (by decide)).trans h_v31
  have h_v111 := s
  -- operations 140 to 148
  have s := step6 (after ops5 (after ops4 (after ops3 (after ops2 (after ops1 (after ops0 X)))))) x0 x1 x2 x3 x4 x5 x6 x7 x8 h_arg4 h_arg5 h_v111
  have h_arg5 := (keep6 (after ops5 (after ops4 (after ops3 (after ops2 (after ops1 (after ops0 X)))))) main_arg5 (by decide)).trans h_arg5
  have h_arg6 := (keep6 (after ops5 (after ops4 (after ops3 (after ops2 (after ops1 (after ops0 X)))))) main_arg6 (by decide)).trans h_arg6
  have h_arg7 := (keep6 (after ops5 (after ops4 (after ops3 (after ops2 (after ops1 (after ops0 X)))))) main_arg7 (by decide)).trans h_arg7
  have h_arg8 := (keep6 (after ops5 (after ops4 (after ops3 (after ops2 (after ops1 (after ops0 X)))))) main_arg8 (by decide)).trans h_arg8
  have h_v1 := (keep6 (after ops5 (after ops4 (after ops3 (after ops2 (after ops1 (after ops0 X)))))) main_v1 (by decide)).trans h_v1
  have h_v3 := (keep6 (after ops5 (after ops4 (after ops3 (after ops2 (after ops1 (after ops0 X)))))) main_v3 (by decide)).trans h_v3
  have h_v31 := (keep6 (after ops5 (after ops4 (after ops3 (after ops2 (after ops1 (after ops0 X)))))) main_v31 (by decide)).trans h_v31
  obtain ⟨h_v115, h_v118⟩ := s
  -- operations 149 to 168
  have s := step7 (after ops6 (after ops5 (after ops4 (after ops3 (after ops2 (after ops1 (after ops0 X))))))) x0 x1 x2 x3 x4 x5 x6 x7 x8 h_arg5 h_v1 h_v3 h_v31 h_v115 h_v118
  have h_arg5 := (keep7 (after ops6 (after ops5 (after ops4 (after ops3 (after ops2 (after ops1 (after ops0 X))))))) main_arg5 (by decide)).trans h_arg5
  have h_arg6 := (keep7 (after ops6 (after ops5 (after ops4 (after ops3 (after ops2 (after ops1 (after ops0 X))))))) main_arg6 (by decide)).trans h_arg6
  have h_arg7 := (keep7 (after ops6 (after ops5 (after ops4 (after ops3 (after ops2 (after ops1 (after ops0 X))))))) main_arg7 (by decide)).trans h_arg7
  have h_arg8 := (keep7 (after ops6 (after ops5 (after ops4 (after ops3 (after ops2 (after ops1 (after ops0 X))))))) main_arg8 (by decide)).trans h_arg8
  have h_v1 := (keep7 (after ops6 (after ops5 (after ops4 (after ops3 (after ops2 (after ops1 (after ops0 X))))))) main_v1 (by decide)).trans h_v1
  have h_v3 := (keep7 (after ops6 (after ops5 (after ops4 (after ops3 (after ops2 (after ops1 (after ops0 X))))))) main_v3 (by decide)).trans h_v3
  have h_v31 := (keep7 (after ops6 (after ops5 (after ops4 (after ops3 (after ops2 (after ops1 (after ops0 X))))))) main_v31 (by decide)).trans h_v31
  have h_v115 := (keep7 (after ops6 (after ops5 (after ops4 (after ops3 (after ops2 (after ops1 (after ops0 X))))))) main_v115 (by decide)).trans h_v115
  obtain ⟨h_v131, h_v135⟩ := s
  -- operations 169 to 192
  have s := step8 (after ops7 (after ops6 (after ops5 (after ops4 (after ops3 (after ops2 (after ops1 (after ops0 X)))))))) x0 x1 x2 x3 x4 x5 x6 x7 x8 h_arg5 h_v1 h_v3 h_v31 h_v115 h_v131 h_v135
  have h_arg5 := (keep8 (after ops7 (after ops6 (after ops5 (after ops4 (after ops3 (after ops2 (after ops1 (after ops0 X)))))))) main_arg5 (by decide)).trans h_arg5
  have h_arg6 := (keep8 (after ops7 (after ops6 (after ops5 (after ops4 (after ops3 (after ops2 (after ops1 (after ops0 X)))))))) main_arg6 (by decide)).trans h_arg6
  have h_arg7 := (keep8 (after ops7 (after ops6 (after ops5 (after ops4 (after ops3 (after ops2 (after ops1 (after ops0 X)))))))) main_arg7 (by decide)).trans h_arg7
  have h_arg8 := (keep8 (after ops7 (after ops6 (after ops5 (after ops4 (after ops3 (after ops2 (after ops1 (after ops0 X)))))))) main_arg8 (by decide)).trans h_arg8
  have h_v1 := (keep8 (after ops7 (after ops6 (after ops5 (after ops4 (after ops3 (after ops2 (after ops1 (after ops0 X)))))))) main_v1 (by decide)).trans h_v1
  have h_v3 := (keep8 (after ops7 (after ops6 (after ops5 (after ops4 (after ops3 (after ops2 (after ops1 (after ops0 X)))))))) main_v3 (by decide)).trans h_v3
  have h_v31 := (keep8 (after ops7 (after ops6 (after ops5 (after ops4 (after ops3 (after ops2 (after ops1 (after ops0 X)))))))) main_v31 (by decide)).trans h_v31
  have h_v131 := (keep8 (after ops7 (after ops6 (after ops5 (after ops4 (after ops3 (after ops2 (after ops1 (after ops0 X)))))))) main_v131 (by decide)).trans h_v131
  obtain ⟨h_v151, h_v155⟩ := s
  -- operations 193 to 216
  have s := step9 (after ops8 (after ops7 (after ops6 (after ops5 (after ops4 (after ops3 (after ops2 (after ops1 (after ops0 X))))))))) x0 x1 x2 x3 x4 x5 x6 x7 x8 h_arg5 h_v1 h_v3 h_v31 h_v131 h_v151 h_v155
  have h_arg5 := (keep9 (after ops8 (after ops7 (after ops6 (after ops5 (after ops4 (after ops3 (after ops2 (after ops1 (after ops0 X))))))))) main_arg5 (by decide)).trans h_arg5
  have h_arg6 := (keep9 (after ops8 (after ops7 (after ops6 (after ops5 (after ops4 (after ops3 (after ops2 (after ops1 (after ops0 X))))))))) main_arg6 (by decide)).trans h_arg6
  have h_arg7 := (keep9 (after ops8 (after ops7 (after ops6 (after ops5 (after ops4 (after ops3 (after ops2 (after ops1 (after ops0 X))))))))) main_arg7 (by decide)).trans h_arg7
  have h_arg8 := (keep9 (after ops8 (after ops7 (after ops6 (after ops5 (after ops4 (after ops3 (after ops2 (after ops1 (after ops0 X))))))))) main_arg8 (by decide)).trans h_arg8
  have h_v1 := (keep9 (after ops8 (after ops7 (after ops6 (after ops5 (after ops4 (after ops3 (after ops2 (after ops1 (after ops0 X))))))))) main_v1 (by decide)).trans h_v1
  have h_v3 := (keep9 (after ops8 (after ops7 (after ops6 (after ops5 (after ops4 (after ops3 (after ops2 (after ops1 (after ops0 X))))))))) main_v3 (by decide)).trans h_v3
  have h_v31 := (keep9 (after ops8 (after ops7 (after ops6 (after ops5 (after ops4 (after ops3 (after ops2 (after ops1 (after ops0 X))))))))) main_v31 (by decide)).trans h_v31
  have h_v151 := (keep9 (after ops8 (after ops7 (after ops6 (after ops5 (after ops4 (after ops3 (after ops2 (after ops1 (after ops0 X))))))))) main_v151 (by decide)).trans h_v151
  obtain ⟨h_v171, h_v175⟩ := s
  -- operations 217 to 240
  have s := step10 (after ops9 (after ops8 (after ops7 (after ops6 (after ops5 (after ops4 (after ops3 (after ops2 (after ops1 (after ops0 X)))))))))) x0 x1 x2 x3 x4 x5 x6 x7 x8 h_arg5 h_v1 h_v3 h_v31 h_v151 h_v171 h_v175
  have h_arg6 := (keep10 (after ops9 (after ops8 (after ops7 (after ops6 (after ops5 (after ops4 (after ops3 (after ops2 (after ops1 (after ops0 X)))))))))) main_arg6 (by decide)).trans h_arg6
  have h_arg7 := (keep10 (after ops9 (after ops8 (after ops7 (after ops6 (after ops5 (after ops4 (after ops3 (after ops2 (after ops1 (after ops0 X)))))))))) main_arg7 (by decide)).trans h_arg7
  have h_arg8 := (keep10 (after ops9 (after ops8 (after ops7 (after ops6 (after ops5 (after ops4 (after ops3 (after ops2 (after ops1 (after ops0 X)))))))))) main_arg8 (by decide)).trans h_arg8
  have h_v195 := s
  exact step11 (after ops10 (after ops9 (after ops8 (after ops7 (after ops6 (after ops5 (after ops4 (after ops3 (after ops2 (after ops1 (after ops0 X))))))))))) x0 x1 x2 x3 x4 x5 x6 x7 x8 h_arg6 h_arg7 h_arg8 h_v195

/-- The arguments of @main, as references. -/
abbrev argRefs : List (Ref sig .tc) :=
  [main_arg0, main_arg1, main_arg2, main_arg3, main_arg4, main_arg5, main_arg6, main_arg7, main_arg8]

set_option maxRecDepth 8192 in
set_option maxHeartbeats 4000000 in
/-- No operation of the reference writes an argument: each writes its own result value's buffer, and no result
    value is an argument. So the fold leaves every argument's buffer as it found it. -/
theorem arg_kept (X : Valuation τ sig (Elt F)) {b : Ref sig .tc} (hb : b ∈ argRefs) :
    after ops X (Proc.devRef .tc b) = X (Proc.devRef .tc b) :=
  after_of_forall_not_mem (b := Proc.devRef .tc b) _ _ (List.forall_iff_forall_mem.mp (by
    simp only [ops, List.Forall, nullary_writes, unary_writes, binary_writes, ternary_writes, reshape_writes,
      Finset.mem_singleton]
    repeat' apply And.intro
    all_goals exact devRef_ne_of_ne (fun e => absurd hb (by subst e; decide))))

set_option maxRecDepth 8192 in
set_option maxHeartbeats 4000000 in
/-- On every device, for any float values, from any memory with zero counters: every weakly fair execution of the
    reference terminates with its result at the last stage's value of the launch arguments, and the arguments as
    launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v203) = ReadP.val_main_v203 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v203).trans (readback (launchContents m c) _ _ _ _ _ _ _ _ _ rfl rfl rfl rfl rfl rfl rfl rfl rfl),
      (h c main_arg0).trans (arg_kept (launchContents m c) (by decide)),
      (h c main_arg1).trans (arg_kept (launchContents m c) (by decide)),
      (h c main_arg2).trans (arg_kept (launchContents m c) (by decide)),
      (h c main_arg3).trans (arg_kept (launchContents m c) (by decide)),
      (h c main_arg4).trans (arg_kept (launchContents m c) (by decide)),
      (h c main_arg5).trans (arg_kept (launchContents m c) (by decide)),
      (h c main_arg6).trans (arg_kept (launchContents m c) (by decide)),
      (h c main_arg7).trans (arg_kept (launchContents m c) (by decide)),
      (h c main_arg8).trans (arg_kept (launchContents m c) (by decide))⟩)
    (run_seq scopedRefs_eq scopedSems_eq defs main (fun _ => ops) main_eq (fun _ => ops_sub) m ρ)

end Cert.ReferenceIdeal.RunH

end
-- ==== Proof.lean ====
/-
  The certificate: the Pallas Chebyshev graph network against its jnp reference, over the extended reals.

  The kernel program is three launches of one affine kernel among host operations: a host prefix computes the symmetric
  edge normalisation and, per layer, the Chebyshev terms T0 … T4 of the propagate recursion (gathers and scatter-adds over
  the 3,200,000 edges), stacks them, and the kernel computes max(0 + Σ_k T_k·W[k] + b, 0) ten row blocks at a time; a last
  launch computes 0 + h·Wl + bl. The reference runs the same host code and computes relu(T0·W[0] + … + T4·W[4] + b) by
  five products added left to right, then h·Wl + bl.

  At the ideal instance a change of float format is the identity, every product is the exact sum over the inner axis, and
  the two programs differ only by the kernel's leading 0 + …, which is the identity on every extended real: no input
  need be finite for that, so the precondition is never opened. The frames: each launch's body loads its blocks, stores
  one value over its whole output block and touches nothing else, the host operations write only their own results, so
  every argument array ends as launched. The kernel's idealization rewrote nothing (its ledger is empty).
-/
import proofs.«140782_j81638738363109_1_alg».proof.Defs
import proofs.«140782_j81638738363109_1_alg».proof.Proof.Gen.Kernel
import proofs.«140782_j81638738363109_1_alg».proof.Proof.Gen.KernelIdeal
import proofs.«140782_j81638738363109_1_alg».proof.Proof.Gen.ReferenceIdeal
import proofs.«140782_j81638738363109_1_alg».proof.Proof.Gen.Pre_finite_inputs
import proofs.«140782_j81638738363109_1_alg».proof.Proof.K.Run
import proofs.«140782_j81638738363109_1_alg».proof.Proof.KI.Run
import proofs.«140782_j81638738363109_1_alg».proof.Proof.KI.KernelValue
import proofs.«140782_j81638738363109_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m g _ => Cert.Kernel.Fr.frame m g

/-- So does the idealized program. -/
theorem frame_ki : Cert.frame_KernelIdeal (hKernelIdeal := Cert.KernelIdeal.Gen.facts) (hPre_finite_inputs := Cert.Pre_finite_inputs.Gen.facts) :=
  fun m g _ => Cert.KernelIdeal.Fr.frame m g

/-- The reference is host operations only: its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.RunH.run (F := Ideal) m g)

/-- Both programs end with the reference's last stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨_, Cert.KernelIdeal.Val.run m g, ?_⟩
  refine (θ_run Cert.ReferenceIdeal.defs _ _).mono (fun _ h c => ⟨(h c).1.trans ?_, (h c).2⟩) (Cert.ReferenceIdeal.RunH.run (F := Ideal) m' g')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
